-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S512x256 : Shape := ⟨2, ![512, 256]⟩
abbrev S768x256 : Shape := ⟨2, ![768, 256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S768x256 : S_.BroadcastsInDim S768x256 (![] : Fin 0 → Fin S768x256.rank)
  reducesTo_S768x256_S_d0_1 : S768x256.ReducesTo [0, 1] S_

variable [Facts]

def fn_part3 {F : FTy → Type} [FloatOps F] (main_arg12 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S512 .f32) (main_arg9 : FVec F S512x256 .f32) (main_arg10 : FVec F S256 .f32) (main_arg11 : FVec F S768x256 .f32) (main_arg12 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_v48 main_v49 main_v50

def fn_part1 {F : FTy → Type} [FloatOps F] (main_arg5 : FVec F S1024x256 .f32) (main_arg6 : FVec F S256 .f32) (main_arg7 : FVec F S512x512 .f32) (main_arg8 : FVec F S512 .f32) (main_arg9 : FVec F S512x256 .f32) (main_arg10 : FVec F S256 .f32) (main_arg11 : FVec F S768x256 .f32) (main_arg12 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S8192x512 .f32) (main_arg1 : FVec F S8192x512 .f32) (main_arg2 : IVec S2x262144 32) (main_arg3 : FVec F S512x512 .f32) (main_arg4 : FVec F S512 .f32) (main_arg5 : FVec F S1024x256 .f32) (main_arg6 : FVec F S256 .f32) (main_arg7 : FVec F S512x512 .f32) (main_arg8 : FVec F S512 .f32) (main_arg9 : FVec F S512x256 .f32) (main_arg10 : FVec F S256 .f32) (main_arg11 : FVec F S768x256 .f32) (main_arg12 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S512x256 : Shape := ⟨2, ![512, 256]⟩
abbrev S768x256 : Shape := ⟨2, ![768, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S1x512 : Shape := ⟨2, ![1, 512]⟩
abbrev S1024x512 : Shape := ⟨2, ![1024, 512]⟩
abbrev S8192x1024 : Shape := ⟨2, ![8192, 1024]⟩
abbrev S1x256 : Shape := ⟨2, ![1, 256]⟩
abbrev S8192x256 : Shape := ⟨2, ![8192, 256]⟩
abbrev S1024x1024 : Shape := ⟨2, ![1024, 1024]⟩
abbrev S270336x512 : Shape := ⟨2, ![270336, 512]⟩
abbrev S270336x256 : Shape := ⟨2, ![270336, 256]⟩
abbrev S8192x768 : Shape := ⟨2, ![8192, 768]⟩
abbrev S1024x768 : Shape := ⟨2, ![1024, 768]⟩
abbrev S8192x8192 : Shape := ⟨2, ![8192, 8192]⟩

abbrev nBuf : Space → Nat
  | .hbm => 107
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S2x262144, .i32⟩
  | .hbm, ⟨3, _⟩ => ⟨S512x512, .f32⟩
  | .hbm, ⟨4, _⟩ => ⟨S512, .f32⟩
  | .hbm, ⟨5, _⟩ => ⟨S1024x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S8192, .i32⟩
  | .hbm, ⟨14, _⟩ => ⟨S1x262144, .i32⟩
  | .hbm, ⟨15, _⟩ => ⟨S262144, .i32⟩
  | .hbm, ⟨16, _⟩ => ⟨S270336, .i32⟩
  | .hbm, ⟨17, _⟩ => ⟨S1x262144, .i32⟩
  | .hbm, ⟨18, _⟩ => ⟨S262144, .i32⟩
  | .hbm, ⟨19, _⟩ => ⟨S270336, .i32⟩
  | .hbm, ⟨20, _⟩ => ⟨S_, .f32⟩
  | .hbm, ⟨21, _⟩ => ⟨S270336, .f32⟩
  | .hbm, ⟨22, _⟩ => ⟨S_, .f32⟩
  | .hbm, ⟨23, _⟩ => ⟨S8192, .f32⟩
  | .hbm, ⟨24, _⟩ => ⟨S270336x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S_, .i32⟩
  | .hbm, ⟨44, _⟩ => ⟨S270336, .i32⟩
  | .hbm, ⟨45, _⟩ => ⟨S270336, .i1⟩
  | .hbm, ⟨46, _⟩ => ⟨S_, .i32⟩
  | .hbm, ⟨47, _⟩ => ⟨S270336, .i32⟩
  | .hbm, ⟨48, _⟩ => ⟨S270336, .i32⟩
  | .hbm, ⟨49, _⟩ => ⟨S270336, .i32⟩
  | .hbm, ⟨50, _⟩ => ⟨S270336x1, .i32⟩
  | .hbm, ⟨51, _⟩ => ⟨S270336, .f32⟩
  | .hbm, ⟨52, _⟩ => ⟨S270336, .f32⟩
  | .hbm, ⟨53, _⟩ => ⟨S1x512, .f32⟩
  | .hbm, ⟨54, _⟩ => ⟨S8192x512, .f32⟩
  | .hbm, ⟨55, _⟩ => ⟨S8192x1024, .f32⟩
  | .hbm, ⟨56, _⟩ => ⟨S1x256, .f32⟩
  | .hbm, ⟨57, _⟩ => ⟨S8192x256, .f32⟩
  | .hbm, ⟨58, _⟩ => ⟨S_, .f32⟩
  | .hbm, ⟨59, _⟩ => ⟨S1x512, .f32⟩
  | .hbm, ⟨60, _⟩ => ⟨S8192x512, .f32⟩
  | .hbm, ⟨61, _⟩ => ⟨S_, .i32⟩
  | .hbm, ⟨62, _⟩ => ⟨S270336, .i32⟩
  | .hbm, ⟨63, _⟩ => ⟨S270336, .i1⟩
  | .hbm, ⟨64, _⟩ => ⟨S_, .i32⟩
  | .hbm, ⟨65, _⟩ => ⟨S270336, .i32⟩
  | .hbm, ⟨66, _⟩ => ⟨S270336, .i32⟩
  | .hbm, ⟨67, _⟩ => ⟨S270336, .i32⟩
  | .hbm, ⟨68, _⟩ => ⟨S270336x1, .i32⟩
  | .hbm, ⟨69, _⟩ => ⟨S270336x512, .f32⟩
  | .hbm, ⟨70, _⟩ => ⟨S270336x1, .f32⟩
  | .hbm, ⟨71, _⟩ => ⟨S270336x512, .f32⟩
  | .hbm, ⟨72, _⟩ => ⟨S270336x512, .f32⟩
  | .hbm, ⟨73, _⟩ => ⟨S_, .f32⟩
  | .hbm, ⟨74, _⟩ => ⟨S8192x512, .f32⟩
  | .hbm, ⟨75, _⟩ => ⟨S270336x1, .i32⟩
  | .hbm, ⟨76, _⟩ => ⟨S8192x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S1x256, .f32⟩
  | .hbm, ⟨82, _⟩ => ⟨S8192x256, .f32⟩
  | .hbm, ⟨83, _⟩ => ⟨S_, .i32⟩
  | .hbm, ⟨84, _⟩ => ⟨S270336, .i32⟩
  | .hbm, ⟨85, _⟩ => ⟨S270336, .i1⟩
  | .hbm, ⟨86, _⟩ => ⟨S_, .i32⟩
  | .hbm, ⟨87, _⟩ => ⟨S270336, .i32⟩
  | .hbm, ⟨88, _⟩ => ⟨S270336, .i32⟩
  | .hbm, ⟨89, _⟩ => ⟨S270336, .i32⟩
  | .hbm, ⟨90, _⟩ => ⟨S270336x1, .i32⟩
  | .hbm, ⟨91, _⟩ => ⟨S270336x256, .f32⟩
  | .hbm, ⟨92, _⟩ => ⟨S270336x1, .f32⟩
  | .hbm, ⟨93, _⟩ => ⟨S270336x256, .f32⟩
  | .hbm, ⟨94, _⟩ => ⟨S270336x256, .f32⟩
  | .hbm, ⟨95, _⟩ => ⟨S_, .f32⟩
  | .hbm, ⟨96, _⟩ => ⟨S8192x256, .f32⟩
  | .hbm, ⟨97, _⟩ => ⟨S270336x1, .i32⟩
  | .hbm, ⟨98, _⟩ => ⟨S8192x256, .f32⟩
  | .hbm, ⟨99, _⟩ => ⟨S1x256, .f32⟩
  | .hbm, ⟨100, _⟩ => ⟨S8192x256, .f32⟩
  | .hbm, ⟨101, _⟩ => ⟨S8192x256, .f32⟩
  | .hbm, ⟨102, _⟩ => ⟨S8192x768, .f32⟩
  | .hbm, ⟨103, _⟩ => ⟨S1x256, .f32⟩
  | .hbm, ⟨104, _⟩ => ⟨S8192x256, .f32⟩
  | .hbm, ⟨105, _⟩ => ⟨S8192x512, .f32⟩
  | .hbm, ⟨106, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S512x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1024x768, .f32⟩
  | .local _ .vmem, ⟨25, _⟩ => ⟨S1024x768, .f32⟩
  | .local _ .vmem, ⟨26, _⟩ => ⟨S768x256, .f32⟩
  | .local _ .vmem, ⟨27, _⟩ => ⟨S1x256, .f32⟩
  | .local _ .vmem, ⟨28, _⟩ => ⟨S1024x256, .f32⟩
  | .local _ .vmem, ⟨29, _⟩ => ⟨S1024x256, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x1024, .f32⟩
  | .local _ .vmem, ⟨35, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  concatenates_S8192x512_S8192x512_S8192x1024_d1 : Shape.Concatenates [S8192x512, S8192x512] S8192x1024 1
  shapeCasts_S256_S1x256 : S256.ShapeCasts S1x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S_S1x512 : S_.BroadcastsInDim S1x512 (![] : Fin 0 → Fin S1x512.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S1x256 : S_.BroadcastsInDim S1x256 (![] : Fin 0 → Fin S1x256.rank)
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  concatenates_S8192x512_S8192x256_S8192x768_d1 : Shape.Concatenates [S8192x512, S8192x256] S8192x768 1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x256_S768x256_0_0 : ∀ a, (![0, 0] : Fin 2 → Nat) a + S768x256.size a ≤ S768x256.size a
  h_S768x256 : 0 < S768x256.numel
  concatenates_S8192x256_S8192x256_S8192x512_d1 : Shape.Concatenates [S8192x256, S8192x256] S8192x512 1
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S1024x512_S512x512_S1024x512_1_0_0_1_n_n_wf : DotDims.WF S1024x512 S512x512 S1024x512 [1] [0] [0] [1] [] []
  dot_S1024x1024_S1024x256_S1024x256_1_0_0_1_n_n_wf : DotDims.WF S1024x1024 S1024x256 S1024x256 [1] [0] [0] [1] [] []
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S1024x512_S512x256_S1024x256_1_0_0_1_n_n_wf : DotDims.WF S1024x512 S512x256 S1024x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S1024x768_S768x256_S1024x256_1_0_0_1_n_n_wf : DotDims.WF S1024x768 S768x256 S1024x256 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x768.size a ≤ S8192x768.size a
  hwx4_0 : ∀ i : grid4.Coords, EltTy.bits .f32 = 32 ∨ (Rect.block (s := S8192x768) S1024x768.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x256.size a ≤ S768x256.size a
  hwx4_1 : ∀ i : grid4.Coords, EltTy.bits .f32 = 32 ∨ (Rect.block (s := S768x256) S768x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S8192x512.size a
  hwx5_0 : ∀ i : grid5.Coords, EltTy.bits .f32 = 32 ∨ (Rect.block (s := S8192x512) S1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S8192x512.size a
  hwx5_1 : ∀ i : grid5.Coords, EltTy.bits .f32 = 32 ∨ (Rect.block (s := S8192x512) S1024x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S8192x8192.size a
  hwx5_2 : ∀ i : grid5.Coords, EltTy.bits .f32 = 32 ∨ (Rect.block (s := S8192x8192) S1024x1024.size (cc5_transform_2 i) (hinb5_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S1024x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S768x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1024x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v74) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S512x256 : Shape := ⟨2, ![512, 256]⟩
abbrev S768x256 : Shape := ⟨2, ![768, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S1x512 : Shape := ⟨2, ![1, 512]⟩
abbrev S8192x1024 : Shape := ⟨2, ![8192, 1024]⟩
abbrev S8192x256 : Shape := ⟨2, ![8192, 256]⟩
abbrev S1x256 : Shape := ⟨2, ![1, 256]⟩
abbrev S270336x512 : Shape := ⟨2, ![270336, 512]⟩
abbrev S270336x256 : Shape := ⟨2, ![270336, 256]⟩
abbrev S8192x768 : Shape := ⟨2, ![8192, 768]⟩
abbrev S512x8192 : Shape := ⟨2, ![512, 8192]⟩
abbrev S8192x8192 : Shape := ⟨2, ![8192, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S2x262144, .i32⟩
  | .hbm, ⟨3, _⟩ => ⟨S512x512, .f32⟩
  | .hbm, ⟨4, _⟩ => ⟨S512, .f32⟩
  | .hbm, ⟨5, _⟩ => ⟨S1024x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S8192, .i32⟩
  | .hbm, ⟨14, _⟩ => ⟨S1x262144, .i32⟩
  | .hbm, ⟨15, _⟩ => ⟨S262144, .i32⟩
  | .hbm, ⟨16, _⟩ => ⟨S270336, .i32⟩
  | .hbm, ⟨17, _⟩ => ⟨S1x262144, .i32⟩
  | .hbm, ⟨18, _⟩ => ⟨S262144, .i32⟩
  | .hbm, ⟨19, _⟩ => ⟨S270336, .i32⟩
  | .hbm, ⟨20, _⟩ => ⟨S_, .f32⟩
  | .hbm, ⟨21, _⟩ => ⟨S270336, .f32⟩
  | .hbm, ⟨22, _⟩ => ⟨S_, .f32⟩
  | .hbm, ⟨23, _⟩ => ⟨S8192, .f32⟩
  | .hbm, ⟨24, _⟩ => ⟨S270336x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S_, .i32⟩
  | .hbm, ⟨44, _⟩ => ⟨S270336, .i32⟩
  | .hbm, ⟨45, _⟩ => ⟨S270336, .i1⟩
  | .hbm, ⟨46, _⟩ => ⟨S_, .i32⟩
  | .hbm, ⟨47, _⟩ => ⟨S270336, .i32⟩
  | .hbm, ⟨48, _⟩ => ⟨S270336, .i32⟩
  | .hbm, ⟨49, _⟩ => ⟨S270336, .i32⟩
  | .hbm, ⟨50, _⟩ => ⟨S270336x1, .i32⟩
  | .hbm, ⟨51, _⟩ => ⟨S270336, .f32⟩
  | .hbm, ⟨52, _⟩ => ⟨S270336, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x1024, .f32⟩
  | .hbm, ⟨61, _⟩ => ⟨S8192x256, .f32⟩
  | .hbm, ⟨62, _⟩ => ⟨S1x256, .f32⟩
  | .hbm, ⟨63, _⟩ => ⟨S8192x256, .f32⟩
  | .hbm, ⟨64, _⟩ => ⟨S8192x256, .f32⟩
  | .hbm, ⟨65, _⟩ => ⟨S8192x512, .f32⟩
  | .hbm, ⟨66, _⟩ => ⟨S_, .i32⟩
  | .hbm, ⟨67, _⟩ => ⟨S270336, .i32⟩
  | .hbm, ⟨68, _⟩ => ⟨S270336, .i1⟩
  | .hbm, ⟨69, _⟩ => ⟨S_, .i32⟩
  | .hbm, ⟨70, _⟩ => ⟨S270336, .i32⟩
  | .hbm, ⟨71, _⟩ => ⟨S270336, .i32⟩
  | .hbm, ⟨72, _⟩ => ⟨S270336, .i32⟩
  | .hbm, ⟨73, _⟩ => ⟨S270336x1, .i32⟩
  | .hbm, ⟨74, _⟩ => ⟨S270336x512, .f32⟩
  | .hbm, ⟨75, _⟩ => ⟨S270336x1, .f32⟩
  | .hbm, ⟨76, _⟩ => ⟨S270336x512, .f32⟩
  | .hbm, ⟨77, _⟩ => ⟨S270336x512, .f32⟩
  | .hbm, ⟨78, _⟩ => ⟨S_, .f32⟩
  | .hbm, ⟨79, _⟩ => ⟨S8192x512, .f32⟩
  | .hbm, ⟨80, _⟩ => ⟨S270336x1, .i32⟩
  | .hbm, ⟨81, _⟩ => ⟨S8192x512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S8192x256, .f32⟩
  | .hbm, ⟨86, _⟩ => ⟨S_, .i32⟩
  | .hbm, ⟨87, _⟩ => ⟨S270336, .i32⟩
  | .hbm, ⟨88, _⟩ => ⟨S270336, .i1⟩
  | .hbm, ⟨89, _⟩ => ⟨S_, .i32⟩
  | .hbm, ⟨90, _⟩ => ⟨S270336, .i32⟩
  | .hbm, ⟨91, _⟩ => ⟨S270336, .i32⟩
  | .hbm, ⟨92, _⟩ => ⟨S270336, .i32⟩
  | .hbm, ⟨93, _⟩ => ⟨S270336x1, .i32⟩
  | .hbm, ⟨94, _⟩ => ⟨S270336x256, .f32⟩
  | .hbm, ⟨95, _⟩ => ⟨S270336x1, .f32⟩
  | .hbm, ⟨96, _⟩ => ⟨S270336x256, .f32⟩
  | .hbm, ⟨97, _⟩ => ⟨S270336x256, .f32⟩
  | .hbm, ⟨98, _⟩ => ⟨S_, .f32⟩
  | .hbm, ⟨99, _⟩ => ⟨S8192x256, .f32⟩
  | .hbm, ⟨100, _⟩ => ⟨S270336x1, .i32⟩
  | .hbm, ⟨101, _⟩ => ⟨S8192x256, .f32⟩
  | .hbm, ⟨102, _⟩ => ⟨S1x256, .f32⟩
  | .hbm, ⟨103, _⟩ => ⟨S8192x256, .f32⟩
  | .hbm, ⟨104, _⟩ => ⟨S8192x256, .f32⟩
  | .hbm, ⟨105, _⟩ => ⟨S8192x768, .f32⟩
  | .hbm, ⟨106, _⟩ => ⟨S8192x256, .f32⟩
  | .hbm, ⟨107, _⟩ => ⟨S1x256, .f32⟩
  | .hbm, ⟨108, _⟩ => ⟨S8192x256, .f32⟩
  | .hbm, ⟨109, _⟩ => ⟨S8192x256, .f32⟩
  | .hbm, ⟨110, _⟩ => ⟨S8192x512, .f32⟩
  | .hbm, ⟨111, _⟩ => ⟨S512x8192, .f32⟩
  | .hbm, ⟨112, _⟩ => ⟨S8192x8192, .f32⟩
  | .hbm, ⟨113, _⟩ => ⟨S8192x8192, .f32⟩
  | .hbm, ⟨114, _⟩ => ⟨S8192x8192, .f32⟩
  | .hbm, ⟨115, _⟩ => ⟨S_, .f32⟩
  | .hbm, ⟨116, _⟩ => ⟨S8192x8192, .f32⟩
  | .hbm, ⟨117, _⟩ => ⟨S8192x8192, .f32⟩
  | .hbm, ⟨118, _⟩ => ⟨S_, .f32⟩
  | .hbm, ⟨119, _⟩ => ⟨S8192x8192, .f32⟩
  | .hbm, ⟨120, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_9 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_v84 : Ref sig .tc := ⟨.hbm, 116, rfl⟩
abbrev main_v85 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  concatenates_S8192x512_S8192x512_S8192x1024_d1 : Shape.Concatenates [S8192x512, S8192x512] S8192x1024 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S270336x1_S270336x512_0_1 : S270336x1.BroadcastsInDim S270336x512 (![0, 1] : Fin 2 → Fin S270336x512.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  concatenates_S8192x512_S8192x256_S8192x768_d1 : Shape.Concatenates [S8192x512, S8192x256] S8192x768 1
  concatenates_S8192x256_S8192x256_S8192x512_d1 : Shape.Concatenates [S8192x256, S8192x256] S8192x512 1
  transposes_S8192x512_S512x8192_1_0 : S8192x512.Transposes [1, 0] S512x8192
  bcast_S_S8192x8192 : S_.BroadcastsInDim S8192x8192 (![] : Fin 0 → Fin S8192x8192.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x512_S512x512_S8192x512_1_0_0_1_n_n_wf : DotDims.WF S8192x512 S512x512 S8192x512 [1] [0] [0] [1] [] []
  dot_S8192x1024_S1024x256_S8192x256_1_0_0_1_n_n_wf : DotDims.WF S8192x1024 S1024x256 S8192x256 [1] [0] [0] [1] [] []
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x256_S8192x256_1_0_0_1_n_n_wf : DotDims.WF S8192x512 S512x256 S8192x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x768_S768x256_S8192x256_1_0_0_1_n_n_wf : DotDims.WF S8192x768 S768x256 S8192x256 [1] [0] [0] [1] [] []
  dot_S8192x512_S512x8192_S8192x8192_1_0_0_1_n_n_wf : DotDims.WF S8192x512 S512x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KReg0.lean ====
/-
  Pallas call 0 of the program (relu (x·w + b), x = the first argument, w and b the first linear layer's): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_c : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output window's staging buffer after the body, from the three input blocks: its one store, of the body's
    arithmetic on the three loaded values, covers the buffer. -/
def out0_3 (x0 : Vec F S1024x512 .f32) (x1 : Vec F S512x512 .f32) (x2 : Vec F S1x512 .f32) : Vec F S1024x512 .f32 :=
  View.canon [⟨r0_o, k0_pay1 (View.ld x0 r0_a) (View.ld x1 r0_b) (View.ld x2 r0_c)⟩]

/-- The one store is of the whole buffer. -/
theorem cover0_3 (p0 : Vec F S1024x512 .f32) (y : S1024x512.Idx) :
    ∃ pc ∈ ([⟨r0_o, p0⟩] : List (View.Piece (Elt F) S1024x512 .f32)), y ∈ pc.1.set :=
  View.cover_of_tiled [⟨r0_o, p0⟩] S1024x512.size (by rfl) y

set_option maxHeartbeats 1000000 in
/-- The body on whole staging buffers — the inputs' at contents `x0 x1 x2`, the output's at anything — runs to its end
    with the inputs' as they were and the output's at `out0_3 x0 x1 x2`. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the call finds them; after the body at point `t` each
    input's buffer at its block and the output's at the body's value of the three input blocks; the invariant keeps
    only the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1.lean ====
/-
  Pallas call 1 of the program ([x | h]·w + b, the second linear layer on the first argument joined with the first layer's output): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_a : Rect S1024x1024 := Rect.unit (s := S1024x1024) ![0, 0] S1024x1024.size inb_S1024x1024_S1024x1024_0_0
abbrev r1_b : Rect S1024x256 := Rect.unit (s := S1024x256) ![0, 0] S1024x256.size inb_S1024x256_S1024x256_0_0
abbrev r1_c : Rect S1x256 := Rect.unit (s := S1x256) ![0, 0] S1x256.size inb_S1x256_S1x256_0_0
abbrev r1_o : Rect S1024x256 := Rect.unit (s := S1024x256) ![0, 0] S1024x256.size inb_S1024x256_S1024x256_0_0

/-- The output window's staging buffer after the body, from the three input blocks: its one store, of the body's
    arithmetic on the three loaded values, covers the buffer. -/
def out1_3 (x0 : Vec F S1024x1024 .f32) (x1 : Vec F S1024x256 .f32) (x2 : Vec F S1x256 .f32) : Vec F S1024x256 .f32 :=
  View.canon [⟨r1_o, k1_pay1 (View.ld x0 r1_a) (View.ld x1 r1_b) (View.ld x2 r1_c)⟩]

/-- The one store is of the whole buffer. -/
theorem cover1_3 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on whole staging buffers — the inputs' at contents `x0 x1 x2`, the output's at anything — runs to its end
    with the inputs' as they were and the output's at `out1_3 x0 x1 x2`. -/
theorem sound_kernel1 (c : Dev nD) (E : Set ℕ) (i : grid1.Coords) (arg1 : Memref sig .tc .vmem S1024x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the call finds them; after the body at point `t` each
    input's buffer at its block and the output's at the body's value of the three input blocks; the invariant keeps
    only the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run above applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2.lean ====
/-
  Pallas call 2 of the program (x·w + 0, the first graph layer's product, with an all-zero bias row): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev r2_a : Rect S1024x512 := Rect.unit (s := S1024x512) ![0, 0] S1024x512.size inb_S1024x512_S1024x512_0_0
abbrev r2_b : Rect S512x512 := Rect.unit (s := S512x512) ![0, 0] S512x512.size inb_S512x512_S512x512_0_0
abbrev r2_c : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output window's staging buffer after the body, from the three input blocks: its one store, of the body's
    arithmetic on the three loaded values, covers the buffer. -/
def out2_3 (x0 : Vec F S1024x512 .f32) (x1 : Vec F S512x512 .f32) (x2 : Vec F S1x512 .f32) : Vec F S1024x512 .f32 :=
  View.canon [⟨r2_o, k2_pay1 (View.ld x0 r2_a) (View.ld x1 r2_b) (View.ld x2 r2_c)⟩]

/-- The one store is of the whole buffer. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole staging buffers — the inputs' at contents `x0 x1 x2`, the output's at anything — runs to its end
    with the inputs' as they were and the output's at `out2_3 x0 x1 x2`. -/
theorem sound_kernel2 (c : Dev nD) (E : Set ℕ) (i : grid2.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the call finds them; after the body at point `t` each
    input's buffer at its block and the output's at the body's value of the three input blocks; the invariant keeps
    only the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the run above applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KReg3.lean ====
/-
  Pallas call 3 of the program (g·w + 0, the second graph layer's product, with an all-zero bias row): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when it is not
    fetched its block index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (when it is not
    fetched its block index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (when it is not
    fetched its block index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev r3_a : Rect S1024x512 := Rect.unit (s := S1024x512) ![0, 0] S1024x512.size inb_S1024x512_S1024x512_0_0
abbrev r3_b : Rect S512x256 := Rect.unit (s := S512x256) ![0, 0] S512x256.size inb_S512x256_S512x256_0_0
abbrev r3_c : Rect S1x256 := Rect.unit (s := S1x256) ![0, 0] S1x256.size inb_S1x256_S1x256_0_0
abbrev r3_o : Rect S1024x256 := Rect.unit (s := S1024x256) ![0, 0] S1024x256.size inb_S1024x256_S1024x256_0_0

/-- The output window's staging buffer after the body, from the three input blocks: its one store, of the body's
    arithmetic on the three loaded values, covers the buffer. -/
def out3_3 (x0 : Vec F S1024x512 .f32) (x1 : Vec F S512x256 .f32) (x2 : Vec F S1x256 .f32) : Vec F S1024x256 .f32 :=
  View.canon [⟨r3_o, k3_pay1 (View.ld x0 r3_a) (View.ld x1 r3_b) (View.ld x2 r3_c)⟩]

/-- The one store is of the whole buffer. -/
theorem cover3_3 (p0 : Vec F S1024x256 .f32) (y : S1024x256.Idx) :
    ∃ pc ∈ ([⟨r3_o, p0⟩] : List (View.Piece (Elt F) S1024x256 .f32)), y ∈ pc.1.set :=
  View.cover_of_tiled [⟨r3_o, p0⟩] S1024x256.size (by rfl) y

set_option maxHeartbeats 1000000 in
/-- The body on whole staging buffers — the inputs' at contents `x0 x1 x2`, the output's at anything — runs to its end
    with the inputs' as they were and the output's at `out3_3 x0 x1 x2`. -/
theorem sound_kernel3 (c : Dev nD) (E : Set ℕ) (i : grid3.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the call finds them; after the body at point `t` each
    input's buffer at its block and the output's at the body's value of the three input blocks; the invariant keeps
    only the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the run above applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KReg4.lean ====
/-
  Pallas call 4 of the program ([y | g]·w + b, the output layer on the second argument joined with the graph branch): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (when it is not
    fetched its block index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (when it is not
    fetched its block index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (when it is not
    fetched its block index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev r4_a : Rect S1024x768 := Rect.unit (s := S1024x768) ![0, 0] S1024x768.size inb_S1024x768_S1024x768_0_0
abbrev r4_b : Rect S768x256 := Rect.unit (s := S768x256) ![0, 0] S768x256.size inb_S768x256_S768x256_0_0
abbrev r4_c : Rect S1x256 := Rect.unit (s := S1x256) ![0, 0] S1x256.size inb_S1x256_S1x256_0_0
abbrev r4_o : Rect S1024x256 := Rect.unit (s := S1024x256) ![0, 0] S1024x256.size inb_S1024x256_S1024x256_0_0

/-- The output window's staging buffer after the body, from the three input blocks: its one store, of the body's
    arithmetic on the three loaded values, covers the buffer. -/
def out4_3 (x0 : Vec F S1024x768 .f32) (x1 : Vec F S768x256 .f32) (x2 : Vec F S1x256 .f32) : Vec F S1024x256 .f32 :=
  View.canon [⟨r4_o, k4_pay1 (View.ld x0 r4_a) (View.ld x1 r4_b) (View.ld x2 r4_c)⟩]

/-- The one store is of the whole buffer. -/
theorem cover4_3 (p0 : Vec F S1024x256 .f32) (y : S1024x256.Idx) :
    ∃ pc ∈ ([⟨r4_o, p0⟩] : List (View.Piece (Elt F) S1024x256 .f32)), y ∈ pc.1.set :=
  View.cover_of_tiled [⟨r4_o, p0⟩] S1024x256.size (by rfl) y

set_option maxHeartbeats 1000000 in
/-- The body on whole staging buffers — the inputs' at contents `x0 x1 x2`, the output's at anything — runs to its end
    with the inputs' as they were and the output's at `out4_3 x0 x1 x2`. -/
theorem sound_kernel4 (c : Dev nD) (E : Set ℕ) (i : grid4.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the call finds them; after the body at point `t` each
    input's buffer at its block and the output's at the body's value of the three input blocks; the invariant keeps
    only the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the run above applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KReg5.lean ====
/-
  The last Pallas call of the program, logistic (z · zᵀ) over an 8 × 8 grid of 1024 × 1024 output blocks: at point
  (i, j) the body reads the i-th block of 1024 rows of z through its first window and the j-th block of 1024 rows of the
  SAME array z through its second window, and writes block (i, j) of the result. This module runs the body once, on
  whole staging buffers, and packages what it leaves as the proof data of the pipeline; the two input windows hold
  their common array at the two halves of the full share.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (when it is not
    fetched its block index has not moved), for any proof data over `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (when it is not
    fetched its block index has not moved), for any proof data over `V` whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev r5_a : Rect S1024x512 := Rect.unit (s := S1024x512) ![0, 0] S1024x512.size inb_S1024x512_S1024x512_0_0
abbrev r5_o : Rect S1024x1024 := Rect.unit (s := S1024x1024) ![0, 0] S1024x1024.size inb_S1024x1024_S1024x1024_0_0

/-- The output window's staging buffer after the body, from the two input blocks: its one store covers the buffer. -/
def out5_2 (x0 : Vec F S1024x512 .f32) (x1 : Vec F S1024x512 .f32) : Vec F S1024x1024 .f32 :=
  View.canon [⟨r5_o, k5_pay1 (View.ld x0 r5_a) (View.ld x1 r5_a)⟩]

/-- The one store is of the whole buffer. -/
theorem cover5_2 (p0 : Vec F S1024x1024 .f32) (y : S1024x1024.Idx) :
    ∃ pc ∈ ([⟨r5_o, p0⟩] : List (View.Piece (Elt F) S1024x1024 .f32)), y ∈ pc.1.set :=
  View.cover_of_tiled [⟨r5_o, p0⟩] S1024x1024.size (by rfl) y

set_option maxHeartbeats 1000000 in
/-- The body on whole staging buffers — the inputs' at contents `x0 x1`, the output's at anything — runs to its end
    with the inputs' as they were and the output's at `out5_2 x0 x1`. -/
theorem sound_kernel5 (c : Dev nD) (E : Set ℕ) (i : grid5.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__innerprod_kernel i arg2 harg2 arg3 harg3 arg4 harg4) K := by
  simp only [cc5__innerprod_kernel_eq_skeleton]; unfold cc5__innerprod_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of pipeline 5 on core `c`: the arrays as the call finds them; after the body at point `t` each
    input's buffer at its block and the output's at the body's value of the two input blocks; the invariant keeps
    only the scoped rest and the generator register; nothing owed; the two input windows, which read one array, hold
    it at the left and the right half of the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the run above applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KSplit5.lean ====
/-
  The last Pallas call hands ONE array to two input windows. The pipeline holds each window's array at the window's
  share, so at the call's entry the array's buffer, whole at the full share, is dealt to the two windows at the left
  and the right half of that share (the contents kept), and at the exit the two halves are joined again. The output
  window's array is held at the full share throughout.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import proofs.«160839_j45148696215965_1_alg».proof.Proof.KReg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last call's three windows sit on two arrays: its two input windows on one, its output window on another. -/
theorem img5 : Finset.univ.image (Pipeline.arrRef spec5) = ({main_v74, main_v75} : Finset (Ref sig .tc)) := by decide

theorem share5_0 (c : Dev nD) : (dat5 V c).share 0 = fullShare.left := rfl
theorem share5_1 (c : Dev nD) : (dat5 V c).share 1 = fullShare.right := rfl
theorem share5_2 (c : Dev nD) : (dat5 V c).share 2 = fullShare := rfl

set_option maxHeartbeats 4000000 in
/-- ENTRY: the two buffers behind the call's arrays, whole at the full share at contents `V'`, make the pipeline's
    arrays at any contents `A` that agree with `V'`: the buffer the two input windows read is dealt to them at the left
    and the right half of the full share, contents kept. -/
theorem arrays5_split (c : Dev nD) (V' : (b : Ref sig .tc) → Buf (Elt F) ((c : Thread nD τ).loc b))
    (A : (w : Fin cfg5.W) → Buf (Elt F) ((cfg5.win w).arr.view.loc (c : Thread nD τ)))
    (h0 : A 0 = V' main_v74) (h1 : A 1 = V' main_v74) (h2 : A 2 = V' main_v75) :
    (Pipeline.arrBufs (Ix := Unit) (Name := ℕ) (U := UR sig nD τ) (Lvl := ℕ) spec5 c V' : sProp 𝕄)
      ⊢ (dat5 V c).arrays A := by
  have e0 : (cfg5.win 0).arr.view.set = Finset.univ := (arr_whole5 0).set_eq_univ
  have e2 : (cfg5.win 2).arr.view.set = Finset.univ := (arr_whole5 2).set_eq_univ
  unfold Pipeline.Dat.arrays Pipeline.arrBufs
  rw [bigSep_W5, img5, bigSep_insert (by decide), bigSep_singleton, e0, e2, share5_0, share5_1, share5_2, h0, h1, h2]
  exact (sep_mono (pointsTo_share (Ix := Unit) (Name := ℕ) (U := UR sig nD τ) (Lvl := ℕ) (ℓ := (c : Thread nD τ).loc main_v74)
    (I := Finset.univ) (f := V' main_v74) (PosShare.mem_left_op_right fullShare)).1 .rfl).trans sep_assoc

set_option maxHeartbeats 4000000 in
/-- EXIT: the pipeline's arrays at contents `A` are the two buffers whole at the full share at any contents `V'` that
    agree with `A`: the two halves of the shared buffer are joined again. -/
theorem arrays5_join (c : Dev nD) (V' : (b : Ref sig .tc) → Buf (Elt F) ((c : Thread nD τ).loc b))
    (A : (w : Fin cfg5.W) → Buf (Elt F) ((cfg5.win w).arr.view.loc (c : Thread nD τ)))
    (h0 : A 0 = V' main_v74) (h1 : A 1 = V' main_v74) (h2 : A 2 = V' main_v75) :
    (dat5 V c).arrays A
      ⊢ (Pipeline.arrBufs (Ix := Unit) (Name := ℕ) (U := UR sig nD τ) (Lvl := ℕ) spec5 c V' : sProp 𝕄) := by
  have e0 : (cfg5.win 0).arr.view.set = Finset.univ := (arr_whole5 0).set_eq_univ
  have e2 : (cfg5.win 2).arr.view.set = Finset.univ := (arr_whole5 2).set_eq_univ
  unfold Pipeline.Dat.arrays Pipeline.arrBufs
  rw [bigSep_W5, img5, bigSep_insert (by decide), bigSep_singleton, e0, e2, share5_0, share5_1, share5_2, h0, h1, h2]
  exact sep_assoc'.trans (sep_mono (pointsTo_share (Ix := Unit) (Name := ℕ) (U := UR sig nD τ) (Lvl := ℕ) (ℓ := (c : Thread nD τ).loc main_v74)
    (I := Finset.univ) (f := V' main_v74) (PosShare.mem_left_op_right fullShare)).2 .rfl)

end Cert.Kernel.Fr

end
-- ==== Proof.KRun.lean ====
/-
  The whole program as a chain of fourteen segments — eight stretches of host operations and the six Pallas calls
  between them — run from the launch to the return. The contents of the core's unscoped buffers at each boundary are a
  fold from the launch memory: a host stretch applies its operations, a Pallas call replaces its result array by what
  its pipeline's write-backs leave and changes nothing else. Every call is a segment over the same thread state (every
  unscoped buffer at the boundary's contents, the generator register, nothing owed), so the segments chain by
  reflexivity, and the run ends with every unscoped buffer at the last boundary's contents. The last call hands one
  array to two input windows: there the array's buffer is dealt to them at the two halves of the full share and joined
  again at the exit.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import proofs.«160839_j45148696215965_1_alg».proof.Proof.KReg0
import proofs.«160839_j45148696215965_1_alg».proof.Proof.KReg1
import proofs.«160839_j45148696215965_1_alg».proof.Proof.KReg2
import proofs.«160839_j45148696215965_1_alg».proof.Proof.KReg3
import proofs.«160839_j45148696215965_1_alg».proof.Proof.KReg4
import proofs.«160839_j45148696215965_1_alg».proof.Proof.KReg5
import proofs.«160839_j45148696215965_1_alg».proof.Proof.KSplit5
import proofs.«160839_j45148696215965_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers at launch. -/
abbrev W0 (c : Dev nD) : Valuation τ sig (Elt F) := fun b => m (c, b)
/-- After the host operations `hostOps0`. -/
abbrev W1 (c : Dev nD) : Valuation τ sig (Elt F) := StableHlo.after hostOps0 (W0 m c)
/-- After the host operations `hostOps0_1`. -/
abbrev W2 (c : Dev nD) : Valuation τ sig (Elt F) := StableHlo.after hostOps0_1 (W1 m c)
/-- After the host operations `hostOps0_2`. -/
abbrev W3 (c : Dev nD) : Valuation τ sig (Elt F) := StableHlo.after hostOps0_2 (W2 m c)
/-- The contents Pallas call 0 is entered with, read at the TensorCore's references. -/
abbrev U3 (c : Dev nD) (b : Ref sig .tc) : Buf (Elt F) ((c : Thread nD τ).loc b) := W3 m c b
/-- After Pallas call 0: its result array at what the pipeline's write-backs leave, every other buffer as entered. -/
def W4 (c : Dev nD) : Valuation τ sig (Elt F) :=
  Function.update (W3 m c) (Proc.devRef .tc (Pipeline.arrRef spec0 3)) ((dat0 (U3 m) c).arrAt 3 cfg0.N)
abbrev U4 (c : Dev nD) (b : Ref sig .tc) : Buf (Elt F) ((c : Thread nD τ).loc b) := W4 m c b
theorem W4_out (c : Dev nD) :
    W4 m c (Proc.devRef .tc (Pipeline.arrRef spec0 3)) = (dat0 (U3 m) c).arrAt 3 cfg0.N := by
  unfold W4; exact Function.update_self ..
theorem W4_of_ne (c : Dev nD) (b : Ref sig .tc) (hb : b ≠ Pipeline.arrRef spec0 3) :
    W4 m c (Proc.devRef .tc b) = W3 m c (Proc.devRef .tc b) := by
  unfold W4; exact Function.update_of_ne (StableHlo.devRef_ne_of_ne hb) _ _
/-- At the call's exit each of its arrays holds what the pipeline leaves: the result by definition, an input (never
    written back) what it held at entry. -/
theorem hF0 (c : Dev nD) (w : Fin cfg0.W) : (dat0 (U3 m) c).arrAt w cfg0.N = U4 m c (Pipeline.arrRef spec0 w) := by
  match w with
  | ⟨0, _⟩ => exact ((dat0 (U3 m) c).arrAt_in 0 rfl _).trans ((A_eq0 (U3 m) c 0).trans (W4_of_ne m c (Pipeline.arrRef spec0 0) (by decide)).symm)
  | ⟨1, _⟩ => exact ((dat0 (U3 m) c).arrAt_in 1 rfl _).trans ((A_eq0 (U3 m) c 1).trans (W4_of_ne m c (Pipeline.arrRef spec0 1) (by decide)).symm)
  | ⟨2, _⟩ => exact ((dat0 (U3 m) c).arrAt_in 2 rfl _).trans ((A_eq0 (U3 m) c 2).trans (W4_of_ne m c (Pipeline.arrRef spec0 2) (by decide)).symm)
  | ⟨3, _⟩ => exact (W4_out m c).symm
/-- and every buffer that is no array of the call what it held at entry. -/
theorem hrest0 (c : Dev nD) : ∀ b, b ∉ Finset.univ.image (Pipeline.arrRef spec0) → U4 m c b = U3 m c b :=
  fun b hb => W4_of_ne m c b fun e => hb (Finset.mem_image.mpr ⟨3, Finset.mem_univ _, e.symm⟩)
/-- After the host operations `hostOps1`. -/
abbrev W5 (c : Dev nD) : Valuation τ sig (Elt F) := StableHlo.after hostOps1 (W4 m c)
/-- The contents Pallas call 1 is entered with, read at the TensorCore's references. -/
abbrev U5 (c : Dev nD) (b : Ref sig .tc) : Buf (Elt F) ((c : Thread nD τ).loc b) := W5 m c b
/-- After Pallas call 1: its result array at what the pipeline's write-backs leave, every other buffer as entered. -/
def W6 (c : Dev nD) : Valuation τ sig (Elt F) :=
  Function.update (W5 m c) (Proc.devRef .tc (Pipeline.arrRef spec1 3)) ((dat1 (U5 m) c).arrAt 3 cfg1.N)
abbrev U6 (c : Dev nD) (b : Ref sig .tc) : Buf (Elt F) ((c : Thread nD τ).loc b) := W6 m c b
theorem W6_out (c : Dev nD) :
    W6 m c (Proc.devRef .tc (Pipeline.arrRef spec1 3)) = (dat1 (U5 m) c).arrAt 3 cfg1.N := by
  unfold W6; exact Function.update_self ..
theorem W6_of_ne (c : Dev nD) (b : Ref sig .tc) (hb : b ≠ Pipeline.arrRef spec1 3) :
    W6 m c (Proc.devRef .tc b) = W5 m c (Proc.devRef .tc b) := by
  unfold W6; exact Function.update_of_ne (StableHlo.devRef_ne_of_ne hb) _ _
/-- At the call's exit each of its arrays holds what the pipeline leaves: the result by definition, an input (never
    written back) what it held at entry. -/
theorem hF1 (c : Dev nD) (w : Fin cfg1.W) : (dat1 (U5 m) c).arrAt w cfg1.N = U6 m c (Pipeline.arrRef spec1 w) := by
  match w with
  | ⟨0, _⟩ => exact ((dat1 (U5 m) c).arrAt_in 0 rfl _).trans ((A_eq1 (U5 m) c 0).trans (W6_of_ne m c (Pipeline.arrRef spec1 0) (by decide)).symm)
  | ⟨1, _⟩ => exact ((dat1 (U5 m) c).arrAt_in 1 rfl _).trans ((A_eq1 (U5 m) c 1).trans (W6_of_ne m c (Pipeline.arrRef spec1 1) (by decide)).symm)
  | ⟨2, _⟩ => exact ((dat1 (U5 m) c).arrAt_in 2 rfl _).trans ((A_eq1 (U5 m) c 2).trans (W6_of_ne m c (Pipeline.arrRef spec1 2) (by decide)).symm)
  | ⟨3, _⟩ => exact (W6_out m c).symm
/-- and every buffer that is no array of the call what it held at entry. -/
theorem hrest1 (c : Dev nD) : ∀ b, b ∉ Finset.univ.image (Pipeline.arrRef spec1) → U6 m c b = U5 m c b :=
  fun b hb => W6_of_ne m c b fun e => hb (Finset.mem_image.mpr ⟨3, Finset.mem_univ _, e.symm⟩)
/-- After the host operations `hostOps2`. -/
abbrev W7 (c : Dev nD) : Valuation τ sig (Elt F) := StableHlo.after hostOps2 (W6 m c)
/-- The contents Pallas call 2 is entered with, read at the TensorCore's references. -/
abbrev U7 (c : Dev nD) (b : Ref sig .tc) : Buf (Elt F) ((c : Thread nD τ).loc b) := W7 m c b
/-- After Pallas call 2: its result array at what the pipeline's write-backs leave, every other buffer as entered. -/
def W8 (c : Dev nD) : Valuation τ sig (Elt F) :=
  Function.update (W7 m c) (Proc.devRef .tc (Pipeline.arrRef spec2 3)) ((dat2 (U7 m) c).arrAt 3 cfg2.N)
abbrev U8 (c : Dev nD) (b : Ref sig .tc) : Buf (Elt F) ((c : Thread nD τ).loc b) := W8 m c b
theorem W8_out (c : Dev nD) :
    W8 m c (Proc.devRef .tc (Pipeline.arrRef spec2 3)) = (dat2 (U7 m) c).arrAt 3 cfg2.N := by
  unfold W8; exact Function.update_self ..
theorem W8_of_ne (c : Dev nD) (b : Ref sig .tc) (hb : b ≠ Pipeline.arrRef spec2 3) :
    W8 m c (Proc.devRef .tc b) = W7 m c (Proc.devRef .tc b) := by
  unfold W8; exact Function.update_of_ne (StableHlo.devRef_ne_of_ne hb) _ _
/-- At the call's exit each of its arrays holds what the pipeline leaves: the result by definition, an input (never
    written back) what it held at entry. -/
theorem hF2 (c : Dev nD) (w : Fin cfg2.W) : (dat2 (U7 m) c).arrAt w cfg2.N = U8 m c (Pipeline.arrRef spec2 w) := by
  match w with
  | ⟨0, _⟩ => exact ((dat2 (U7 m) c).arrAt_in 0 rfl _).trans ((A_eq2 (U7 m) c 0).trans (W8_of_ne m c (Pipeline.arrRef spec2 0) (by decide)).symm)
  | ⟨1, _⟩ => exact ((dat2 (U7 m) c).arrAt_in 1 rfl _).trans ((A_eq2 (U7 m) c 1).trans (W8_of_ne m c (Pipeline.arrRef spec2 1) (by decide)).symm)
  | ⟨2, _⟩ => exact ((dat2 (U7 m) c).arrAt_in 2 rfl _).trans ((A_eq2 (U7 m) c 2).trans (W8_of_ne m c (Pipeline.arrRef spec2 2) (by decide)).symm)
  | ⟨3, _⟩ => exact (W8_out m c).symm
/-- and every buffer that is no array of the call what it held at entry. -/
theorem hrest2 (c : Dev nD) : ∀ b, b ∉ Finset.univ.image (Pipeline.arrRef spec2) → U8 m c b = U7 m c b :=
  fun b hb => W8_of_ne m c b fun e => hb (Finset.mem_image.mpr ⟨3, Finset.mem_univ _, e.symm⟩)
/-- After the host operations `hostOps3`. -/
abbrev W9 (c : Dev nD) : Valuation τ sig (Elt F) := StableHlo.after hostOps3 (W8 m c)
/-- The contents Pallas call 3 is entered with, read at the TensorCore's references. -/
abbrev U9 (c : Dev nD) (b : Ref sig .tc) : Buf (Elt F) ((c : Thread nD τ).loc b) := W9 m c b
/-- After Pallas call 3: its result array at what the pipeline's write-backs leave, every other buffer as entered. -/
def W10 (c : Dev nD) : Valuation τ sig (Elt F) :=
  Function.update (W9 m c) (Proc.devRef .tc (Pipeline.arrRef spec3 3)) ((dat3 (U9 m) c).arrAt 3 cfg3.N)
abbrev U10 (c : Dev nD) (b : Ref sig .tc) : Buf (Elt F) ((c : Thread nD τ).loc b) := W10 m c b
theorem W10_out (c : Dev nD) :
    W10 m c (Proc.devRef .tc (Pipeline.arrRef spec3 3)) = (dat3 (U9 m) c).arrAt 3 cfg3.N := by
  unfold W10; exact Function.update_self ..
theorem W10_of_ne (c : Dev nD) (b : Ref sig .tc) (hb : b ≠ Pipeline.arrRef spec3 3) :
    W10 m c (Proc.devRef .tc b) = W9 m c (Proc.devRef .tc b) := by
  unfold W10; exact Function.update_of_ne (StableHlo.devRef_ne_of_ne hb) _ _
/-- At the call's exit each of its arrays holds what the pipeline leaves: the result by definition, an input (never
    written back) what it held at entry. -/
theorem hF3 (c : Dev nD) (w : Fin cfg3.W) : (dat3 (U9 m) c).arrAt w cfg3.N = U10 m c (Pipeline.arrRef spec3 w) := by
  match w with
  | ⟨0, _⟩ => exact ((dat3 (U9 m) c).arrAt_in 0 rfl _).trans ((A_eq3 (U9 m) c 0).trans (W10_of_ne m c (Pipeline.arrRef spec3 0) (by decide)).symm)
  | ⟨1, _⟩ => exact ((dat3 (U9 m) c).arrAt_in 1 rfl _).trans ((A_eq3 (U9 m) c 1).trans (W10_of_ne m c (Pipeline.arrRef spec3 1) (by decide)).symm)
  | ⟨2, _⟩ => exact ((dat3 (U9 m) c).arrAt_in 2 rfl _).trans ((A_eq3 (U9 m) c 2).trans (W10_of_ne m c (Pipeline.arrRef spec3 2) (by decide)).symm)
  | ⟨3, _⟩ => exact (W10_out m c).symm
/-- and every buffer that is no array of the call what it held at entry. -/
theorem hrest3 (c : Dev nD) : ∀ b, b ∉ Finset.univ.image (Pipeline.arrRef spec3) → U10 m c b = U9 m c b :=
  fun b hb => W10_of_ne m c b fun e => hb (Finset.mem_image.mpr ⟨3, Finset.mem_univ _, e.symm⟩)
/-- After the host operations `hostOps4`. -/
abbrev W11 (c : Dev nD) : Valuation τ sig (Elt F) := StableHlo.after hostOps4 (W10 m c)
/-- The contents Pallas call 4 is entered with, read at the TensorCore's references. -/
abbrev U11 (c : Dev nD) (b : Ref sig .tc) : Buf (Elt F) ((c : Thread nD τ).loc b) := W11 m c b
/-- After Pallas call 4: its result array at what the pipeline's write-backs leave, every other buffer as entered. -/
def W12 (c : Dev nD) : Valuation τ sig (Elt F) :=
  Function.update (W11 m c) (Proc.devRef .tc (Pipeline.arrRef spec4 3)) ((dat4 (U11 m) c).arrAt 3 cfg4.N)
abbrev U12 (c : Dev nD) (b : Ref sig .tc) : Buf (Elt F) ((c : Thread nD τ).loc b) := W12 m c b
theorem W12_out (c : Dev nD) :
    W12 m c (Proc.devRef .tc (Pipeline.arrRef spec4 3)) = (dat4 (U11 m) c).arrAt 3 cfg4.N := by
  unfold W12; exact Function.update_self ..
theorem W12_of_ne (c : Dev nD) (b : Ref sig .tc) (hb : b ≠ Pipeline.arrRef spec4 3) :
    W12 m c (Proc.devRef .tc b) = W11 m c (Proc.devRef .tc b) := by
  unfold W12; exact Function.update_of_ne (StableHlo.devRef_ne_of_ne hb) _ _
/-- At the call's exit each of its arrays holds what the pipeline leaves: the result by definition, an input (never
    written back) what it held at entry. -/
theorem hF4 (c : Dev nD) (w : Fin cfg4.W) : (dat4 (U11 m) c).arrAt w cfg4.N = U12 m c (Pipeline.arrRef spec4 w) := by
  match w with
  | ⟨0, _⟩ => exact ((dat4 (U11 m) c).arrAt_in 0 rfl _).trans ((A_eq4 (U11 m) c 0).trans (W12_of_ne m c (Pipeline.arrRef spec4 0) (by decide)).symm)
  | ⟨1, _⟩ => exact ((dat4 (U11 m) c).arrAt_in 1 rfl _).trans ((A_eq4 (U11 m) c 1).trans (W12_of_ne m c (Pipeline.arrRef spec4 1) (by decide)).symm)
  | ⟨2, _⟩ => exact ((dat4 (U11 m) c).arrAt_in 2 rfl _).trans ((A_eq4 (U11 m) c 2).trans (W12_of_ne m c (Pipeline.arrRef spec4 2) (by decide)).symm)
  | ⟨3, _⟩ => exact (W12_out m c).symm
/-- and every buffer that is no array of the call what it held at entry. -/
theorem hrest4 (c : Dev nD) : ∀ b, b ∉ Finset.univ.image (Pipeline.arrRef spec4) → U12 m c b = U11 m c b :=
  fun b hb => W12_of_ne m c b fun e => hb (Finset.mem_image.mpr ⟨3, Finset.mem_univ _, e.symm⟩)
/-- After the host operations `hostOps5`. -/
abbrev W13 (c : Dev nD) : Valuation τ sig (Elt F) := StableHlo.after hostOps5 (W12 m c)
/-- The contents Pallas call 5 is entered with, read at the TensorCore's references. -/
abbrev U13 (c : Dev nD) (b : Ref sig .tc) : Buf (Elt F) ((c : Thread nD τ).loc b) := W13 m c b
/-- After Pallas call 5: its result array at what the pipeline's write-backs leave, every other buffer as entered. -/
def W14 (c : Dev nD) : Valuation τ sig (Elt F) :=
  Function.update (W13 m c) (Proc.devRef .tc (Pipeline.arrRef spec5 2)) ((dat5 (U13 m) c).arrAt 2 cfg5.N)
abbrev U14 (c : Dev nD) (b : Ref sig .tc) : Buf (Elt F) ((c : Thread nD τ).loc b) := W14 m c b
theorem W14_out (c : Dev nD) :
    W14 m c (Proc.devRef .tc (Pipeline.arrRef spec5 2)) = (dat5 (U13 m) c).arrAt 2 cfg5.N := by
  unfold W14; exact Function.update_self ..
theorem W14_of_ne (c : Dev nD) (b : Ref sig .tc) (hb : b ≠ Pipeline.arrRef spec5 2) :
    W14 m c (Proc.devRef .tc b) = W13 m c (Proc.devRef .tc b) := by
  unfold W14; exact Function.update_of_ne (StableHlo.devRef_ne_of_ne hb) _ _
/-- At the call's exit each of its arrays holds what the pipeline leaves: the result by definition, an input (never
    written back) what it held at entry. -/
theorem hF5 (c : Dev nD) (w : Fin cfg5.W) : (dat5 (U13 m) c).arrAt w cfg5.N = U14 m c (Pipeline.arrRef spec5 w) := by
  match w with
  | ⟨0, _⟩ => exact ((dat5 (U13 m) c).arrAt_in 0 rfl _).trans ((A_eq5 (U13 m) c 0).trans (W14_of_ne m c (Pipeline.arrRef spec5 0) (by decide)).symm)
  | ⟨1, _⟩ => exact ((dat5 (U13 m) c).arrAt_in 1 rfl _).trans ((A_eq5 (U13 m) c 1).trans (W14_of_ne m c (Pipeline.arrRef spec5 1) (by decide)).symm)
  | ⟨2, _⟩ => exact (W14_out m c).symm
/-- and every buffer that is no array of the call what it held at entry. -/
theorem hrest5 (c : Dev nD) : ∀ b, b ∉ Finset.univ.image (Pipeline.arrRef spec5) → U14 m c b = U13 m c b :=
  fun b hb => W14_of_ne m c b fun e => hb (Finset.mem_image.mpr ⟨2, Finset.mem_univ _, e.symm⟩)

/-! ## The proof data of all six pipelines, and the thread state -/

/-- Every pipeline's proof data, each at the contents its call is entered with. -/
def pdats : (p : Fin 6) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨5, _⟩ => fun c => dat5 (U13 m) c
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- The last thread state without what is owed: every unscoped buffer at the last boundary's contents, the generator
    register at some state. -/
abbrev Tₙ (c : Dev nD) : sProp 𝕄 := iprop(StableHlo.held (c : Thread nD τ) (Pipeline.ucRefs τ sig) (W14 m c) ∗ ∃ r, prngReg c r)

/-! ## The last call's arrays: one buffer dealt to two windows -/

set_option maxHeartbeats 8000000 in
/-- ENTRY of the last call: the core's unscoped buffers at the entry contents are the pipeline's arrays at those
    contents — the shared input array dealt to its two windows — and the unscoped rest. -/
theorem arrays5_of_unscopedBufs (c : Dev nD) :
    (StableHlo.held (c : Thread nD τ) (Pipeline.ucRefs τ sig) (W13 m c) : sProp 𝕄)
      ⊢ iprop((pdats m 5 c).arrays ((pdats m 5 c).arrAt · 0)
          ∗ Pipeline.unscopedRest (Ix := Unit) (Name := ℕ) (U := UR sig nD τ) (Lvl := ℕ) spec5 c (U13 m c)) := by
  have h : (unscopedBufs c (U13 m c) : sProp 𝕄)
      ⊢ iprop((dat5 (U13 m) c).arrays ((dat5 (U13 m) c).arrAt · 0)
          ∗ Pipeline.unscopedRest (Ix := Unit) (Name := ℕ) (U := UR sig nD τ) (Lvl := ℕ) spec5 c (U13 m c)) := by
    rw [Pipeline.unscopedBufs_split₀ (Pipeline.pin (pcfgs (F := F)) adm) 5 winFacts₀5.arr_unscoped c (U13 m c)]
    exact sep_mono (arrays5_split (U13 m) c (U13 m c) _ rfl rfl rfl) .rfl
  rw [Pipeline.unscopedBufs_held] at h
  exact h

set_option maxHeartbeats 8000000 in
/-- EXIT of the last call: the pipeline's arrays at their final contents and the unscoped rest are the core's unscoped
    buffers at the exit contents — the two halves of the shared input array joined, the result at what was written. -/
theorem unscopedBufs_of_arrays5 (c : Dev nD) :
    iprop((pdats m 5 c).arrays ((pdats m 5 c).arrAt · cfg5.N)
          ∗ Pipeline.unscopedRest (Ix := Unit) (Name := ℕ) (U := UR sig nD τ) (Lvl := ℕ) spec5 c (U13 m c))
      ⊢ (StableHlo.held (c : Thread nD τ) (Pipeline.ucRefs τ sig) (W14 m c) : sProp 𝕄) := by
  have h : iprop((dat5 (U13 m) c).arrays ((dat5 (U13 m) c).arrAt · cfg5.N)
          ∗ Pipeline.unscopedRest (Ix := Unit) (Name := ℕ) (U := UR sig nD τ) (Lvl := ℕ) spec5 c (U13 m c))
      ⊢ (unscopedBufs c (U14 m c) : sProp 𝕄) := by
    rw [Pipeline.unscopedBufs_split₀ (Pipeline.pin (pcfgs (F := F)) adm) 5 winFacts₀5.arr_unscoped c (U14 m c)]
    refine sep_mono (arrays5_join (U13 m) c (U14 m c) _ (hF5 m c 0) (hF5 m c 1) (hF5 m c 2)) (Entails.of_eq ?_)
    unfold Pipeline.unscopedRest
    exact bigSep_congr fun b hb => by rw [hrest5 m c b (Finset.mem_sdiff.mp hb).2]
  rw [Pipeline.unscopedBufs_held] at h
  exact h

/-! ## The six calls as segments -/

-- the library's lemmas are stated over the pinned configuration of a pipeline, which unifies with the printed one only
-- when unification may unfold plain definitions in a metavariable's type
set_option backward.isDefEq.respectTransparency.types false in
/-- Pallas call 0 as a segment over the thread state "every unscoped buffer at the boundary's contents, the generator
    register at some state, nothing owed": its arrays are taken out of the unscoped buffers at entry and put back, the
    result at its new contents, at exit; the generator register goes into the pipeline's invariant and comes back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 1 as a segment over the thread state "every unscoped buffer at the boundary's contents, the generator
    register at some state, nothing owed": its arrays are taken out of the unscoped buffers at entry and put back, the
    result at its new contents, at exit; the generator register goes into the pipeline's invariant and comes back. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 2 as a segment over the thread state "every unscoped buffer at the boundary's contents, the generator
    register at some state, nothing owed": its arrays are taken out of the unscoped buffers at entry and put back, the
    result at its new contents, at exit; the generator register goes into the pipeline's invariant and comes back. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ Lz lvz 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 3 as a segment over the thread state "every unscoped buffer at the boundary's contents, the generator
    register at some state, nothing owed": its arrays are taken out of the unscoped buffers at entry and put back, the
    result at its new contents, at exit; the generator register goes into the pipeline's invariant and comes back. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ Lz lvz 3 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U9 m c) (U10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 4 as a segment over the thread state "every unscoped buffer at the boundary's contents, the generator
    register at some state, nothing owed": its arrays are taken out of the unscoped buffers at entry and put back, the
    result at its new contents, at exit; the generator register goes into the pipeline's invariant and comes back. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ Lz lvz 4 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec4 c (U11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U11 m c) (U12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 5 as a segment over the thread state "every unscoped buffer at the boundary's contents, the generator
    register at some state, nothing owed": its arrays are taken out of the unscoped buffers at entry and put back, the
    result at its new contents, at exit; the generator register goes into the pipeline's invariant and comes back. -/
def reg5 : Pipeline.RegionSeg (pcfgs (F := F)) adm (pdats m) () defs₀ Variants.none Lz lvz 5 where
  win := winFacts₀5
  block_pos := block_pos5
  stage_whole := stage_whole5
  K := PEmpty
  osem k := k.elim
  ho := Pipeline.OwnSemFacts.none _
  hbody c := (body_obligation5 (U13 m) c).loose
  hwaits := Pipeline.hwaits_of_owed_zero _ _ _ _ Lz lvz 5 fun _ _ => rfl
  pre c := iprop(StableHlo.held (c : Thread nD τ) (Pipeline.ucRefs τ sig) (W13 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U13 m c)
  hentry c := by
    rw [Pipeline.ownSems0_none]
    have hsplit := arrays5_of_unscopedBufs m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev items : List (Pipeline.Seg (pcfgs (F := F)) adm (pdats m) () defs₀ Variants.none Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m) ]

/-- The program is the run of its segments. -/
theorem main_run (c : Dev nD) : main (F := F) c = Pipeline.Seg.run (items m) := (main_chain c).trans (by chain_rfl)

-- the launch theorem's implicit arguments are found by unifying its conclusion with this one, which takes unfolding plain
-- definitions in a metavariable's type
set_option backward.isDefEq.respectTransparency.types false in
/-- THE RUN, at any float instance: from any memory with zero counters every weakly fair execution of the program
    terminates, nothing faulting, and in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ Variants.none Lz lvz m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.Kernel.Fr

end
-- ==== Proof.KFrame.lean ====
/-
  What the run leaves, read: no host operation writes an argument array and no Pallas call has one as its result, so
  each argument's buffer walks back through the fold of boundary contents to the launch memory; the program's result
  is the last call's result array, at what that call's pipeline leaves.
-/
import proofs.«160839_j45148696215965_1_alg».proof.Proof.Gen.Kernel.Launch
import proofs.«160839_j45148696215965_1_alg».proof.Proof.Gen.Kernel.Skeleton
import proofs.«160839_j45148696215965_1_alg».proof.Proof.Gen.Kernel.Points
import proofs.«160839_j45148696215965_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference that no host stretch writes and that is no call's result holds its launch contents at the end. -/
theorem W14_of (c : Dev nD) (r : Ref sig .tc) (h0 : r ∉ hostOps0_W) (h0_1 : r ∉ hostOps0_1_W) (h0_2 : r ∉ hostOps0_2_W) (h1 : r ∉ hostOps1_W) (h2 : r ∉ hostOps2_W) (h3 : r ∉ hostOps3_W) (h4 : r ∉ hostOps4_W) (h5 : r ∉ hostOps5_W) (g0 : r ≠ Pipeline.arrRef spec0 3) (g1 : r ≠ Pipeline.arrRef spec1 3) (g2 : r ≠ Pipeline.arrRef spec2 3) (g3 : r ≠ Pipeline.arrRef spec3 3) (g4 : r ≠ Pipeline.arrRef spec4 3) (g5 : r ≠ Pipeline.arrRef spec5 2) :
    W14 m c r = m ((c : Thread nD τ).loc r) :=
  (W14_of_ne m c r g5).trans <| (StableHlo.after_of_writes_sub hostOps5 _ hostOps5_writes h5).trans <| (W12_of_ne m c r g4).trans <| (StableHlo.after_of_writes_sub hostOps4 _ hostOps4_writes h4).trans <| (W10_of_ne m c r g3).trans <| (StableHlo.after_of_writes_sub hostOps3 _ hostOps3_writes h3).trans <| (W8_of_ne m c r g2).trans <| (StableHlo.after_of_writes_sub hostOps2 _ hostOps2_writes h2).trans <| (W6_of_ne m c r g1).trans <| (StableHlo.after_of_writes_sub hostOps1 _ hostOps1_writes h1).trans <| (W4_of_ne m c r g0).trans <| (StableHlo.after_of_writes_sub hostOps0_2 _ hostOps0_2_writes h0_2).trans <| (StableHlo.after_of_writes_sub hostOps0_1 _ hostOps0_1_writes h0_1).trans <| (StableHlo.after_of_writes_sub hostOps0 _ hostOps0_writes h0).trans <| rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W14_main_arg0 (c : Dev nD) : W14 m c main_arg0 = m ((c : Thread nD τ).loc main_arg0) :=
  W14_of m c main_arg0 (by decide) (by decide) (by decide) (by decide) (by decide) (by decide) (by decide) (by decide) (by decide) (by decide) (by decide) (by decide) (by decide) (by decide)
theorem W14_main_arg1 (c : Dev nD) : W14 m c main_arg1 = m ((c : Thread nD τ).loc main_arg1) :=
  W14_of m c main_arg1 (by decide) (by decide) (by decide) (by decide) (by decide) (by decide) (by decide) (by decide) (by decide) (by decide) (by decide) (by decide) (by decide) (by decide)
theorem W14_main_arg2 (c : Dev nD) : W14 m c main_arg2 = m ((c : Thread nD τ).loc main_arg2) :=
  W14_of m c main_arg2 (by decide) (by decide) (by decide) (by decide) (by decide) (by decide) (by decide) (by decide) (by decide) (by decide) (by decide) (by decide) (by decide) (by decide)
theorem W14_main_arg3 (c : Dev nD) : W14 m c main_arg3 = m ((c : Thread nD τ).loc main_arg3) :=
  W14_of m c main_arg3 (by decide) (by decide) (by decide) (by decide) (by decide) (by decide) (by decide) (by decide) (by decide) (by decide) (by decide) (by decide) (by decide) (by decide)
theorem W14_main_arg4 (c : Dev nD) : W14 m c main_arg4 = m ((c : Thread nD τ).loc main_arg4) :=
  W14_of m c main_arg4 (by decide) (by decide) (by decide) (by decide) (by decide) (by decide) (by decide) (by decide) (by decide) (by decide) (by decide) (by decide) (by decide) (by decide)
theorem W14_main_arg5 (c : Dev nD) : W14 m c main_arg5 = m ((c : Thread nD τ).loc main_arg5) :=
  W14_of m c main_arg5 (by decide) (by decide) (by decide) (by decide) (by decide) (by decide) (by decide) (by decide) (by decide) (by decide) (by decide) (by decide) (by decide) (by decide)
theorem W14_main_arg6 (c : Dev nD) : W14 m c main_arg6 = m ((c : Thread nD τ).loc main_arg6) :=
  W14_of m c main_arg6 (by decide) (by decide) (by decide) (by decide) (by decide) (by decide) (by decide) (by decide) (by decide) (by decide) (by decide) (by decide) (by decide) (by decide)
theorem W14_main_arg7 (c : Dev nD) : W14 m c main_arg7 = m ((c : Thread nD τ).loc main_arg7) :=
  W14_of m c main_arg7 (by decide) (by decide) (by decide) (by decide) (by decide) (by decide) (by decide) (by decide) (by decide) (by decide) (by decide) (by decide) (by decide) (by decide)
theorem W14_main_arg8 (c : Dev nD) : W14 m c main_arg8 = m ((c : Thread nD τ).loc main_arg8) :=
  W14_of m c main_arg8 (by decide) (by decide) (by decide) (by decide) (by decide) (by decide) (by decide) (by decide) (by decide) (by decide) (by decide) (by decide) (by decide) (by decide)
theorem W14_main_arg9 (c : Dev nD) : W14 m c main_arg9 = m ((c : Thread nD τ).loc main_arg9) :=
  W14_of m c main_arg9 (by decide) (by decide) (by decide) (by decide) (by decide) (by decide) (by decide) (by decide) (by decide) (by decide) (by decide) (by decide) (by decide) (by decide)
theorem W14_main_arg10 (c : Dev nD) : W14 m c main_arg10 = m ((c : Thread nD τ).loc main_arg10) :=
  W14_of m c main_arg10 (by decide) (by decide) (by decide) (by decide) (by decide) (by decide) (by decide) (by decide) (by decide) (by decide) (by decide) (by decide) (by decide) (by decide)
theorem W14_main_arg11 (c : Dev nD) : W14 m c main_arg11 = m ((c : Thread nD τ).loc main_arg11) :=
  W14_of m c main_arg11 (by decide) (by decide) (by decide) (by decide) (by decide) (by decide) (by decide) (by decide) (by decide) (by decide) (by decide) (by decide) (by decide) (by decide)
theorem W14_main_arg12 (c : Dev nD) : W14 m c main_arg12 = m ((c : Thread nD τ).loc main_arg12) :=
  W14_of m c main_arg12 (by decide) (by decide) (by decide) (by decide) (by decide) (by decide) (by decide) (by decide) (by decide) (by decide) (by decide) (by decide) (by decide) (by decide)

/-- THE FRAME, at any float instance: every weakly fair execution terminates, faults nowhere, and leaves the thirteen
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W14_main_arg0 m c),
      (h c _ (mem_uc main_arg1 (by decide))).trans (W14_main_arg1 m c),
      (h c _ (mem_uc main_arg2 (by decide))).trans (W14_main_arg2 m c),
      (h c _ (mem_uc main_arg3 (by decide))).trans (W14_main_arg3 m c),
      (h c _ (mem_uc main_arg4 (by decide))).trans (W14_main_arg4 m c),
      (h c _ (mem_uc main_arg5 (by decide))).trans (W14_main_arg5 m c),
      (h c _ (mem_uc main_arg6 (by decide))).trans (W14_main_arg6 m c),
      (h c _ (mem_uc main_arg7 (by decide))).trans (W14_main_arg7 m c),
      (h c _ (mem_uc main_arg8 (by decide))).trans (W14_main_arg8 m c),
      (h c _ (mem_uc main_arg9 (by decide))).trans (W14_main_arg9 m c),
      (h c _ (mem_uc main_arg10 (by decide))).trans (W14_main_arg10 m c),
      (h c _ (mem_uc main_arg11 (by decide))).trans (W14_main_arg11 m c),
      (h c _ (mem_uc main_arg12 (by decide))).trans (W14_main_arg12 m c)⟩)
    (run_all m ρ)

/-- THE RUN WITH ITS RESULT: as the frame, and the result array ends at what the last call's pipeline leaves of the
    contents that call is entered with. -/
theorem run_value (ρ : Dev nD → PrngReg) : θ_run defs (onTc (τ := τ) (main (F := F))) ⟨m, fun _ => 0, ρ⟩ (fun r => ∀ c : Dev nD,
      r.2.mem ((c.tc : Thread nD τ).loc main_v75) = (dat5 (U13 m) c).arrAt 2 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v75 (by decide))).trans (W14_out m c),
      (h c _ (mem_uc main_arg0 (by decide))).trans (W14_main_arg0 m c),
      (h c _ (mem_uc main_arg1 (by decide))).trans (W14_main_arg1 m c),
      (h c _ (mem_uc main_arg2 (by decide))).trans (W14_main_arg2 m c),
      (h c _ (mem_uc main_arg3 (by decide))).trans (W14_main_arg3 m c),
      (h c _ (mem_uc main_arg4 (by decide))).trans (W14_main_arg4 m c),
      (h c _ (mem_uc main_arg5 (by decide))).trans (W14_main_arg5 m c),
      (h c _ (mem_uc main_arg6 (by decide))).trans (W14_main_arg6 m c),
      (h c _ (mem_uc main_arg7 (by decide))).trans (W14_main_arg7 m c),
      (h c _ (mem_uc main_arg8 (by decide))).trans (W14_main_arg8 m c),
      (h c _ (mem_uc main_arg9 (by decide))).trans (W14_main_arg9 m c),
      (h c _ (mem_uc main_arg10 (by decide))).trans (W14_main_arg10 m c),
      (h c _ (mem_uc main_arg11 (by decide))).trans (W14_main_arg11 m c),
      (h c _ (mem_uc main_arg12 (by decide))).trans (W14_main_arg12 m c)⟩)
    (run_all m ρ)

end Cert.Kernel.Fr

end
-- ==== Proof.KIReg0.lean ====
/-
  Pallas call 0 of the program (relu (x·w + b), x = the first argument, w and b the first linear layer's): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_c : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output window's staging buffer after the body, from the three input blocks: its one store, of the body's
    arithmetic on the three loaded values, covers the buffer. -/
def out0_3 (x0 : Vec F S1024x512 .f32) (x1 : Vec F S512x512 .f32) (x2 : Vec F S1x512 .f32) : Vec F S1024x512 .f32 :=
  View.canon [⟨r0_o, k0_pay1 (View.ld x0 r0_a) (View.ld x1 r0_b) (View.ld x2 r0_c)⟩]

/-- The one store is of the whole buffer. -/
theorem cover0_3 (p0 : Vec F S1024x512 .f32) (y : S1024x512.Idx) :
    ∃ pc ∈ ([⟨r0_o, p0⟩] : List (View.Piece (Elt F) S1024x512 .f32)), y ∈ pc.1.set :=
  View.cover_of_tiled [⟨r0_o, p0⟩] S1024x512.size (by rfl) y

set_option maxHeartbeats 1000000 in
/-- The body on whole staging buffers — the inputs' at contents `x0 x1 x2`, the output's at anything — runs to its end
    with the inputs' as they were and the output's at `out0_3 x0 x1 x2`. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the call finds them; after the body at point `t` each
    input's buffer at its block and the output's at the body's value of the three input blocks; the invariant keeps
    only the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIReg1.lean ====
/-
  Pallas call 1 of the program ([x | h]·w + b, the second linear layer on the first argument joined with the first layer's output): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_a : Rect S1024x1024 := Rect.unit (s := S1024x1024) ![0, 0] S1024x1024.size inb_S1024x1024_S1024x1024_0_0
abbrev r1_b : Rect S1024x256 := Rect.unit (s := S1024x256) ![0, 0] S1024x256.size inb_S1024x256_S1024x256_0_0
abbrev r1_c : Rect S1x256 := Rect.unit (s := S1x256) ![0, 0] S1x256.size inb_S1x256_S1x256_0_0
abbrev r1_o : Rect S1024x256 := Rect.unit (s := S1024x256) ![0, 0] S1024x256.size inb_S1024x256_S1024x256_0_0

/-- The output window's staging buffer after the body, from the three input blocks: its one store, of the body's
    arithmetic on the three loaded values, covers the buffer. -/
def out1_3 (x0 : Vec F S1024x1024 .f32) (x1 : Vec F S1024x256 .f32) (x2 : Vec F S1x256 .f32) : Vec F S1024x256 .f32 :=
  View.canon [⟨r1_o, k1_pay1 (View.ld x0 r1_a) (View.ld x1 r1_b) (View.ld x2 r1_c)⟩]

/-- The one store is of the whole buffer. -/
theorem cover1_3 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on whole staging buffers — the inputs' at contents `x0 x1 x2`, the output's at anything — runs to its end
    with the inputs' as they were and the output's at `out1_3 x0 x1 x2`. -/
theorem sound_kernel1 (c : Dev nD) (E : Set ℕ) (i : grid1.Coords) (arg1 : Memref sig .tc .vmem S1024x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the call finds them; after the body at point `t` each
    input's buffer at its block and the output's at the body's value of the three input blocks; the invariant keeps
    only the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run above applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIReg2.lean ====
/-
  Pallas call 2 of the program (x·w + 0, the first graph layer's product, with an all-zero bias row): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev r2_a : Rect S1024x512 := Rect.unit (s := S1024x512) ![0, 0] S1024x512.size inb_S1024x512_S1024x512_0_0
abbrev r2_b : Rect S512x512 := Rect.unit (s := S512x512) ![0, 0] S512x512.size inb_S512x512_S512x512_0_0
abbrev r2_c : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output window's staging buffer after the body, from the three input blocks: its one store, of the body's
    arithmetic on the three loaded values, covers the buffer. -/
def out2_3 (x0 : Vec F S1024x512 .f32) (x1 : Vec F S512x512 .f32) (x2 : Vec F S1x512 .f32) : Vec F S1024x512 .f32 :=
  View.canon [⟨r2_o, k2_pay1 (View.ld x0 r2_a) (View.ld x1 r2_b) (View.ld x2 r2_c)⟩]

/-- The one store is of the whole buffer. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole staging buffers — the inputs' at contents `x0 x1 x2`, the output's at anything — runs to its end
    with the inputs' as they were and the output's at `out2_3 x0 x1 x2`. -/
theorem sound_kernel2 (c : Dev nD) (E : Set ℕ) (i : grid2.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .f32) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the call finds them; after the body at point `t` each
    input's buffer at its block and the output's at the body's value of the three input blocks; the invariant keeps
    only the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the run above applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIReg3.lean ====
/-
  Pallas call 3 of the program (g·w + 0, the second graph layer's product, with an all-zero bias row): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when it is not
    fetched its block index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (when it is not
    fetched its block index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (when it is not
    fetched its block index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev r3_a : Rect S1024x512 := Rect.unit (s := S1024x512) ![0, 0] S1024x512.size inb_S1024x512_S1024x512_0_0
abbrev r3_b : Rect S512x256 := Rect.unit (s := S512x256) ![0, 0] S512x256.size inb_S512x256_S512x256_0_0
abbrev r3_c : Rect S1x256 := Rect.unit (s := S1x256) ![0, 0] S1x256.size inb_S1x256_S1x256_0_0
abbrev r3_o : Rect S1024x256 := Rect.unit (s := S1024x256) ![0, 0] S1024x256.size inb_S1024x256_S1024x256_0_0

/-- The output window's staging buffer after the body, from the three input blocks: its one store, of the body's
    arithmetic on the three loaded values, covers the buffer. -/
def out3_3 (x0 : Vec F S1024x512 .f32) (x1 : Vec F S512x256 .f32) (x2 : Vec F S1x256 .f32) : Vec F S1024x256 .f32 :=
  View.canon [⟨r3_o, k3_pay1 (View.ld x0 r3_a) (View.ld x1 r3_b) (View.ld x2 r3_c)⟩]

/-- The one store is of the whole buffer. -/
theorem cover3_3 (p0 : Vec F S1024x256 .f32) (y : S1024x256.Idx) :
    ∃ pc ∈ ([⟨r3_o, p0⟩] : List (View.Piece (Elt F) S1024x256 .f32)), y ∈ pc.1.set :=
  View.cover_of_tiled [⟨r3_o, p0⟩] S1024x256.size (by rfl) y

set_option maxHeartbeats 1000000 in
/-- The body on whole staging buffers — the inputs' at contents `x0 x1 x2`, the output's at anything — runs to its end
    with the inputs' as they were and the output's at `out3_3 x0 x1 x2`. -/
theorem sound_kernel3 (c : Dev nD) (E : Set ℕ) (i : grid3.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the call finds them; after the body at point `t` each
    input's buffer at its block and the output's at the body's value of the three input blocks; the invariant keeps
    only the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the run above applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIReg4.lean ====
/-
  Pallas call 4 of the program ([y | g]·w + b, the output layer on the second argument joined with the graph branch): one grid axis of 8 points; at point t the body reads the t-th block of 1024
  rows of its first operand, the whole weight matrix and the whole bias row, and writes the t-th block of 1024 rows of
  its result. This module runs the body once, on whole staging buffers, and packages what it leaves as the proof data of
  the pipeline: every input buffer as found, the output buffer at the body's one stored value.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (when it is not
    fetched its block index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (when it is not
    fetched its block index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (when it is not
    fetched its block index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev r4_a : Rect S1024x768 := Rect.unit (s := S1024x768) ![0, 0] S1024x768.size inb_S1024x768_S1024x768_0_0
abbrev r4_b : Rect S768x256 := Rect.unit (s := S768x256) ![0, 0] S768x256.size inb_S768x256_S768x256_0_0
abbrev r4_c : Rect S1x256 := Rect.unit (s := S1x256) ![0, 0] S1x256.size inb_S1x256_S1x256_0_0
abbrev r4_o : Rect S1024x256 := Rect.unit (s := S1024x256) ![0, 0] S1024x256.size inb_S1024x256_S1024x256_0_0

/-- The output window's staging buffer after the body, from the three input blocks: its one store, of the body's
    arithmetic on the three loaded values, covers the buffer. -/
def out4_3 (x0 : Vec F S1024x768 .f32) (x1 : Vec F S768x256 .f32) (x2 : Vec F S1x256 .f32) : Vec F S1024x256 .f32 :=
  View.canon [⟨r4_o, k4_pay1 (View.ld x0 r4_a) (View.ld x1 r4_b) (View.ld x2 r4_c)⟩]

/-- The one store is of the whole buffer. -/
theorem cover4_3 (p0 : Vec F S1024x256 .f32) (y : S1024x256.Idx) :
    ∃ pc ∈ ([⟨r4_o, p0⟩] : List (View.Piece (Elt F) S1024x256 .f32)), y ∈ pc.1.set :=
  View.cover_of_tiled [⟨r4_o, p0⟩] S1024x256.size (by rfl) y

set_option maxHeartbeats 1000000 in
/-- The body on whole staging buffers — the inputs' at contents `x0 x1 x2`, the output's at anything — runs to its end
    with the inputs' as they were and the output's at `out4_3 x0 x1 x2`. -/
theorem sound_kernel4 (c : Dev nD) (E : Set ℕ) (i : grid4.Coords) (arg1 : Memref sig .tc .vmem S1024x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S1024x256 .f32) (harg4 : arg4.IsWhole)
    (x0 : Vec F S1024x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the call finds them; after the body at point `t` each
    input's buffer at its block and the output's at the body's value of the three input blocks; the invariant keeps
    only the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the run above applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIReg5.lean ====
/-
  The last Pallas call of the program, logistic (z · zᵀ) over an 8 × 8 grid of 1024 × 1024 output blocks: at point
  (i, j) the body reads the i-th block of 1024 rows of z through its first window and the j-th block of 1024 rows of the
  SAME array z through its second window, and writes block (i, j) of the result. This module runs the body once, on
  whole staging buffers, and packages what it leaves as the proof data of the pipeline; the two input windows hold
  their common array at the two halves of the full share.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the contents `V` the call is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (when it is not
    fetched its block index has not moved), for any proof data over `V` whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (when it is not
    fetched its block index has not moved), for any proof data over `V` whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev r5_a : Rect S1024x512 := Rect.unit (s := S1024x512) ![0, 0] S1024x512.size inb_S1024x512_S1024x512_0_0
abbrev r5_o : Rect S1024x1024 := Rect.unit (s := S1024x1024) ![0, 0] S1024x1024.size inb_S1024x1024_S1024x1024_0_0

/-- The output window's staging buffer after the body, from the two input blocks: its one store covers the buffer. -/
def out5_2 (x0 : Vec F S1024x512 .f32) (x1 : Vec F S1024x512 .f32) : Vec F S1024x1024 .f32 :=
  View.canon [⟨r5_o, k5_pay1 (View.ld x0 r5_a) (View.ld x1 r5_a)⟩]

/-- The one store is of the whole buffer. -/
theorem cover5_2 (p0 : Vec F S1024x1024 .f32) (y : S1024x1024.Idx) :
    ∃ pc ∈ ([⟨r5_o, p0⟩] : List (View.Piece (Elt F) S1024x1024 .f32)), y ∈ pc.1.set :=
  View.cover_of_tiled [⟨r5_o, p0⟩] S1024x1024.size (by rfl) y

set_option maxHeartbeats 1000000 in
/-- The body on whole staging buffers — the inputs' at contents `x0 x1`, the output's at anything — runs to its end
    with the inputs' as they were and the output's at `out5_2 x0 x1`. -/
theorem sound_kernel5 (c : Dev nD) (E : Set ℕ) (i : grid5.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__innerprod_kernel i arg2 harg2 arg3 harg3 arg4 harg4) K := by
  simp only [cc5__innerprod_kernel_eq_skeleton]; unfold cc5__innerprod_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of pipeline 5 on core `c`: the arrays as the call finds them; after the body at point `t` each
    input's buffer at its block and the output's at the body's value of the two input blocks; the invariant keeps
    only the scoped rest and the generator register; nothing owed; the two input windows, which read one array, hold
    it at the left and the right half of the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the run above applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KISplit5.lean ====
/-
  The last Pallas call hands ONE array to two input windows. The pipeline holds each window's array at the window's
  share, so at the call's entry the array's buffer, whole at the full share, is dealt to the two windows at the left
  and the right half of that share (the contents kept), and at the exit the two halves are joined again. The output
  window's array is held at the full share throughout.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import proofs.«160839_j45148696215965_1_alg».proof.Proof.KIReg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last call's three windows sit on two arrays: its two input windows on one, its output window on another. -/
theorem img5 : Finset.univ.image (Pipeline.arrRef spec5) = ({main_v74, main_v75} : Finset (Ref sig .tc)) := by decide

theorem share5_0 (c : Dev nD) : (dat5 V c).share 0 = fullShare.left := rfl
theorem share5_1 (c : Dev nD) : (dat5 V c).share 1 = fullShare.right := rfl
theorem share5_2 (c : Dev nD) : (dat5 V c).share 2 = fullShare := rfl

set_option maxHeartbeats 4000000 in
/-- ENTRY: the two buffers behind the call's arrays, whole at the full share at contents `V'`, make the pipeline's
    arrays at any contents `A` that agree with `V'`: the buffer the two input windows read is dealt to them at the left
    and the right half of the full share, contents kept. -/
theorem arrays5_split (c : Dev nD) (V' : (b : Ref sig .tc) → Buf (Elt F) ((c : Thread nD τ).loc b))
    (A : (w : Fin cfg5.W) → Buf (Elt F) ((cfg5.win w).arr.view.loc (c : Thread nD τ)))
    (h0 : A 0 = V' main_v74) (h1 : A 1 = V' main_v74) (h2 : A 2 = V' main_v75) :
    (Pipeline.arrBufs (Ix := Unit) (Name := ℕ) (U := UR sig nD τ) (Lvl := ℕ) spec5 c V' : sProp 𝕄)
      ⊢ (dat5 V c).arrays A := by
  have e0 : (cfg5.win 0).arr.view.set = Finset.univ := (arr_whole5 0).set_eq_univ
  have e2 : (cfg5.win 2).arr.view.set = Finset.univ := (arr_whole5 2).set_eq_univ
  unfold Pipeline.Dat.arrays Pipeline.arrBufs
  rw [bigSep_W5, img5, bigSep_insert (by decide), bigSep_singleton, e0, e2, share5_0, share5_1, share5_2, h0, h1, h2]
  exact (sep_mono (pointsTo_share (Ix := Unit) (Name := ℕ) (U := UR sig nD τ) (Lvl := ℕ) (ℓ := (c : Thread nD τ).loc main_v74)
    (I := Finset.univ) (f := V' main_v74) (PosShare.mem_left_op_right fullShare)).1 .rfl).trans sep_assoc

set_option maxHeartbeats 4000000 in
/-- EXIT: the pipeline's arrays at contents `A` are the two buffers whole at the full share at any contents `V'` that
    agree with `A`: the two halves of the shared buffer are joined again. -/
theorem arrays5_join (c : Dev nD) (V' : (b : Ref sig .tc) → Buf (Elt F) ((c : Thread nD τ).loc b))
    (A : (w : Fin cfg5.W) → Buf (Elt F) ((cfg5.win w).arr.view.loc (c : Thread nD τ)))
    (h0 : A 0 = V' main_v74) (h1 : A 1 = V' main_v74) (h2 : A 2 = V' main_v75) :
    (dat5 V c).arrays A
      ⊢ (Pipeline.arrBufs (Ix := Unit) (Name := ℕ) (U := UR sig nD τ) (Lvl := ℕ) spec5 c V' : sProp 𝕄) := by
  have e0 : (cfg5.win 0).arr.view.set = Finset.univ := (arr_whole5 0).set_eq_univ
  have e2 : (cfg5.win 2).arr.view.set = Finset.univ := (arr_whole5 2).set_eq_univ
  unfold Pipeline.Dat.arrays Pipeline.arrBufs
  rw [bigSep_W5, img5, bigSep_insert (by decide), bigSep_singleton, e0, e2, share5_0, share5_1, share5_2, h0, h1, h2]
  exact sep_assoc'.trans (sep_mono (pointsTo_share (Ix := Unit) (Name := ℕ) (U := UR sig nD τ) (Lvl := ℕ) (ℓ := (c : Thread nD τ).loc main_v74)
    (I := Finset.univ) (f := V' main_v74) (PosShare.mem_left_op_right fullShare)).2 .rfl)

end Cert.KernelIdeal.Fr

end
-- ==== Proof.KIRun.lean ====
/-
  The whole program as a chain of fourteen segments — eight stretches of host operations and the six Pallas calls
  between them — run from the launch to the return. The contents of the core's unscoped buffers at each boundary are a
  fold from the launch memory: a host stretch applies its operations, a Pallas call replaces its result array by what
  its pipeline's write-backs leave and changes nothing else. Every call is a segment over the same thread state (every
  unscoped buffer at the boundary's contents, the generator register, nothing owed), so the segments chain by
  reflexivity, and the run ends with every unscoped buffer at the last boundary's contents. The last call hands one
  array to two input windows: there the array's buffer is dealt to them at the two halves of the full share and joined
  again at the exit.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import proofs.«160839_j45148696215965_1_alg».proof.Proof.KIReg0
import proofs.«160839_j45148696215965_1_alg».proof.Proof.KIReg1
import proofs.«160839_j45148696215965_1_alg».proof.Proof.KIReg2
import proofs.«160839_j45148696215965_1_alg».proof.Proof.KIReg3
import proofs.«160839_j45148696215965_1_alg».proof.Proof.KIReg4
import proofs.«160839_j45148696215965_1_alg».proof.Proof.KIReg5
import proofs.«160839_j45148696215965_1_alg».proof.Proof.KISplit5
import proofs.«160839_j45148696215965_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers at launch. -/
abbrev W0 (c : Dev nD) : Valuation τ sig (Elt F) := fun b => m (c, b)
/-- After the host operations `hostOps0`. -/
abbrev W1 (c : Dev nD) : Valuation τ sig (Elt F) := StableHlo.after hostOps0 (W0 m c)
/-- After the host operations `hostOps0_1`. -/
abbrev W2 (c : Dev nD) : Valuation τ sig (Elt F) := StableHlo.after hostOps0_1 (W1 m c)
/-- After the host operations `hostOps0_2`. -/
abbrev W3 (c : Dev nD) : Valuation τ sig (Elt F) := StableHlo.after hostOps0_2 (W2 m c)
/-- The contents Pallas call 0 is entered with, read at the TensorCore's references. -/
abbrev U3 (c : Dev nD) (b : Ref sig .tc) : Buf (Elt F) ((c : Thread nD τ).loc b) := W3 m c b
/-- After Pallas call 0: its result array at what the pipeline's write-backs leave, every other buffer as entered. -/
def W4 (c : Dev nD) : Valuation τ sig (Elt F) :=
  Function.update (W3 m c) (Proc.devRef .tc (Pipeline.arrRef spec0 3)) ((dat0 (U3 m) c).arrAt 3 cfg0.N)
abbrev U4 (c : Dev nD) (b : Ref sig .tc) : Buf (Elt F) ((c : Thread nD τ).loc b) := W4 m c b
theorem W4_out (c : Dev nD) :
    W4 m c (Proc.devRef .tc (Pipeline.arrRef spec0 3)) = (dat0 (U3 m) c).arrAt 3 cfg0.N := by
  unfold W4; exact Function.update_self ..
theorem W4_of_ne (c : Dev nD) (b : Ref sig .tc) (hb : b ≠ Pipeline.arrRef spec0 3) :
    W4 m c (Proc.devRef .tc b) = W3 m c (Proc.devRef .tc b) := by
  unfold W4; exact Function.update_of_ne (StableHlo.devRef_ne_of_ne hb) _ _
/-- At the call's exit each of its arrays holds what the pipeline leaves: the result by definition, an input (never
    written back) what it held at entry. -/
theorem hF0 (c : Dev nD) (w : Fin cfg0.W) : (dat0 (U3 m) c).arrAt w cfg0.N = U4 m c (Pipeline.arrRef spec0 w) := by
  match w with
  | ⟨0, _⟩ => exact ((dat0 (U3 m) c).arrAt_in 0 rfl _).trans ((A_eq0 (U3 m) c 0).trans (W4_of_ne m c (Pipeline.arrRef spec0 0) (by decide)).symm)
  | ⟨1, _⟩ => exact ((dat0 (U3 m) c).arrAt_in 1 rfl _).trans ((A_eq0 (U3 m) c 1).trans (W4_of_ne m c (Pipeline.arrRef spec0 1) (by decide)).symm)
  | ⟨2, _⟩ => exact ((dat0 (U3 m) c).arrAt_in 2 rfl _).trans ((A_eq0 (U3 m) c 2).trans (W4_of_ne m c (Pipeline.arrRef spec0 2) (by decide)).symm)
  | ⟨3, _⟩ => exact (W4_out m c).symm
/-- and every buffer that is no array of the call what it held at entry. -/
theorem hrest0 (c : Dev nD) : ∀ b, b ∉ Finset.univ.image (Pipeline.arrRef spec0) → U4 m c b = U3 m c b :=
  fun b hb => W4_of_ne m c b fun e => hb (Finset.mem_image.mpr ⟨3, Finset.mem_univ _, e.symm⟩)
/-- After the host operations `hostOps1`. -/
abbrev W5 (c : Dev nD) : Valuation τ sig (Elt F) := StableHlo.after hostOps1 (W4 m c)
/-- The contents Pallas call 1 is entered with, read at the TensorCore's references. -/
abbrev U5 (c : Dev nD) (b : Ref sig .tc) : Buf (Elt F) ((c : Thread nD τ).loc b) := W5 m c b
/-- After Pallas call 1: its result array at what the pipeline's write-backs leave, every other buffer as entered. -/
def W6 (c : Dev nD) : Valuation τ sig (Elt F) :=
  Function.update (W5 m c) (Proc.devRef .tc (Pipeline.arrRef spec1 3)) ((dat1 (U5 m) c).arrAt 3 cfg1.N)
abbrev U6 (c : Dev nD) (b : Ref sig .tc) : Buf (Elt F) ((c : Thread nD τ).loc b) := W6 m c b
theorem W6_out (c : Dev nD) :
    W6 m c (Proc.devRef .tc (Pipeline.arrRef spec1 3)) = (dat1 (U5 m) c).arrAt 3 cfg1.N := by
  unfold W6; exact Function.update_self ..
theorem W6_of_ne (c : Dev nD) (b : Ref sig .tc) (hb : b ≠ Pipeline.arrRef spec1 3) :
    W6 m c (Proc.devRef .tc b) = W5 m c (Proc.devRef .tc b) := by
  unfold W6; exact Function.update_of_ne (StableHlo.devRef_ne_of_ne hb) _ _
/-- At the call's exit each of its arrays holds what the pipeline leaves: the result by definition, an input (never
    written back) what it held at entry. -/
theorem hF1 (c : Dev nD) (w : Fin cfg1.W) : (dat1 (U5 m) c).arrAt w cfg1.N = U6 m c (Pipeline.arrRef spec1 w) := by
  match w with
  | ⟨0, _⟩ => exact ((dat1 (U5 m) c).arrAt_in 0 rfl _).trans ((A_eq1 (U5 m) c 0).trans (W6_of_ne m c (Pipeline.arrRef spec1 0) (by decide)).symm)
  | ⟨1, _⟩ => exact ((dat1 (U5 m) c).arrAt_in 1 rfl _).trans ((A_eq1 (U5 m) c 1).trans (W6_of_ne m c (Pipeline.arrRef spec1 1) (by decide)).symm)
  | ⟨2, _⟩ => exact ((dat1 (U5 m) c).arrAt_in 2 rfl _).trans ((A_eq1 (U5 m) c 2).trans (W6_of_ne m c (Pipeline.arrRef spec1 2) (by decide)).symm)
  | ⟨3, _⟩ => exact (W6_out m c).symm
/-- and every buffer that is no array of the call what it held at entry. -/
theorem hrest1 (c : Dev nD) : ∀ b, b ∉ Finset.univ.image (Pipeline.arrRef spec1) → U6 m c b = U5 m c b :=
  fun b hb => W6_of_ne m c b fun e => hb (Finset.mem_image.mpr ⟨3, Finset.mem_univ _, e.symm⟩)
/-- After the host operations `hostOps2`. -/
abbrev W7 (c : Dev nD) : Valuation τ sig (Elt F) := StableHlo.after hostOps2 (W6 m c)
/-- The contents Pallas call 2 is entered with, read at the TensorCore's references. -/
abbrev U7 (c : Dev nD) (b : Ref sig .tc) : Buf (Elt F) ((c : Thread nD τ).loc b) := W7 m c b
/-- After Pallas call 2: its result array at what the pipeline's write-backs leave, every other buffer as entered. -/
def W8 (c : Dev nD) : Valuation τ sig (Elt F) :=
  Function.update (W7 m c) (Proc.devRef .tc (Pipeline.arrRef spec2 3)) ((dat2 (U7 m) c).arrAt 3 cfg2.N)
abbrev U8 (c : Dev nD) (b : Ref sig .tc) : Buf (Elt F) ((c : Thread nD τ).loc b) := W8 m c b
theorem W8_out (c : Dev nD) :
    W8 m c (Proc.devRef .tc (Pipeline.arrRef spec2 3)) = (dat2 (U7 m) c).arrAt 3 cfg2.N := by
  unfold W8; exact Function.update_self ..
theorem W8_of_ne (c : Dev nD) (b : Ref sig .tc) (hb : b ≠ Pipeline.arrRef spec2 3) :
    W8 m c (Proc.devRef .tc b) = W7 m c (Proc.devRef .tc b) := by
  unfold W8; exact Function.update_of_ne (StableHlo.devRef_ne_of_ne hb) _ _
/-- At the call's exit each of its arrays holds what the pipeline leaves: the result by definition, an input (never
    written back) what it held at entry. -/
theorem hF2 (c : Dev nD) (w : Fin cfg2.W) : (dat2 (U7 m) c).arrAt w cfg2.N = U8 m c (Pipeline.arrRef spec2 w) := by
  match w with
  | ⟨0, _⟩ => exact ((dat2 (U7 m) c).arrAt_in 0 rfl _).trans ((A_eq2 (U7 m) c 0).trans (W8_of_ne m c (Pipeline.arrRef spec2 0) (by decide)).symm)
  | ⟨1, _⟩ => exact ((dat2 (U7 m) c).arrAt_in 1 rfl _).trans ((A_eq2 (U7 m) c 1).trans (W8_of_ne m c (Pipeline.arrRef spec2 1) (by decide)).symm)
  | ⟨2, _⟩ => exact ((dat2 (U7 m) c).arrAt_in 2 rfl _).trans ((A_eq2 (U7 m) c 2).trans (W8_of_ne m c (Pipeline.arrRef spec2 2) (by decide)).symm)
  | ⟨3, _⟩ => exact (W8_out m c).symm
/-- and every buffer that is no array of the call what it held at entry. -/
theorem hrest2 (c : Dev nD) : ∀ b, b ∉ Finset.univ.image (Pipeline.arrRef spec2) → U8 m c b = U7 m c b :=
  fun b hb => W8_of_ne m c b fun e => hb (Finset.mem_image.mpr ⟨3, Finset.mem_univ _, e.symm⟩)
/-- After the host operations `hostOps3`. -/
abbrev W9 (c : Dev nD) : Valuation τ sig (Elt F) := StableHlo.after hostOps3 (W8 m c)
/-- The contents Pallas call 3 is entered with, read at the TensorCore's references. -/
abbrev U9 (c : Dev nD) (b : Ref sig .tc) : Buf (Elt F) ((c : Thread nD τ).loc b) := W9 m c b
/-- After Pallas call 3: its result array at what the pipeline's write-backs leave, every other buffer as entered. -/
def W10 (c : Dev nD) : Valuation τ sig (Elt F) :=
  Function.update (W9 m c) (Proc.devRef .tc (Pipeline.arrRef spec3 3)) ((dat3 (U9 m) c).arrAt 3 cfg3.N)
abbrev U10 (c : Dev nD) (b : Ref sig .tc) : Buf (Elt F) ((c : Thread nD τ).loc b) := W10 m c b
theorem W10_out (c : Dev nD) :
    W10 m c (Proc.devRef .tc (Pipeline.arrRef spec3 3)) = (dat3 (U9 m) c).arrAt 3 cfg3.N := by
  unfold W10; exact Function.update_self ..
theorem W10_of_ne (c : Dev nD) (b : Ref sig .tc) (hb : b ≠ Pipeline.arrRef spec3 3) :
    W10 m c (Proc.devRef .tc b) = W9 m c (Proc.devRef .tc b) := by
  unfold W10; exact Function.update_of_ne (StableHlo.devRef_ne_of_ne hb) _ _
/-- At the call's exit each of its arrays holds what the pipeline leaves: the result by definition, an input (never
    written back) what it held at entry. -/
theorem hF3 (c : Dev nD) (w : Fin cfg3.W) : (dat3 (U9 m) c).arrAt w cfg3.N = U10 m c (Pipeline.arrRef spec3 w) := by
  match w with
  | ⟨0, _⟩ => exact ((dat3 (U9 m) c).arrAt_in 0 rfl _).trans ((A_eq3 (U9 m) c 0).trans (W10_of_ne m c (Pipeline.arrRef spec3 0) (by decide)).symm)
  | ⟨1, _⟩ => exact ((dat3 (U9 m) c).arrAt_in 1 rfl _).trans ((A_eq3 (U9 m) c 1).trans (W10_of_ne m c (Pipeline.arrRef spec3 1) (by decide)).symm)
  | ⟨2, _⟩ => exact ((dat3 (U9 m) c).arrAt_in 2 rfl _).trans ((A_eq3 (U9 m) c 2).trans (W10_of_ne m c (Pipeline.arrRef spec3 2) (by decide)).symm)
  | ⟨3, _⟩ => exact (W10_out m c).symm
/-- and every buffer that is no array of the call what it held at entry. -/
theorem hrest3 (c : Dev nD) : ∀ b, b ∉ Finset.univ.image (Pipeline.arrRef spec3) → U10 m c b = U9 m c b :=
  fun b hb => W10_of_ne m c b fun e => hb (Finset.mem_image.mpr ⟨3, Finset.mem_univ _, e.symm⟩)
/-- After the host operations `hostOps4`. -/
abbrev W11 (c : Dev nD) : Valuation τ sig (Elt F) := StableHlo.after hostOps4 (W10 m c)
/-- The contents Pallas call 4 is entered with, read at the TensorCore's references. -/
abbrev U11 (c : Dev nD) (b : Ref sig .tc) : Buf (Elt F) ((c : Thread nD τ).loc b) := W11 m c b
/-- After Pallas call 4: its result array at what the pipeline's write-backs leave, every other buffer as entered. -/
def W12 (c : Dev nD) : Valuation τ sig (Elt F) :=
  Function.update (W11 m c) (Proc.devRef .tc (Pipeline.arrRef spec4 3)) ((dat4 (U11 m) c).arrAt 3 cfg4.N)
abbrev U12 (c : Dev nD) (b : Ref sig .tc) : Buf (Elt F) ((c : Thread nD τ).loc b) := W12 m c b
theorem W12_out (c : Dev nD) :
    W12 m c (Proc.devRef .tc (Pipeline.arrRef spec4 3)) = (dat4 (U11 m) c).arrAt 3 cfg4.N := by
  unfold W12; exact Function.update_self ..
theorem W12_of_ne (c : Dev nD) (b : Ref sig .tc) (hb : b ≠ Pipeline.arrRef spec4 3) :
    W12 m c (Proc.devRef .tc b) = W11 m c (Proc.devRef .tc b) := by
  unfold W12; exact Function.update_of_ne (StableHlo.devRef_ne_of_ne hb) _ _
/-- At the call's exit each of its arrays holds what the pipeline leaves: the result by definition, an input (never
    written back) what it held at entry. -/
theorem hF4 (c : Dev nD) (w : Fin cfg4.W) : (dat4 (U11 m) c).arrAt w cfg4.N = U12 m c (Pipeline.arrRef spec4 w) := by
  match w with
  | ⟨0, _⟩ => exact ((dat4 (U11 m) c).arrAt_in 0 rfl _).trans ((A_eq4 (U11 m) c 0).trans (W12_of_ne m c (Pipeline.arrRef spec4 0) (by decide)).symm)
  | ⟨1, _⟩ => exact ((dat4 (U11 m) c).arrAt_in 1 rfl _).trans ((A_eq4 (U11 m) c 1).trans (W12_of_ne m c (Pipeline.arrRef spec4 1) (by decide)).symm)
  | ⟨2, _⟩ => exact ((dat4 (U11 m) c).arrAt_in 2 rfl _).trans ((A_eq4 (U11 m) c 2).trans (W12_of_ne m c (Pipeline.arrRef spec4 2) (by decide)).symm)
  | ⟨3, _⟩ => exact (W12_out m c).symm
/-- and every buffer that is no array of the call what it held at entry. -/
theorem hrest4 (c : Dev nD) : ∀ b, b ∉ Finset.univ.image (Pipeline.arrRef spec4) → U12 m c b = U11 m c b :=
  fun b hb => W12_of_ne m c b fun e => hb (Finset.mem_image.mpr ⟨3, Finset.mem_univ _, e.symm⟩)
/-- After the host operations `hostOps5`. -/
abbrev W13 (c : Dev nD) : Valuation τ sig (Elt F) := StableHlo.after hostOps5 (W12 m c)
/-- The contents Pallas call 5 is entered with, read at the TensorCore's references. -/
abbrev U13 (c : Dev nD) (b : Ref sig .tc) : Buf (Elt F) ((c : Thread nD τ).loc b) := W13 m c b
/-- After Pallas call 5: its result array at what the pipeline's write-backs leave, every other buffer as entered. -/
def W14 (c : Dev nD) : Valuation τ sig (Elt F) :=
  Function.update (W13 m c) (Proc.devRef .tc (Pipeline.arrRef spec5 2)) ((dat5 (U13 m) c).arrAt 2 cfg5.N)
abbrev U14 (c : Dev nD) (b : Ref sig .tc) : Buf (Elt F) ((c : Thread nD τ).loc b) := W14 m c b
theorem W14_out (c : Dev nD) :
    W14 m c (Proc.devRef .tc (Pipeline.arrRef spec5 2)) = (dat5 (U13 m) c).arrAt 2 cfg5.N := by
  unfold W14; exact Function.update_self ..
theorem W14_of_ne (c : Dev nD) (b : Ref sig .tc) (hb : b ≠ Pipeline.arrRef spec5 2) :
    W14 m c (Proc.devRef .tc b) = W13 m c (Proc.devRef .tc b) := by
  unfold W14; exact Function.update_of_ne (StableHlo.devRef_ne_of_ne hb) _ _
/-- At the call's exit each of its arrays holds what the pipeline leaves: the result by definition, an input (never
    written back) what it held at entry. -/
theorem hF5 (c : Dev nD) (w : Fin cfg5.W) : (dat5 (U13 m) c).arrAt w cfg5.N = U14 m c (Pipeline.arrRef spec5 w) := by
  match w with
  | ⟨0, _⟩ => exact ((dat5 (U13 m) c).arrAt_in 0 rfl _).trans ((A_eq5 (U13 m) c 0).trans (W14_of_ne m c (Pipeline.arrRef spec5 0) (by decide)).symm)
  | ⟨1, _⟩ => exact ((dat5 (U13 m) c).arrAt_in 1 rfl _).trans ((A_eq5 (U13 m) c 1).trans (W14_of_ne m c (Pipeline.arrRef spec5 1) (by decide)).symm)
  | ⟨2, _⟩ => exact (W14_out m c).symm
/-- and every buffer that is no array of the call what it held at entry. -/
theorem hrest5 (c : Dev nD) : ∀ b, b ∉ Finset.univ.image (Pipeline.arrRef spec5) → U14 m c b = U13 m c b :=
  fun b hb => W14_of_ne m c b fun e => hb (Finset.mem_image.mpr ⟨2, Finset.mem_univ _, e.symm⟩)

/-! ## The proof data of all six pipelines, and the thread state -/

/-- Every pipeline's proof data, each at the contents its call is entered with. -/
def pdats : (p : Fin 6) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨5, _⟩ => fun c => dat5 (U13 m) c
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- The last thread state without what is owed: every unscoped buffer at the last boundary's contents, the generator
    register at some state. -/
abbrev Tₙ (c : Dev nD) : sProp 𝕄 := iprop(StableHlo.held (c : Thread nD τ) (Pipeline.ucRefs τ sig) (W14 m c) ∗ ∃ r, prngReg c r)

/-! ## The last call's arrays: one buffer dealt to two windows -/

set_option maxHeartbeats 8000000 in
/-- ENTRY of the last call: the core's unscoped buffers at the entry contents are the pipeline's arrays at those
    contents — the shared input array dealt to its two windows — and the unscoped rest. -/
theorem arrays5_of_unscopedBufs (c : Dev nD) :
    (StableHlo.held (c : Thread nD τ) (Pipeline.ucRefs τ sig) (W13 m c) : sProp 𝕄)
      ⊢ iprop((pdats m 5 c).arrays ((pdats m 5 c).arrAt · 0)
          ∗ Pipeline.unscopedRest (Ix := Unit) (Name := ℕ) (U := UR sig nD τ) (Lvl := ℕ) spec5 c (U13 m c)) := by
  have h : (unscopedBufs c (U13 m c) : sProp 𝕄)
      ⊢ iprop((dat5 (U13 m) c).arrays ((dat5 (U13 m) c).arrAt · 0)
          ∗ Pipeline.unscopedRest (Ix := Unit) (Name := ℕ) (U := UR sig nD τ) (Lvl := ℕ) spec5 c (U13 m c)) := by
    rw [Pipeline.unscopedBufs_split₀ (Pipeline.pin (pcfgs (F := F)) adm) 5 winFacts₀5.arr_unscoped c (U13 m c)]
    exact sep_mono (arrays5_split (U13 m) c (U13 m c) _ rfl rfl rfl) .rfl
  rw [Pipeline.unscopedBufs_held] at h
  exact h

set_option maxHeartbeats 8000000 in
/-- EXIT of the last call: the pipeline's arrays at their final contents and the unscoped rest are the core's unscoped
    buffers at the exit contents — the two halves of the shared input array joined, the result at what was written. -/
theorem unscopedBufs_of_arrays5 (c : Dev nD) :
    iprop((pdats m 5 c).arrays ((pdats m 5 c).arrAt · cfg5.N)
          ∗ Pipeline.unscopedRest (Ix := Unit) (Name := ℕ) (U := UR sig nD τ) (Lvl := ℕ) spec5 c (U13 m c))
      ⊢ (StableHlo.held (c : Thread nD τ) (Pipeline.ucRefs τ sig) (W14 m c) : sProp 𝕄) := by
  have h : iprop((dat5 (U13 m) c).arrays ((dat5 (U13 m) c).arrAt · cfg5.N)
          ∗ Pipeline.unscopedRest (Ix := Unit) (Name := ℕ) (U := UR sig nD τ) (Lvl := ℕ) spec5 c (U13 m c))
      ⊢ (unscopedBufs c (U14 m c) : sProp 𝕄) := by
    rw [Pipeline.unscopedBufs_split₀ (Pipeline.pin (pcfgs (F := F)) adm) 5 winFacts₀5.arr_unscoped c (U14 m c)]
    refine sep_mono (arrays5_join (U13 m) c (U14 m c) _ (hF5 m c 0) (hF5 m c 1) (hF5 m c 2)) (Entails.of_eq ?_)
    unfold Pipeline.unscopedRest
    exact bigSep_congr fun b hb => by rw [hrest5 m c b (Finset.mem_sdiff.mp hb).2]
  rw [Pipeline.unscopedBufs_held] at h
  exact h

/-! ## The six calls as segments -/

-- the library's lemmas are stated over the pinned configuration of a pipeline, which unifies with the printed one only
-- when unification may unfold plain definitions in a metavariable's type
set_option backward.isDefEq.respectTransparency.types false in
/-- Pallas call 0 as a segment over the thread state "every unscoped buffer at the boundary's contents, the generator
    register at some state, nothing owed": its arrays are taken out of the unscoped buffers at entry and put back, the
    result at its new contents, at exit; the generator register goes into the pipeline's invariant and comes back. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 1 as a segment over the thread state "every unscoped buffer at the boundary's contents, the generator
    register at some state, nothing owed": its arrays are taken out of the unscoped buffers at entry and put back, the
    result at its new contents, at exit; the generator register goes into the pipeline's invariant and comes back. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 2 as a segment over the thread state "every unscoped buffer at the boundary's contents, the generator
    register at some state, nothing owed": its arrays are taken out of the unscoped buffers at entry and put back, the
    result at its new contents, at exit; the generator register goes into the pipeline's invariant and comes back. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ Lz lvz 2 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 3 as a segment over the thread state "every unscoped buffer at the boundary's contents, the generator
    register at some state, nothing owed": its arrays are taken out of the unscoped buffers at entry and put back, the
    result at its new contents, at exit; the generator register goes into the pipeline's invariant and comes back. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ Lz lvz 3 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec3 c (U9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U9 m c) (U10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 4 as a segment over the thread state "every unscoped buffer at the boundary's contents, the generator
    register at some state, nothing owed": its arrays are taken out of the unscoped buffers at entry and put back, the
    result at its new contents, at exit; the generator register goes into the pipeline's invariant and comes back. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ Lz lvz 4 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec4 c (U11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U11 m c) (U12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- Pallas call 5 as a segment over the thread state "every unscoped buffer at the boundary's contents, the generator
    register at some state, nothing owed": its arrays are taken out of the unscoped buffers at entry and put back, the
    result at its new contents, at exit; the generator register goes into the pipeline's invariant and comes back. -/
def reg5 : Pipeline.RegionSeg (pcfgs (F := F)) adm (pdats m) () defs₀ Variants.none Lz lvz 5 where
  win := winFacts₀5
  block_pos := block_pos5
  stage_whole := stage_whole5
  K := PEmpty
  osem k := k.elim
  ho := Pipeline.OwnSemFacts.none _
  hbody c := (body_obligation5 (U13 m) c).loose
  hwaits := Pipeline.hwaits_of_owed_zero _ _ _ _ Lz lvz 5 fun _ _ => rfl
  pre c := iprop(StableHlo.held (c : Thread nD τ) (Pipeline.ucRefs τ sig) (W13 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U13 m c)
  hentry c := by
    rw [Pipeline.ownSems0_none]
    have hsplit := arrays5_of_unscopedBufs m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := unscopedBufs_of_arrays5 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev items : List (Pipeline.Seg (pcfgs (F := F)) adm (pdats m) () defs₀ Variants.none Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m) ]

/-- The program is the run of its segments. -/
theorem main_run (c : Dev nD) : main (F := F) c = Pipeline.Seg.run (items m) := (main_chain c).trans (by chain_rfl)

-- the launch theorem's implicit arguments are found by unifying its conclusion with this one, which takes unfolding plain
-- definitions in a metavariable's type
set_option backward.isDefEq.respectTransparency.types false in
/-- THE RUN, at any float instance: from any memory with zero counters every weakly fair execution of the program
    terminates, nothing faulting, and in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W14 m c b) :=
  Pipeline.θ_run_regions_kit (pcfgs (F := F)) adm (pdats m) () cellOf_inj emb₁ defs₀ Variants.none Lz lvz m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.KernelIdeal.Fr

end
-- ==== Proof.KIFrame.lean ====
/-
  What the run leaves, read: no host operation writes an argument array and no Pallas call has one as its result, so
  each argument's buffer walks back through the fold of boundary contents to the launch memory; the program's result
  is the last call's result array, at what that call's pipeline leaves.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import proofs.«160839_j45148696215965_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference that no host stretch writes and that is no call's result holds its launch contents at the end. -/
theorem W14_of (c : Dev nD) (r : Ref sig .tc) (h0 : r ∉ hostOps0_W) (h0_1 : r ∉ hostOps0_1_W) (h0_2 : r ∉ hostOps0_2_W) (h1 : r ∉ hostOps1_W) (h2 : r ∉ hostOps2_W) (h3 : r ∉ hostOps3_W) (h4 : r ∉ hostOps4_W) (h5 : r ∉ hostOps5_W) (g0 : r ≠ Pipeline.arrRef spec0 3) (g1 : r ≠ Pipeline.arrRef spec1 3) (g2 : r ≠ Pipeline.arrRef spec2 3) (g3 : r ≠ Pipeline.arrRef spec3 3) (g4 : r ≠ Pipeline.arrRef spec4 3) (g5 : r ≠ Pipeline.arrRef spec5 2) :
    W14 m c r = m ((c : Thread nD τ).loc r) :=
  (W14_of_ne m c r g5).trans <| (StableHlo.after_of_writes_sub hostOps5 _ hostOps5_writes h5).trans <| (W12_of_ne m c r g4).trans <| (StableHlo.after_of_writes_sub hostOps4 _ hostOps4_writes h4).trans <| (W10_of_ne m c r g3).trans <| (StableHlo.after_of_writes_sub hostOps3 _ hostOps3_writes h3).trans <| (W8_of_ne m c r g2).trans <| (StableHlo.after_of_writes_sub hostOps2 _ hostOps2_writes h2).trans <| (W6_of_ne m c r g1).trans <| (StableHlo.after_of_writes_sub hostOps1 _ hostOps1_writes h1).trans <| (W4_of_ne m c r g0).trans <| (StableHlo.after_of_writes_sub hostOps0_2 _ hostOps0_2_writes h0_2).trans <| (StableHlo.after_of_writes_sub hostOps0_1 _ hostOps0_1_writes h0_1).trans <| (StableHlo.after_of_writes_sub hostOps0 _ hostOps0_writes h0).trans <| rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W14_main_arg0 (c : Dev nD) : W14 m c main_arg0 = m ((c : Thread nD τ).loc main_arg0) :=
  W14_of m c main_arg0 (by decide) (by decide) (by decide) (by decide) (by decide) (by decide) (by decide) (by decide) (by decide) (by decide) (by decide) (by decide) (by decide) (by decide)
theorem W14_main_arg1 (c : Dev nD) : W14 m c main_arg1 = m ((c : Thread nD τ).loc main_arg1) :=
  W14_of m c main_arg1 (by decide) (by decide) (by decide) (by decide) (by decide) (by decide) (by decide) (by decide) (by decide) (by decide) (by decide) (by decide) (by decide) (by decide)
theorem W14_main_arg2 (c : Dev nD) : W14 m c main_arg2 = m ((c : Thread nD τ).loc main_arg2) :=
  W14_of m c main_arg2 (by decide) (by decide) (by decide) (by decide) (by decide) (by decide) (by decide) (by decide) (by decide) (by decide) (by decide) (by decide) (by decide) (by decide)
theorem W14_main_arg3 (c : Dev nD) : W14 m c main_arg3 = m ((c : Thread nD τ).loc main_arg3) :=
  W14_of m c main_arg3 (by decide) (by decide) (by decide) (by decide) (by decide) (by decide) (by decide) (by decide) (by decide) (by decide) (by decide) (by decide) (by decide) (by decide)
theorem W14_main_arg4 (c : Dev nD) : W14 m c main_arg4 = m ((c : Thread nD τ).loc main_arg4) :=
  W14_of m c main_arg4 (by decide) (by decide) (by decide) (by decide) (by decide) (by decide) (by decide) (by decide) (by decide) (by decide) (by decide) (by decide) (by decide) (by decide)
theorem W14_main_arg5 (c : Dev nD) : W14 m c main_arg5 = m ((c : Thread nD τ).loc main_arg5) :=
  W14_of m c main_arg5 (by decide) (by decide) (by decide) (by decide) (by decide) (by decide) (by decide) (by decide) (by decide) (by decide) (by decide) (by decide) (by decide) (by decide)
theorem W14_main_arg6 (c : Dev nD) : W14 m c main_arg6 = m ((c : Thread nD τ).loc main_arg6) :=
  W14_of m c main_arg6 (by decide) (by decide) (by decide) (by decide) (by decide) (by decide) (by decide) (by decide) (by decide) (by decide) (by decide) (by decide) (by decide) (by decide)
theorem W14_main_arg7 (c : Dev nD) : W14 m c main_arg7 = m ((c : Thread nD τ).loc main_arg7) :=
  W14_of m c main_arg7 (by decide) (by decide) (by decide) (by decide) (by decide) (by decide) (by decide) (by decide) (by decide) (by decide) (by decide) (by decide) (by decide) (by decide)
theorem W14_main_arg8 (c : Dev nD) : W14 m c main_arg8 = m ((c : Thread nD τ).loc main_arg8) :=
  W14_of m c main_arg8 (by decide) (by decide) (by decide) (by decide) (by decide) (by decide) (by decide) (by decide) (by decide) (by decide) (by decide) (by decide) (by decide) (by decide)
theorem W14_main_arg9 (c : Dev nD) : W14 m c main_arg9 = m ((c : Thread nD τ).loc main_arg9) :=
  W14_of m c main_arg9 (by decide) (by decide) (by decide) (by decide) (by decide) (by decide) (by decide) (by decide) (by decide) (by decide) (by decide) (by decide) (by decide) (by decide)
theorem W14_main_arg10 (c : Dev nD) : W14 m c main_arg10 = m ((c : Thread nD τ).loc main_arg10) :=
  W14_of m c main_arg10 (by decide) (by decide) (by decide) (by decide) (by decide) (by decide) (by decide) (by decide) (by decide) (by decide) (by decide) (by decide) (by decide) (by decide)
theorem W14_main_arg11 (c : Dev nD) : W14 m c main_arg11 = m ((c : Thread nD τ).loc main_arg11) :=
  W14_of m c main_arg11 (by decide) (by decide) (by decide) (by decide) (by decide) (by decide) (by decide) (by decide) (by decide) (by decide) (by decide) (by decide) (by decide) (by decide)
theorem W14_main_arg12 (c : Dev nD) : W14 m c main_arg12 = m ((c : Thread nD τ).loc main_arg12) :=
  W14_of m c main_arg12 (by decide) (by decide) (by decide) (by decide) (by decide) (by decide) (by decide) (by decide) (by decide) (by decide) (by decide) (by decide) (by decide) (by decide)

/-- THE FRAME, at any float instance: every weakly fair execution terminates, faults nowhere, and leaves the thirteen
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W14_main_arg0 m c),
      (h c _ (mem_uc main_arg1 (by decide))).trans (W14_main_arg1 m c),
      (h c _ (mem_uc main_arg2 (by decide))).trans (W14_main_arg2 m c),
      (h c _ (mem_uc main_arg3 (by decide))).trans (W14_main_arg3 m c),
      (h c _ (mem_uc main_arg4 (by decide))).trans (W14_main_arg4 m c),
      (h c _ (mem_uc main_arg5 (by decide))).trans (W14_main_arg5 m c),
      (h c _ (mem_uc main_arg6 (by decide))).trans (W14_main_arg6 m c),
      (h c _ (mem_uc main_arg7 (by decide))).trans (W14_main_arg7 m c),
      (h c _ (mem_uc main_arg8 (by decide))).trans (W14_main_arg8 m c),
      (h c _ (mem_uc main_arg9 (by decide))).trans (W14_main_arg9 m c),
      (h c _ (mem_uc main_arg10 (by decide))).trans (W14_main_arg10 m c),
      (h c _ (mem_uc main_arg11 (by decide))).trans (W14_main_arg11 m c),
      (h c _ (mem_uc main_arg12 (by decide))).trans (W14_main_arg12 m c)⟩)
    (run_all m ρ)

/-- THE RUN WITH ITS RESULT: as the frame, and the result array ends at what the last call's pipeline leaves of the
    contents that call is entered with. -/
theorem run_value (ρ : Dev nD → PrngReg) : θ_run defs (onTc (τ := τ) (main (F := F))) ⟨m, fun _ => 0, ρ⟩ (fun r => ∀ c : Dev nD,
      r.2.mem ((c.tc : Thread nD τ).loc main_v75) = (dat5 (U13 m) c).arrAt 2 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v75 (by decide))).trans (W14_out m c),
      (h c _ (mem_uc main_arg0 (by decide))).trans (W14_main_arg0 m c),
      (h c _ (mem_uc main_arg1 (by decide))).trans (W14_main_arg1 m c),
      (h c _ (mem_uc main_arg2 (by decide))).trans (W14_main_arg2 m c),
      (h c _ (mem_uc main_arg3 (by decide))).trans (W14_main_arg3 m c),
      (h c _ (mem_uc main_arg4 (by decide))).trans (W14_main_arg4 m c),
      (h c _ (mem_uc main_arg5 (by decide))).trans (W14_main_arg5 m c),
      (h c _ (mem_uc main_arg6 (by decide))).trans (W14_main_arg6 m c),
      (h c _ (mem_uc main_arg7 (by decide))).trans (W14_main_arg7 m c),
      (h c _ (mem_uc main_arg8 (by decide))).trans (W14_main_arg8 m c),
      (h c _ (mem_uc main_arg9 (by decide))).trans (W14_main_arg9 m c),
      (h c _ (mem_uc main_arg10 (by decide))).trans (W14_main_arg10 m c),
      (h c _ (mem_uc main_arg11 (by decide))).trans (W14_main_arg11 m c),
      (h c _ (mem_uc main_arg12 (by decide))).trans (W14_main_arg12 m c)⟩)
    (run_all m ρ)

end Cert.KernelIdeal.Fr

end
-- ==== Proof.RefArgs.lean ====
/-
  The reference program's host operations as a list, the references they write, and the consequence that is read off
  that list alone: none of them writes an argument array, so after the whole list each argument holds what it held
  before.
-/
import proofs.«160839_j45148696215965_1_alg».proof.Proof.Gen.ReferenceIdeal
import Idealize.ShloMosaic.Lib.StableHlo.Run

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-- The program's 108 host operations, in order (an outlined function's operations stand in its call's place). -/
abbrev ops : List (HloOp τ sig (Elt F)) :=
  [ nullary main_v0 (iotaInDim S8192 32 0),
    unary main_arg2 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg2 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S270336x1 ![0] bcast_S270336_S270336x1_0 : (⟨S270336, .i32⟩ : BufTy).Contents (Elt F) → (⟨S270336x1, .i32⟩ : BufTy).Contents (Elt F)),
    ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v12) (TRef.of (T := ⟨S8192, .f32⟩) main_v13) (TRef.of (T := ⟨S8192, .f32⟩) main_call0_v1) (TRef.of (T := ⟨S8192, .f32⟩) main_v14) select,
    nullary main_c (constantI S_ 32 0#32),
    unary main_c main_v15 (broadcastInDim S270336 ![] bcast_S_S270336 : (⟨S_, .i32⟩ : BufTy).Contents (Elt F) → (⟨S270336, .i32⟩ : BufTy).Contents (Elt F)),
    binary main_v3 main_v15 main_v16 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v17 (broadcastInDim S270336 ![] bcast_S_S270336 : (⟨S_, .i32⟩ : BufTy).Contents (Elt F) → (⟨S270336, .i32⟩ : BufTy).Contents (Elt F)),
    binary main_v3 main_v17 main_v18 (addi : (⟨S270336, .i32⟩ : BufTy).Contents (Elt F) → (⟨S270336, .i32⟩ : BufTy).Contents (Elt F) → (⟨S270336, .i32⟩ : BufTy).Contents (Elt F)),
    ternary main_v16 main_v18 main_v3 main_v19 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v19 main_v20 (broadcastInDim S270336x1 ![0] bcast_S270336_S270336x1_0 : (⟨S270336, .i32⟩ : BufTy).Contents (Elt F) → (⟨S270336x1, .i32⟩ : BufTy).Contents (Elt F)),
    binary main_v14 main_v20 main_v21 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v22 (broadcastInDim S270336 ![] bcast_S_S270336 : (⟨S_, .i32⟩ : BufTy).Contents (Elt F) → (⟨S270336, .i32⟩ : BufTy).Contents (Elt F)),
    binary main_v6 main_v22 main_v23 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v24 (broadcastInDim S270336 ![] bcast_S_S270336 : (⟨S_, .i32⟩ : BufTy).Contents (Elt F) → (⟨S270336, .i32⟩ : BufTy).Contents (Elt F)),
    binary main_v6 main_v24 main_v25 (addi : (⟨S270336, .i32⟩ : BufTy).Contents (Elt F) → (⟨S270336, .i32⟩ : BufTy).Contents (Elt F) → (⟨S270336, .i32⟩ : BufTy).Contents (Elt F)),
    ternary main_v23 main_v25 main_v6 main_v26 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v26 main_v27 (broadcastInDim S270336x1 ![0] bcast_S270336_S270336x1_0 : (⟨S270336, .i32⟩ : BufTy).Contents (Elt F) → (⟨S270336x1, .i32⟩ : BufTy).Contents (Elt F)),
    binary main_v14 main_v27 main_v28 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v21 main_v28 main_v29 (mulf : (⟨S270336, .f32⟩ : BufTy).Contents (Elt F) → (⟨S270336, .f32⟩ : BufTy).Contents (Elt F) → (⟨S270336, .f32⟩ : BufTy).Contents (Elt F)),
    binary main_arg0 main_arg3 main_v30 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg4 main_v31 (broadcastInDim S1x512 ![1] bcast_S512_S1x512_1 : (⟨S512, .f32⟩ : BufTy).Contents (Elt F) → (⟨S1x512, .f32⟩ : BufTy).Contents (Elt F)),
    unary main_v31 main_v32 (broadcastInDim S8192x512 ![0, 1] bcast_S1x512_S8192x512_0_1 : (⟨S1x512, .f32⟩ : BufTy).Contents (Elt F) → (⟨S8192x512, .f32⟩ : BufTy).Contents (Elt F)),
    binary main_v30 main_v32 main_v33 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x512, .f32⟩) main_call1_v0) (broadcastInDim S8192x512 ![] bcast_S_S8192x512),
    TRef.binary (TRef.of (T := ⟨S8192x512, .f32⟩) main_v33) (TRef.of (T := ⟨S8192x512, .f32⟩) main_call1_v0) (TRef.of (T := ⟨S8192x512, .f32⟩) main_v34) maximumf,
    binary main_arg0 main_v34 main_v35 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v35 main_arg5 main_v36 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    unary main_arg6 main_v37 (broadcastInDim S1x256 ![1] bcast_S256_S1x256_1 : (⟨S256, .f32⟩ : BufTy).Contents (Elt F) → (⟨S1x256, .f32⟩ : BufTy).Contents (Elt F)),
    unary main_v37 main_v38 (broadcastInDim S8192x256 ![0, 1] bcast_S1x256_S8192x256_0_1 : (⟨S1x256, .f32⟩ : BufTy).Contents (Elt F) → (⟨S8192x256, .f32⟩ : BufTy).Contents (Elt F)),
    binary main_v36 main_v38 main_v39 (addf : (⟨S8192x256, .f32⟩ : BufTy).Contents (Elt F) → (⟨S8192x256, .f32⟩ : BufTy).Contents (Elt F) → (⟨S8192x256, .f32⟩ : BufTy).Contents (Elt F)),
    binary main_arg0 main_arg7 main_v40 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    nullary main_c_6 (constantI S_ 32 0#32),
    unary main_c_6 main_v41 (broadcastInDim S270336 ![] bcast_S_S270336 : (⟨S_, .i32⟩ : BufTy).Contents (Elt F) → (⟨S270336, .i32⟩ : BufTy).Contents (Elt F)),
    binary main_v3 main_v41 main_v42 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v43 (broadcastInDim S270336 ![] bcast_S_S270336 : (⟨S_, .i32⟩ : BufTy).Contents (Elt F) → (⟨S270336, .i32⟩ : BufTy).Contents (Elt F)),
    binary main_v3 main_v43 main_v44 (addi : (⟨S270336, .i32⟩ : BufTy).Contents (Elt F) → (⟨S270336, .i32⟩ : BufTy).Contents (Elt F) → (⟨S270336, .i32⟩ : BufTy).Contents (Elt F)),
    ternary main_v42 main_v44 main_v3 main_v45 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v45 main_v46 (broadcastInDim S270336x1 ![0] bcast_S270336_S270336x1_0 : (⟨S270336, .i32⟩ : BufTy).Contents (Elt F) → (⟨S270336x1, .i32⟩ : BufTy).Contents (Elt F)),
    binary main_v40 main_v46 main_v47 ((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F)),
    unary main_v29 main_v48 (broadcastInDim S270336x1 ![0] bcast_S270336_S270336x1_0 : (⟨S270336, .f32⟩ : BufTy).Contents (Elt F) → (⟨S270336x1, .f32⟩ : BufTy).Contents (Elt F)),
    unary main_v48 main_v49 (broadcastInDim S270336x512 ![0, 1] bcast_S270336x1_S270336x512_0_1 : (⟨S270336x1, .f32⟩ : BufTy).Contents (Elt F) → (⟨S270336x512, .f32⟩ : BufTy).Contents (Elt F)),
    binary main_v47 main_v49 main_v50 (mulf : (⟨S270336x512, .f32⟩ : BufTy).Contents (Elt F) → (⟨S270336x512, .f32⟩ : BufTy).Contents (Elt F) → (⟨S270336x512, .f32⟩ : BufTy).Contents (Elt F)),
    nullary main_cst_8 (constant S_ .f32 0x00000000#32),
    unary main_cst_8 main_v51 (broadcastInDim S8192x512 ![] bcast_S_S8192x512 : (⟨S_, .f32⟩ : BufTy).Contents (Elt F) → (⟨S8192x512, .f32⟩ : BufTy).Contents (Elt F)),
    unary main_v6 main_v52 (broadcastInDim S270336x1 ![0] bcast_S270336_S270336x1_0 : (⟨S270336, .i32⟩ : BufTy).Contents (Elt F) → (⟨S270336x1, .i32⟩ : BufTy).Contents (Elt F)),
    ternary main_v51 main_v52 main_v50 main_v53 ((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F)),
    unary main_arg8 main_v54 (broadcastInDim S1x512 ![1] bcast_S512_S1x512_1 : (⟨S512, .f32⟩ : BufTy).Contents (Elt F) → (⟨S1x512, .f32⟩ : BufTy).Contents (Elt F)),
    unary main_v54 main_v55 (broadcastInDim S8192x512 ![0, 1] bcast_S1x512_S8192x512_0_1 : (⟨S1x512, .f32⟩ : BufTy).Contents (Elt F) → (⟨S8192x512, .f32⟩ : BufTy).Contents (Elt F)),
    binary main_v53 main_v55 main_v56 (addf : (⟨S8192x512, .f32⟩ : BufTy).Contents (Elt F) → (⟨S8192x512, .f32⟩ : BufTy).Contents (Elt F) → (⟨S8192x512, .f32⟩ : BufTy).Contents (Elt F)),
    binary main_v56 main_arg9 main_v57 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    nullary main_c_9 (constantI S_ 32 0#32),
    unary main_c_9 main_v58 (broadcastInDim S270336 ![] bcast_S_S270336 : (⟨S_, .i32⟩ : BufTy).Contents (Elt F) → (⟨S270336, .i32⟩ : BufTy).Contents (Elt F)),
    binary main_v3 main_v58 main_v59 (cmpi .slt : (⟨S270336, .i32⟩ : BufTy).Contents (Elt F) → (⟨S270336, .i32⟩ : BufTy).Contents (Elt F) → (⟨S270336, .i1⟩ : BufTy).Contents (Elt F)),
    nullary main_c_10 (constantI S_ 32 8192#32),
    unary main_c_10 main_v60 (broadcastInDim S270336 ![] bcast_S_S270336 : (⟨S_, .i32⟩ : BufTy).Contents (Elt F) → (⟨S270336, .i32⟩ : BufTy).Contents (Elt F)),
    binary main_v3 main_v60 main_v61 (addi : (⟨S270336, .i32⟩ : BufTy).Contents (Elt F) → (⟨S270336, .i32⟩ : BufTy).Contents (Elt F) → (⟨S270336, .i32⟩ : BufTy).Contents (Elt F)),
    ternary main_v59 main_v61 main_v3 main_v62 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v62 main_v63 (broadcastInDim S270336x1 ![0] bcast_S270336_S270336x1_0 : (⟨S270336, .i32⟩ : BufTy).Contents (Elt F) → (⟨S270336x1, .i32⟩ : BufTy).Contents (Elt F)),
    binary main_v57 main_v63 main_v64 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v29 main_v65 (broadcastInDim S270336x1 ![0] bcast_S270336_S270336x1_0 : (⟨S270336, .f32⟩ : BufTy).Contents (Elt F) → (⟨S270336x1, .f32⟩ : BufTy).Contents (Elt F)),
    unary main_v65 main_v66 (broadcastInDim S270336x256 ![0, 1] bcast_S270336x1_S270336x256_0_1 : (⟨S270336x1, .f32⟩ : BufTy).Contents (Elt F) → (⟨S270336x256, .f32⟩ : BufTy).Contents (Elt F)),
    binary main_v64 main_v66 main_v67 (mulf : (⟨S270336x256, .f32⟩ : BufTy).Contents (Elt F) → (⟨S270336x256, .f32⟩ : BufTy).Contents (Elt F) → (⟨S270336x256, .f32⟩ : BufTy).Contents (Elt F)),
    nullary main_cst_11 (constant S_ .f32 0x00000000#32),
    unary main_cst_11 main_v68 (broadcastInDim S8192x256 ![] bcast_S_S8192x256 : (⟨S_, .f32⟩ : BufTy).Contents (Elt F) → (⟨S8192x256, .f32⟩ : BufTy).Contents (Elt F)),
    unary main_v6 main_v69 (broadcastInDim S270336x1 ![0] bcast_S270336_S270336x1_0 : (⟨S270336, .i32⟩ : BufTy).Contents (Elt F) → (⟨S270336x1, .i32⟩ : BufTy).Contents (Elt F)),
    ternary main_v68 main_v69 main_v67 main_v70 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg10 main_v71 (broadcastInDim S1x256 ![1] bcast_S256_S1x256_1 : (⟨S256, .f32⟩ : BufTy).Contents (Elt F) → (⟨S1x256, .f32⟩ : BufTy).Contents (Elt F)),
    unary main_v71 main_v72 (broadcastInDim S8192x256 ![0, 1] bcast_S1x256_S8192x256_0_1 : (⟨S1x256, .f32⟩ : BufTy).Contents (Elt F) → (⟨S8192x256, .f32⟩ : BufTy).Contents (Elt F)),
    binary main_v70 main_v72 main_v73 (addf : (⟨S8192x256, .f32⟩ : BufTy).Contents (Elt F) → (⟨S8192x256, .f32⟩ : BufTy).Contents (Elt F) → (⟨S8192x256, .f32⟩ : BufTy).Contents (Elt F)),
    binary main_arg1 main_v73 main_v74 ((fun a b => concatenate S8192x768 1 [⟨S8192x512, a⟩, ⟨S8192x256, b⟩] concatenates_S8192x512_S8192x256_S8192x768_d1) : (⟨S8192x512, .f32⟩ : BufTy).Contents (Elt F) → (⟨S8192x256, .f32⟩ : BufTy).Contents (Elt F) → (⟨S8192x768, .f32⟩ : BufTy).Contents (Elt F)),
    binary main_v74 main_arg11 main_v75 ((fun l r => Host.dotGeneral dot_S8192x768_S768x256_S8192x256_1_0_0_1_n_n none l r) : (⟨S8192x768, .f32⟩ : BufTy).Contents (Elt F) → (⟨S768x256, .f32⟩ : BufTy).Contents (Elt F) → (⟨S8192x256, .f32⟩ : BufTy).Contents (Elt F)),
    unary main_arg12 main_v76 (broadcastInDim S1x256 ![1] bcast_S256_S1x256_1 : (⟨S256, .f32⟩ : BufTy).Contents (Elt F) → (⟨S1x256, .f32⟩ : BufTy).Contents (Elt F)),
    unary main_v76 main_v77 (broadcastInDim S8192x256 ![0, 1] bcast_S1x256_S8192x256_0_1 : (⟨S1x256, .f32⟩ : BufTy).Contents (Elt F) → (⟨S8192x256, .f32⟩ : BufTy).Contents (Elt F)),
    binary main_v75 main_v77 main_v78 (addf : (⟨S8192x256, .f32⟩ : BufTy).Contents (Elt F) → (⟨S8192x256, .f32⟩ : BufTy).Contents (Elt F) → (⟨S8192x256, .f32⟩ : BufTy).Contents (Elt F)),
    binary main_v39 main_v78 main_v79 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    unary main_v79 main_v80 ((transpose S512x8192 [1, 0] · transposes_S8192x512_S512x8192_1_0) : (⟨S8192x512, .f32⟩ : BufTy).Contents (Elt F) → (⟨S512x8192, .f32⟩ : BufTy).Contents (Elt F)),
    binary main_v79 main_v80 main_v81 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    unary main_v81 main_v82 (Host.negf : (⟨S8192x8192, .f32⟩ : BufTy).Contents (Elt F) → (⟨S8192x8192, .f32⟩ : BufTy).Contents (Elt F)),
    unary main_v82 main_v83 (Host.exp : (⟨S8192x8192, .f32⟩ : BufTy).Contents (Elt F) → (⟨S8192x8192, .f32⟩ : BufTy).Contents (Elt F)),
    nullary main_cst_12 (constant S_ .f32 0x3F800000#32),
    unary main_cst_12 main_v84 (broadcastInDim S8192x8192 ![] bcast_S_S8192x8192 : (⟨S_, .f32⟩ : BufTy).Contents (Elt F) → (⟨S8192x8192, .f32⟩ : BufTy).Contents (Elt F)),
    binary main_v84 main_v83 main_v85 (addf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0x3F800000#32),
    unary main_cst_13 main_v86 (broadcastInDim S8192x8192 ![] bcast_S_S8192x8192 : (⟨S_, .f32⟩ : BufTy).Contents (Elt F) → (⟨S8192x8192, .f32⟩ : BufTy).Contents (Elt F)),
    binary main_v86 main_v85 main_v87 (Host.divf : (⟨S8192x8192, .f32⟩ : BufTy).Contents (Elt F) → (⟨S8192x8192, .f32⟩ : BufTy).Contents (Elt F) → (⟨S8192x8192, .f32⟩ : BufTy).Contents (Elt F)) ]

/-- The references the operations write, in order. -/
abbrev ops_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_v31, main_v32, main_v33, main_call1_cst, main_call1_v0, main_v34, main_v35, main_v36, main_v37, main_v38, main_v39, main_v40, main_c_6, main_v41, main_v42, main_c_7, main_v43, main_v44, main_v45, main_v46, main_v47, main_v48, main_v49, main_v50, main_cst_8, main_v51, main_v52, main_v53, main_v54, main_v55, main_v56, main_v57, main_c_9, main_v58, main_v59, main_c_10, main_v60, main_v61, main_v62, main_v63, main_v64, main_v65, main_v66, main_v67, main_cst_11, main_v68, main_v69, main_v70, main_v71, main_v72, main_v73, main_v74, main_v75, main_v76, main_v77, main_v78, main_v79, main_v80, main_v81, main_v82, main_v83, main_cst_12, main_v84, main_v85, main_cst_13, main_v86, main_v87]

set_option maxRecDepth 8192 in
set_option maxHeartbeats 4000000 in
/-- Each operation writes only its own result reference. -/
theorem ops_writes : (ops : List (HloOp τ sig (Elt F))).Forall fun op => op.writes ⊆ (ops_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference no operation writes holds after the list what it held before. -/
theorem kept (W : Valuation τ sig (Elt F)) (r : Ref sig .tc) (h : r ∉ ops_W) : StableHlo.after ops W r = W r :=
  StableHlo.after_of_writes_sub ops _ ops_writes h

theorem kept_arg0 (W : Valuation τ sig (Elt F)) : StableHlo.after ops W main_arg0 = W main_arg0 := kept W main_arg0 (by decide)
theorem kept_arg1 (W : Valuation τ sig (Elt F)) : StableHlo.after ops W main_arg1 = W main_arg1 := kept W main_arg1 (by decide)
theorem kept_arg2 (W : Valuation τ sig (Elt F)) : StableHlo.after ops W main_arg2 = W main_arg2 := kept W main_arg2 (by decide)
theorem kept_arg3 (W : Valuation τ sig (Elt F)) : StableHlo.after ops W main_arg3 = W main_arg3 := kept W main_arg3 (by decide)
theorem kept_arg4 (W : Valuation τ sig (Elt F)) : StableHlo.after ops W main_arg4 = W main_arg4 := kept W main_arg4 (by decide)
theorem kept_arg5 (W : Valuation τ sig (Elt F)) : StableHlo.after ops W main_arg5 = W main_arg5 := kept W main_arg5 (by decide)
theorem kept_arg6 (W : Valuation τ sig (Elt F)) : StableHlo.after ops W main_arg6 = W main_arg6 := kept W main_arg6 (by decide)
theorem kept_arg7 (W : Valuation τ sig (Elt F)) : StableHlo.after ops W main_arg7 = W main_arg7 := kept W main_arg7 (by decide)
theorem kept_arg8 (W : Valuation τ sig (Elt F)) : StableHlo.after ops W main_arg8 = W main_arg8 := kept W main_arg8 (by decide)
theorem kept_arg9 (W : Valuation τ sig (Elt F)) : StableHlo.after ops W main_arg9 = W main_arg9 := kept W main_arg9 (by decide)
theorem kept_arg10 (W : Valuation τ sig (Elt F)) : StableHlo.after ops W main_arg10 = W main_arg10 := kept W main_arg10 (by decide)
theorem kept_arg11 (W : Valuation τ sig (Elt F)) : StableHlo.after ops W main_arg11 = W main_arg11 := kept W main_arg11 (by decide)
theorem kept_arg12 (W : Valuation τ sig (Elt F)) : StableHlo.after ops W main_arg12 = W main_arg12 := kept W main_arg12 (by decide)

end Cert.ReferenceIdeal.ValueH

end
-- ==== Proof.RefRunH.lean ====
/- The reference program's run read back in seven stretches. @main's 108 host operations are cut, in order, into
   stretches A–G; each stretch is read back on its own, as a named function of the contents of the buffers it reads
   and does not write; a buffer written in one stretch and read in a later one is not written in between. Composed,
   the result buffer after the whole line is `resOf` of the thirteen arguments' initial contents, and the run
   theorem follows from the library's run of a straight line of host operations. -/
import proofs.«160839_j45148696215965_1_alg».proof.Proof.Gen.ReferenceIdeal
import proofs.«160839_j45148696215965_1_alg».proof.Proof.RefArgs
import Idealize.ShloMosaic.Lib.StableHlo.Run
import Idealize.ShloMosaic.Lib.Tactic

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-! ## The operations in seven stretches -/

/-- Stretch A of @main's operations. -/
abbrev opsA : List (HloOp τ sig (Elt F)) :=
  [ nullary main_v0 (iotaInDim S8192 32 0),
    unary main_arg2 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg2 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S270336x1 ![0] bcast_S270336_S270336x1_0 : (⟨S270336, .i32⟩ : BufTy).Contents (Elt F) → (⟨S270336x1, .i32⟩ : BufTy).Contents (Elt F)),
    ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32) ]

/-- Stretch B of @main's operations. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v12) (TRef.of (T := ⟨S8192, .f32⟩) main_v13) (TRef.of (T := ⟨S8192, .f32⟩) main_call0_v1) (TRef.of (T := ⟨S8192, .f32⟩) main_v14) select ]

/-- Stretch C of @main's operations. -/
abbrev opsC : List (HloOp τ sig (Elt F)) :=
  [ nullary main_c (constantI S_ 32 0#32),
    unary main_c main_v15 (broadcastInDim S270336 ![] bcast_S_S270336 : (⟨S_, .i32⟩ : BufTy).Contents (Elt F) → (⟨S270336, .i32⟩ : BufTy).Contents (Elt F)),
    binary main_v3 main_v15 main_v16 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v17 (broadcastInDim S270336 ![] bcast_S_S270336 : (⟨S_, .i32⟩ : BufTy).Contents (Elt F) → (⟨S270336, .i32⟩ : BufTy).Contents (Elt F)),
    binary main_v3 main_v17 main_v18 (addi : (⟨S270336, .i32⟩ : BufTy).Contents (Elt F) → (⟨S270336, .i32⟩ : BufTy).Contents (Elt F) → (⟨S270336, .i32⟩ : BufTy).Contents (Elt F)),
    ternary main_v16 main_v18 main_v3 main_v19 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v19 main_v20 (broadcastInDim S270336x1 ![0] bcast_S270336_S270336x1_0 : (⟨S270336, .i32⟩ : BufTy).Contents (Elt F) → (⟨S270336x1, .i32⟩ : BufTy).Contents (Elt F)),
    binary main_v14 main_v20 main_v21 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v22 (broadcastInDim S270336 ![] bcast_S_S270336 : (⟨S_, .i32⟩ : BufTy).Contents (Elt F) → (⟨S270336, .i32⟩ : BufTy).Contents (Elt F)),
    binary main_v6 main_v22 main_v23 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v24 (broadcastInDim S270336 ![] bcast_S_S270336 : (⟨S_, .i32⟩ : BufTy).Contents (Elt F) → (⟨S270336, .i32⟩ : BufTy).Contents (Elt F)),
    binary main_v6 main_v24 main_v25 (addi : (⟨S270336, .i32⟩ : BufTy).Contents (Elt F) → (⟨S270336, .i32⟩ : BufTy).Contents (Elt F) → (⟨S270336, .i32⟩ : BufTy).Contents (Elt F)),
    ternary main_v23 main_v25 main_v6 main_v26 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v26 main_v27 (broadcastInDim S270336x1 ![0] bcast_S270336_S270336x1_0 : (⟨S270336, .i32⟩ : BufTy).Contents (Elt F) → (⟨S270336x1, .i32⟩ : BufTy).Contents (Elt F)),
    binary main_v14 main_v27 main_v28 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v21 main_v28 main_v29 (mulf : (⟨S270336, .f32⟩ : BufTy).Contents (Elt F) → (⟨S270336, .f32⟩ : BufTy).Contents (Elt F) → (⟨S270336, .f32⟩ : BufTy).Contents (Elt F)) ]

/-- Stretch D of @main's operations. -/
abbrev opsD : List (HloOp τ sig (Elt F)) :=
  [ binary main_arg0 main_arg3 main_v30 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg4 main_v31 (broadcastInDim S1x512 ![1] bcast_S512_S1x512_1 : (⟨S512, .f32⟩ : BufTy).Contents (Elt F) → (⟨S1x512, .f32⟩ : BufTy).Contents (Elt F)),
    unary main_v31 main_v32 (broadcastInDim S8192x512 ![0, 1] bcast_S1x512_S8192x512_0_1 : (⟨S1x512, .f32⟩ : BufTy).Contents (Elt F) → (⟨S8192x512, .f32⟩ : BufTy).Contents (Elt F)),
    binary main_v30 main_v32 main_v33 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x512, .f32⟩) main_call1_v0) (broadcastInDim S8192x512 ![] bcast_S_S8192x512),
    TRef.binary (TRef.of (T := ⟨S8192x512, .f32⟩) main_v33) (TRef.of (T := ⟨S8192x512, .f32⟩) main_call1_v0) (TRef.of (T := ⟨S8192x512, .f32⟩) main_v34) maximumf,
    binary main_arg0 main_v34 main_v35 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    binary main_v35 main_arg5 main_v36 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    unary main_arg6 main_v37 (broadcastInDim S1x256 ![1] bcast_S256_S1x256_1 : (⟨S256, .f32⟩ : BufTy).Contents (Elt F) → (⟨S1x256, .f32⟩ : BufTy).Contents (Elt F)),
    unary main_v37 main_v38 (broadcastInDim S8192x256 ![0, 1] bcast_S1x256_S8192x256_0_1 : (⟨S1x256, .f32⟩ : BufTy).Contents (Elt F) → (⟨S8192x256, .f32⟩ : BufTy).Contents (Elt F)),
    binary main_v36 main_v38 main_v39 (addf : (⟨S8192x256, .f32⟩ : BufTy).Contents (Elt F) → (⟨S8192x256, .f32⟩ : BufTy).Contents (Elt F) → (⟨S8192x256, .f32⟩ : BufTy).Contents (Elt F)) ]

/-- Stretch E of @main's operations. -/
abbrev opsE : List (HloOp τ sig (Elt F)) :=
  [ binary main_arg0 main_arg7 main_v40 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    nullary main_c_6 (constantI S_ 32 0#32),
    unary main_c_6 main_v41 (broadcastInDim S270336 ![] bcast_S_S270336 : (⟨S_, .i32⟩ : BufTy).Contents (Elt F) → (⟨S270336, .i32⟩ : BufTy).Contents (Elt F)),
    binary main_v3 main_v41 main_v42 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v43 (broadcastInDim S270336 ![] bcast_S_S270336 : (⟨S_, .i32⟩ : BufTy).Contents (Elt F) → (⟨S270336, .i32⟩ : BufTy).Contents (Elt F)),
    binary main_v3 main_v43 main_v44 (addi : (⟨S270336, .i32⟩ : BufTy).Contents (Elt F) → (⟨S270336, .i32⟩ : BufTy).Contents (Elt F) → (⟨S270336, .i32⟩ : BufTy).Contents (Elt F)),
    ternary main_v42 main_v44 main_v3 main_v45 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v45 main_v46 (broadcastInDim S270336x1 ![0] bcast_S270336_S270336x1_0 : (⟨S270336, .i32⟩ : BufTy).Contents (Elt F) → (⟨S270336x1, .i32⟩ : BufTy).Contents (Elt F)),
    binary main_v40 main_v46 main_v47 ((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F)),
    unary main_v29 main_v48 (broadcastInDim S270336x1 ![0] bcast_S270336_S270336x1_0 : (⟨S270336, .f32⟩ : BufTy).Contents (Elt F) → (⟨S270336x1, .f32⟩ : BufTy).Contents (Elt F)),
    unary main_v48 main_v49 (broadcastInDim S270336x512 ![0, 1] bcast_S270336x1_S270336x512_0_1 : (⟨S270336x1, .f32⟩ : BufTy).Contents (Elt F) → (⟨S270336x512, .f32⟩ : BufTy).Contents (Elt F)),
    binary main_v47 main_v49 main_v50 (mulf : (⟨S270336x512, .f32⟩ : BufTy).Contents (Elt F) → (⟨S270336x512, .f32⟩ : BufTy).Contents (Elt F) → (⟨S270336x512, .f32⟩ : BufTy).Contents (Elt F)),
    nullary main_cst_8 (constant S_ .f32 0x00000000#32),
    unary main_cst_8 main_v51 (broadcastInDim S8192x512 ![] bcast_S_S8192x512 : (⟨S_, .f32⟩ : BufTy).Contents (Elt F) → (⟨S8192x512, .f32⟩ : BufTy).Contents (Elt F)),
    unary main_v6 main_v52 (broadcastInDim S270336x1 ![0] bcast_S270336_S270336x1_0 : (⟨S270336, .i32⟩ : BufTy).Contents (Elt F) → (⟨S270336x1, .i32⟩ : BufTy).Contents (Elt F)),
    ternary main_v51 main_v52 main_v50 main_v53 ((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F)),
    unary main_arg8 main_v54 (broadcastInDim S1x512 ![1] bcast_S512_S1x512_1 : (⟨S512, .f32⟩ : BufTy).Contents (Elt F) → (⟨S1x512, .f32⟩ : BufTy).Contents (Elt F)),
    unary main_v54 main_v55 (broadcastInDim S8192x512 ![0, 1] bcast_S1x512_S8192x512_0_1 : (⟨S1x512, .f32⟩ : BufTy).Contents (Elt F) → (⟨S8192x512, .f32⟩ : BufTy).Contents (Elt F)),
    binary main_v53 main_v55 main_v56 (addf : (⟨S8192x512, .f32⟩ : BufTy).Contents (Elt F) → (⟨S8192x512, .f32⟩ : BufTy).Contents (Elt F) → (⟨S8192x512, .f32⟩ : BufTy).Contents (Elt F)) ]

/-- Stretch F of @main's operations. -/
abbrev opsF : List (HloOp τ sig (Elt F)) :=
  [ binary main_v56 main_arg9 main_v57 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    nullary main_c_9 (constantI S_ 32 0#32),
    unary main_c_9 main_v58 (broadcastInDim S270336 ![] bcast_S_S270336 : (⟨S_, .i32⟩ : BufTy).Contents (Elt F) → (⟨S270336, .i32⟩ : BufTy).Contents (Elt F)),
    binary main_v3 main_v58 main_v59 (cmpi .slt : (⟨S270336, .i32⟩ : BufTy).Contents (Elt F) → (⟨S270336, .i32⟩ : BufTy).Contents (Elt F) → (⟨S270336, .i1⟩ : BufTy).Contents (Elt F)),
    nullary main_c_10 (constantI S_ 32 8192#32),
    unary main_c_10 main_v60 (broadcastInDim S270336 ![] bcast_S_S270336 : (⟨S_, .i32⟩ : BufTy).Contents (Elt F) → (⟨S270336, .i32⟩ : BufTy).Contents (Elt F)),
    binary main_v3 main_v60 main_v61 (addi : (⟨S270336, .i32⟩ : BufTy).Contents (Elt F) → (⟨S270336, .i32⟩ : BufTy).Contents (Elt F) → (⟨S270336, .i32⟩ : BufTy).Contents (Elt F)),
    ternary main_v59 main_v61 main_v3 main_v62 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v62 main_v63 (broadcastInDim S270336x1 ![0] bcast_S270336_S270336x1_0 : (⟨S270336, .i32⟩ : BufTy).Contents (Elt F) → (⟨S270336x1, .i32⟩ : BufTy).Contents (Elt F)),
    binary main_v57 main_v63 main_v64 ((fun x i => Host.gather gather_S8192x256_S270336x1_S270336x256_1_0_n_n_0_1_1256 x i) : (⟨S8192x256, .f32⟩ : BufTy).Contents (Elt F) → (⟨S270336x1, .i32⟩ : BufTy).Contents (Elt F) → (⟨S270336x256, .f32⟩ : BufTy).Contents (Elt F)),
    unary main_v29 main_v65 (broadcastInDim S270336x1 ![0] bcast_S270336_S270336x1_0 : (⟨S270336, .f32⟩ : BufTy).Contents (Elt F) → (⟨S270336x1, .f32⟩ : BufTy).Contents (Elt F)),
    unary main_v65 main_v66 (broadcastInDim S270336x256 ![0, 1] bcast_S270336x1_S270336x256_0_1 : (⟨S270336x1, .f32⟩ : BufTy).Contents (Elt F) → (⟨S270336x256, .f32⟩ : BufTy).Contents (Elt F)),
    binary main_v64 main_v66 main_v67 (mulf : (⟨S270336x256, .f32⟩ : BufTy).Contents (Elt F) → (⟨S270336x256, .f32⟩ : BufTy).Contents (Elt F) → (⟨S270336x256, .f32⟩ : BufTy).Contents (Elt F)),
    nullary main_cst_11 (constant S_ .f32 0x00000000#32),
    unary main_cst_11 main_v68 (broadcastInDim S8192x256 ![] bcast_S_S8192x256 : (⟨S_, .f32⟩ : BufTy).Contents (Elt F) → (⟨S8192x256, .f32⟩ : BufTy).Contents (Elt F)),
    unary main_v6 main_v69 (broadcastInDim S270336x1 ![0] bcast_S270336_S270336x1_0 : (⟨S270336, .i32⟩ : BufTy).Contents (Elt F) → (⟨S270336x1, .i32⟩ : BufTy).Contents (Elt F)),
    ternary main_v68 main_v69 main_v67 main_v70 ((fun x i u => Host.scatterAdd scatter_S8192x256_S270336x1_S270336x256_1_0_0_1 x i u) : (⟨S8192x256, .f32⟩ : BufTy).Contents (Elt F) → (⟨S270336x1, .i32⟩ : BufTy).Contents (Elt F) → (⟨S270336x256, .f32⟩ : BufTy).Contents (Elt F) → (⟨S8192x256, .f32⟩ : BufTy).Contents (Elt F)),
    unary main_arg10 main_v71 (broadcastInDim S1x256 ![1] bcast_S256_S1x256_1 : (⟨S256, .f32⟩ : BufTy).Contents (Elt F) → (⟨S1x256, .f32⟩ : BufTy).Contents (Elt F)),
    unary main_v71 main_v72 (broadcastInDim S8192x256 ![0, 1] bcast_S1x256_S8192x256_0_1 : (⟨S1x256, .f32⟩ : BufTy).Contents (Elt F) → (⟨S8192x256, .f32⟩ : BufTy).Contents (Elt F)),
    binary main_v70 main_v72 main_v73 (addf : (⟨S8192x256, .f32⟩ : BufTy).Contents (Elt F) → (⟨S8192x256, .f32⟩ : BufTy).Contents (Elt F) → (⟨S8192x256, .f32⟩ : BufTy).Contents (Elt F)),
    binary main_arg1 main_v73 main_v74 ((fun a b => concatenate S8192x768 1 [⟨S8192x512, a⟩, ⟨S8192x256, b⟩] concatenates_S8192x512_S8192x256_S8192x768_d1) : (⟨S8192x512, .f32⟩ : BufTy).Contents (Elt F) → (⟨S8192x256, .f32⟩ : BufTy).Contents (Elt F) → (⟨S8192x768, .f32⟩ : BufTy).Contents (Elt F)) ]

/-- Stretch G of @main's operations. -/
abbrev opsG : List (HloOp τ sig (Elt F)) :=
  [ binary main_v74 main_arg11 main_v75 ((fun l r => Host.dotGeneral dot_S8192x768_S768x256_S8192x256_1_0_0_1_n_n none l r) : (⟨S8192x768, .f32⟩ : BufTy).Contents (Elt F) → (⟨S768x256, .f32⟩ : BufTy).Contents (Elt F) → (⟨S8192x256, .f32⟩ : BufTy).Contents (Elt F)),
    unary main_arg12 main_v76 (broadcastInDim S1x256 ![1] bcast_S256_S1x256_1 : (⟨S256, .f32⟩ : BufTy).Contents (Elt F) → (⟨S1x256, .f32⟩ : BufTy).Contents (Elt F)),
    unary main_v76 main_v77 (broadcastInDim S8192x256 ![0, 1] bcast_S1x256_S8192x256_0_1 : (⟨S1x256, .f32⟩ : BufTy).Contents (Elt F) → (⟨S8192x256, .f32⟩ : BufTy).Contents (Elt F)),
    binary main_v75 main_v77 main_v78 (addf : (⟨S8192x256, .f32⟩ : BufTy).Contents (Elt F) → (⟨S8192x256, .f32⟩ : BufTy).Contents (Elt F) → (⟨S8192x256, .f32⟩ : BufTy).Contents (Elt F)),
    binary main_v39 main_v78 main_v79 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    unary main_v79 main_v80 ((transpose S512x8192 [1, 0] · transposes_S8192x512_S512x8192_1_0) : (⟨S8192x512, .f32⟩ : BufTy).Contents (Elt F) → (⟨S512x8192, .f32⟩ : BufTy).Contents (Elt F)),
    binary main_v79 main_v80 main_v81 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    unary main_v81 main_v82 (Host.negf : (⟨S8192x8192, .f32⟩ : BufTy).Contents (Elt F) → (⟨S8192x8192, .f32⟩ : BufTy).Contents (Elt F)),
    unary main_v82 main_v83 (Host.exp : (⟨S8192x8192, .f32⟩ : BufTy).Contents (Elt F) → (⟨S8192x8192, .f32⟩ : BufTy).Contents (Elt F)),
    nullary main_cst_12 (constant S_ .f32 0x3F800000#32),
    unary main_cst_12 main_v84 (broadcastInDim S8192x8192 ![] bcast_S_S8192x8192 : (⟨S_, .f32⟩ : BufTy).Contents (Elt F) → (⟨S8192x8192, .f32⟩ : BufTy).Contents (Elt F)),
    binary main_v84 main_v83 main_v85 (addf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0x3F800000#32),
    unary main_cst_13 main_v86 (broadcastInDim S8192x8192 ![] bcast_S_S8192x8192 : (⟨S_, .f32⟩ : BufTy).Contents (Elt F) → (⟨S8192x8192, .f32⟩ : BufTy).Contents (Elt F)),
    binary main_v86 main_v85 main_v87 (Host.divf : (⟨S8192x8192, .f32⟩ : BufTy).Contents (Elt F) → (⟨S8192x8192, .f32⟩ : BufTy).Contents (Elt F) → (⟨S8192x8192, .f32⟩ : BufTy).Contents (Elt F)) ]

set_option maxRecDepth 8192 in
/-- The stretches, in order, are the whole list. -/
theorem ops_cut : (ops : List (HloOp τ sig (Elt F))) = opsA ++ opsB ++ opsC ++ opsD ++ opsE ++ opsF ++ opsG := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- The contents after two lines in a row. -/
theorem after_app : ∀ (a b : List (HloOp τ sig (Elt F))) (V : Valuation τ sig (Elt F)), after (a ++ b) V = after b (after a V)
  | [], _, _ => rfl
  | op :: a, b, V => by rw [List.cons_append, after_cons, after_cons, after_app a b]

/-! ## What each stretch writes, and what it therefore keeps -/

/-- The references the operations of this stretch write. -/
abbrev opsA_W : List (Ref sig .tc) := [main_v0, main_v1, main_v2, main_v3, main_v4, main_v5, main_v6, main_cst, main_v7, main_cst_0, main_v8, main_v9, main_v10, main_cst_1, main_v11, main_v12, main_v13, main_cst_2]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepA (W : Valuation τ sig (Elt F)) (r : Ref sig .tc) (h : r ∉ opsA_W := by decide) :
    after opsA W (Proc.devRef .tc r) = W (Proc.devRef .tc r) :=
  after_of_writes_sub opsA W opsA_writes h

/-- The references the operations of this stretch write. -/
abbrev opsB_W : List (Ref sig .tc) := [main_call0_v0, main_call0_v1, main_v14]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepB (W : Valuation τ sig (Elt F)) (r : Ref sig .tc) (h : r ∉ opsB_W := by decide) :
    after opsB W (Proc.devRef .tc r) = W (Proc.devRef .tc r) :=
  after_of_writes_sub opsB W opsB_writes h

/-- The references the operations of this stretch write. -/
abbrev opsC_W : List (Ref sig .tc) := [main_c, main_v15, main_v16, main_c_3, main_v17, main_v18, main_v19, main_v20, main_v21, main_c_4, main_v22, main_v23, main_c_5, main_v24, main_v25, main_v26, main_v27, main_v28, main_v29]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepC (W : Valuation τ sig (Elt F)) (r : Ref sig .tc) (h : r ∉ opsC_W := by decide) :
    after opsC W (Proc.devRef .tc r) = W (Proc.devRef .tc r) :=
  after_of_writes_sub opsC W opsC_writes h

/-- The references the operations of this stretch write. -/
abbrev opsD_W : List (Ref sig .tc) := [main_v30, main_v31, main_v32, main_v33, main_call1_cst, main_call1_v0, main_v34, main_v35, main_v36, main_v37, main_v38, main_v39]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepD (W : Valuation τ sig (Elt F)) (r : Ref sig .tc) (h : r ∉ opsD_W := by decide) :
    after opsD W (Proc.devRef .tc r) = W (Proc.devRef .tc r) :=
  after_of_writes_sub opsD W opsD_writes h

/-- The references the operations of this stretch write. -/
abbrev opsE_W : List (Ref sig .tc) := [main_v40, main_c_6, main_v41, main_v42, main_c_7, main_v43, main_v44, main_v45, main_v46, main_v47, main_v48, main_v49, main_v50, main_cst_8, main_v51, main_v52, main_v53, main_v54, main_v55, main_v56]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepE (W : Valuation τ sig (Elt F)) (r : Ref sig .tc) (h : r ∉ opsE_W := by decide) :
    after opsE W (Proc.devRef .tc r) = W (Proc.devRef .tc r) :=
  after_of_writes_sub opsE W opsE_writes h

/-- The references the operations of this stretch write. -/
abbrev opsF_W : List (Ref sig .tc) := [main_v57, main_c_9, main_v58, main_v59, main_c_10, main_v60, main_v61, main_v62, main_v63, main_v64, main_v65, main_v66, main_v67, main_cst_11, main_v68, main_v69, main_v70, main_v71, main_v72, main_v73, main_v74]
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepF (W : Valuation τ sig (Elt F)) (r : Ref sig .tc) (h : r ∉ opsF_W := by decide) :
    after opsF W (Proc.devRef .tc r) = W (Proc.devRef .tc r) :=
  after_of_writes_sub opsF W opsF_writes h

/-- The references the operations of this stretch write. -/
abbrev opsG_W : List (Ref sig .tc) := [main_v75, main_v76, main_v77, main_v78, main_v79, main_v80, main_v81, main_v82, main_v83, main_cst_12, main_v84, main_v85, main_cst_13, main_v86, main_v87]
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A reference this stretch does not write keeps its contents. -/
theorem keepG (W : Valuation τ sig (Elt F)) (r : Ref sig .tc) (h : r ∉ opsG_W := by decide) :
    after opsG W (Proc.devRef .tc r) = W (Proc.devRef .tc r) :=
  after_of_writes_sub opsG W opsG_writes h

/-! ## Each stretch read back: named functions of the contents it reads -/

/-- The source indices: row 0 of the edge list followed by `0, …, 8191` (one self loop per node). -/
abbrev src3 (e : (⟨S2x262144, .i32⟩ : BufTy).Contents (Elt F)) : (⟨S270336, .i32⟩ : BufTy).Contents (Elt F) :=
  concatenate S270336 0 [⟨S262144, shapeCast S262144 (extractStridedSlice S1x262144 ![0, 0] e slices_S2x262144_S1x262144_0_0) shapeCasts_S1x262144_S262144⟩, ⟨S8192, (iotaInDim S8192 32 0)⟩] concatenates_S262144_S8192_S270336_d0
/-- The destination indices: row 1 of the edge list followed by `0, …, 8191`. -/
abbrev dst6 (e : (⟨S2x262144, .i32⟩ : BufTy).Contents (Elt F)) : (⟨S270336, .i32⟩ : BufTy).Contents (Elt F) :=
  concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0
/-- Where the in-degree (self loops included: ones accumulated at the destination indices) is positive. -/
abbrev gt12 (e : (⟨S2x262144, .i32⟩ : BufTy).Contents (Elt F)) : (⟨S8192, .i1⟩ : BufTy).Contents (Elt F) :=
  cmpf .ogt ((Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0)) (broadcastInDim S270336 ![] bcast_S_S270336 (constant S_ .f32 0x3F800000#32))) : (⟨S8192, .f32⟩ : BufTy).Contents (Elt F)) (broadcastInDim S8192 ![] bcast_S_S8192 (constant S_ .f32 0x00000000#32))
/-- The inverse square roots of the in-degrees. -/
abbrev rs13 (e : (⟨S2x262144, .i32⟩ : BufTy).Contents (Elt F)) : (⟨S8192, .f32⟩ : BufTy).Contents (Elt F) :=
  Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0)) (broadcastInDim S270336 ![] bcast_S_S270336 (constant S_ .f32 0x3F800000#32)))
/-- The scalar zero. -/
abbrev c2 : (⟨S_, .f32⟩ : BufTy).Contents (Elt F) :=
  constant S_ .f32 0x00000000#32

set_option maxRecDepth 8192 in
set_option maxHeartbeats 4000000 in
theorem readA_v3 (W : Valuation τ sig (Elt F)) :
    after opsA W (Proc.devRef .tc main_v3) = src3 (W (Proc.devRef .tc main_arg2)) := by
  after_results_simp <;> rfl

set_option maxRecDepth 8192 in
set_option maxHeartbeats 4000000 in
theorem readA_v6 (W : Valuation τ sig (Elt F)) :
    after opsA W (Proc.devRef .tc main_v6) = dst6 (W (Proc.devRef .tc main_arg2)) := by
  after_results_simp <;> rfl

set_option maxRecDepth 8192 in
set_option maxHeartbeats 4000000 in
theorem readA_v12 (W : Valuation τ sig (Elt F)) :
    after opsA W (Proc.devRef .tc main_v12) = gt12 (F := F) (W (Proc.devRef .tc main_arg2)) := by
  after_results_simp <;> rfl

set_option maxRecDepth 8192 in
set_option maxHeartbeats 4000000 in
theorem readA_v13 (W : Valuation τ sig (Elt F)) :
    after opsA W (Proc.devRef .tc main_v13) = rs13 (W (Proc.devRef .tc main_arg2)) := by
  after_results_simp <;> rfl

set_option maxRecDepth 8192 in
set_option maxHeartbeats 4000000 in
theorem readA_cst_2 (W : Valuation τ sig (Elt F)) :
    after opsA W (Proc.devRef .tc main_cst_2) = c2 (F := F) := by
  after_results_simp <;> rfl

/-- The selection, by a mask, between a vector and a scalar broadcast to its length. -/
abbrev dinv14 (p12 : (⟨S8192, .i1⟩ : BufTy).Contents (Elt F)) (p13 : (⟨S8192, .f32⟩ : BufTy).Contents (Elt F)) (pc2 : (⟨S_, .f32⟩ : BufTy).Contents (Elt F)) : (⟨S8192, .f32⟩ : BufTy).Contents (Elt F) :=
  select p12 p13 (broadcastInDim S8192 ![] bcast_S_S8192 (id pc2))

set_option maxRecDepth 8192 in
set_option maxHeartbeats 4000000 in
theorem readB_v14 (W : Valuation τ sig (Elt F)) :
    after opsB W (Proc.devRef .tc main_v14) = dinv14 (W (Proc.devRef .tc main_v12)) (W (Proc.devRef .tc main_v13)) (W (Proc.devRef .tc main_cst_2)) := by
  after_results <;> rfl

/-- The edge weights: the product of the entries of `d14` at the source and at the destination of each edge (a
    negative index counted from the end). -/
abbrev norm29 (d14 : (⟨S8192, .f32⟩ : BufTy).Contents (Elt F)) (s3 : (⟨S270336, .i32⟩ : BufTy).Contents (Elt F)) (d6 : (⟨S270336, .i32⟩ : BufTy).Contents (Elt F)) : (⟨S270336, .f32⟩ : BufTy).Contents (Elt F) :=
  mulf (Host.gather gather_S8192_S270336x1_S270336_n_0_n_n_0_1_1 d14 (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (Host.gather gather_S8192_S270336x1_S270336_n_0_n_n_0_1_1 d14 (broadcastInDim S270336x1 ![0] bcast_S270336_S270336x1_0 (select (cmpi .slt d6 (broadcastInDim S270336 ![] bcast_S_S270336 (constantI S_ 32 0#32))) (addi d6 (broadcastInDim S270336 ![] bcast_S_S270336 (constantI S_ 32 8192#32))) d6)))

set_option maxRecDepth 8192 in
set_option maxHeartbeats 4000000 in
theorem readC_v29 (W : Valuation τ sig (Elt F)) :
    after opsC W (Proc.devRef .tc main_v29) = norm29 (W (Proc.devRef .tc main_v14)) (W (Proc.devRef .tc main_v3)) (W (Proc.devRef .tc main_v6)) := by
  after_results_simp <;> rfl

/-- The first branch: the input beside the rectified affine image of itself, through a second affine map. -/
abbrev lin39 (a0 : (⟨S8192x512, .f32⟩ : BufTy).Contents (Elt F)) (a3 : (⟨S512x512, .f32⟩ : BufTy).Contents (Elt F)) (a4 : (⟨S512, .f32⟩ : BufTy).Contents (Elt F)) (a5 : (⟨S1024x256, .f32⟩ : BufTy).Contents (Elt F)) (a6 : (⟨S256, .f32⟩ : BufTy).Contents (Elt F)) : (⟨S8192x256, .f32⟩ : BufTy).Contents (Elt F) :=
  addf (Host.dotGeneral dot_S8192x1024_S1024x256_S8192x256_1_0_0_1_n_n none (concatenate S8192x1024 1 [⟨S8192x512, a0⟩, ⟨S8192x512, maximumf (addf (Host.dotGeneral dot_S8192x512_S512x512_S8192x512_1_0_0_1_n_n none a0 a3) (broadcastInDim S8192x512 ![0, 1] bcast_S1x512_S8192x512_0_1 (broadcastInDim S1x512 ![1] bcast_S512_S1x512_1 a4))) (broadcastInDim S8192x512 ![] bcast_S_S8192x512 (constant S_ .f32 0x00000000#32))⟩] concatenates_S8192x512_S8192x512_S8192x1024_d1) a5) (broadcastInDim S8192x256 ![0, 1] bcast_S1x256_S8192x256_0_1 (broadcastInDim S1x256 ![1] bcast_S256_S1x256_1 a6))

set_option maxRecDepth 8192 in
set_option maxHeartbeats 4000000 in
theorem readD_v39 (W : Valuation τ sig (Elt F)) :
    after opsD W (Proc.devRef .tc main_v39) = lin39 (W (Proc.devRef .tc main_arg0)) (W (Proc.devRef .tc main_arg3)) (W (Proc.devRef .tc main_arg4)) (W (Proc.devRef .tc main_arg5)) (W (Proc.devRef .tc main_arg6)) := by
  after_results_simp <;> rfl

/-- The weighted neighbourhood sum of the rows of the product `a0 · a7` plus a bias: row `d6 e` of the result
    accumulates, over the edges `e`, row `s3 e` of the product (a negative index counted from the end) scaled by the
    edge weight `n29 e`; the bias `b8` is then added to every row. -/
abbrev agg56 (a0 : (⟨S8192x512, .f32⟩ : BufTy).Contents (Elt F)) (a7 : (⟨S512x512, .f32⟩ : BufTy).Contents (Elt F)) (s3 : (⟨S270336, .i32⟩ : BufTy).Contents (Elt F)) (d6 : (⟨S270336, .i32⟩ : BufTy).Contents (Elt F))
    (n29 : (⟨S270336, .f32⟩ : BufTy).Contents (Elt F)) (b8 : (⟨S512, .f32⟩ : BufTy).Contents (Elt F)) : (⟨S8192x512, .f32⟩ : BufTy).Contents (Elt F) :=
  addf (Host.scatterAdd scatter_S8192x512_S270336x1_S270336x512_1_0_0_1 (broadcastInDim S8192x512 ![] bcast_S_S8192x512 (constant S_ .f32 0x00000000#32)) (broadcastInDim S270336x1 ![0] bcast_S270336_S270336x1_0 d6) (mulf (Host.gather gather_S8192x512_S270336x1_S270336x512_1_0_n_n_0_1_1512 (Host.dotGeneral dot_S8192x512_S512x512_S8192x512_1_0_0_1_n_n none a0 a7) (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (broadcastInDim S270336x512 ![0, 1] bcast_S270336x1_S270336x512_0_1 (broadcastInDim S270336x1 ![0] bcast_S270336_S270336x1_0 n29)))) (broadcastInDim S8192x512 ![0, 1] bcast_S1x512_S8192x512_0_1 (broadcastInDim S1x512 ![1] bcast_S512_S1x512_1 b8))

set_option maxRecDepth 8192 in
set_option maxHeartbeats 4000000 in
theorem readE_v56 (W : Valuation τ sig (Elt F)) :
    after opsE W (Proc.devRef .tc main_v56) = agg56 (W (Proc.devRef .tc main_arg0)) (W (Proc.devRef .tc main_arg7)) (W (Proc.devRef .tc main_v3)) (W (Proc.devRef .tc main_v6)) (W (Proc.devRef .tc main_v29)) (W (Proc.devRef .tc main_arg8)) := by
  after_results_simp <;> rfl

/-- The second argument with, to its right, the weighted neighbourhood sum of the rows of the product `v56 · a9`
    plus the bias `b10` (as for the previous layer, at width 256). -/
abbrev x74 (v56 : (⟨S8192x512, .f32⟩ : BufTy).Contents (Elt F)) (a9 : (⟨S512x256, .f32⟩ : BufTy).Contents (Elt F)) (s3 : (⟨S270336, .i32⟩ : BufTy).Contents (Elt F)) (d6 : (⟨S270336, .i32⟩ : BufTy).Contents (Elt F))
    (n29 : (⟨S270336, .f32⟩ : BufTy).Contents (Elt F)) (b10 : (⟨S256, .f32⟩ : BufTy).Contents (Elt F)) (a1 : (⟨S8192x512, .f32⟩ : BufTy).Contents (Elt F)) : (⟨S8192x768, .f32⟩ : BufTy).Contents (Elt F) :=
  concatenate S8192x768 1 [⟨S8192x512, a1⟩, ⟨S8192x256, addf (Host.scatterAdd scatter_S8192x256_S270336x1_S270336x256_1_0_0_1 (broadcastInDim S8192x256 ![] bcast_S_S8192x256 (constant S_ .f32 0x00000000#32)) (broadcastInDim S270336x1 ![0] bcast_S270336_S270336x1_0 d6) (mulf (Host.gather gather_S8192x256_S270336x1_S270336x256_1_0_n_n_0_1_1256 (Host.dotGeneral dot_S8192x512_S512x256_S8192x256_1_0_0_1_n_n none v56 a9) (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (broadcastInDim S270336x256 ![0, 1] bcast_S270336x1_S270336x256_0_1 (broadcastInDim S270336x1 ![0] bcast_S270336_S270336x1_0 n29)))) (broadcastInDim S8192x256 ![0, 1] bcast_S1x256_S8192x256_0_1 (broadcastInDim S1x256 ![1] bcast_S256_S1x256_1 b10))⟩] concatenates_S8192x512_S8192x256_S8192x768_d1

set_option maxRecDepth 8192 in
set_option maxHeartbeats 4000000 in
theorem readF_v74 (W : Valuation τ sig (Elt F)) :
    after opsF W (Proc.devRef .tc main_v74) = x74 (W (Proc.devRef .tc main_v56)) (W (Proc.devRef .tc main_arg9)) (W (Proc.devRef .tc main_v3)) (W (Proc.devRef .tc main_v6)) (W (Proc.devRef .tc main_v29)) (W (Proc.devRef .tc main_arg10)) (W (Proc.devRef .tc main_arg1)) := by
  after_results_simp <;> rfl

/-- The logistic function of the Gram matrix of the two branches side by side, the second through an affine map. -/
abbrev out87 (v39 : (⟨S8192x256, .f32⟩ : BufTy).Contents (Elt F)) (v74 : (⟨S8192x768, .f32⟩ : BufTy).Contents (Elt F)) (a11 : (⟨S768x256, .f32⟩ : BufTy).Contents (Elt F)) (a12 : (⟨S256, .f32⟩ : BufTy).Contents (Elt F)) : (⟨S8192x8192, .f32⟩ : BufTy).Contents (Elt F) :=
  Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x512_S512x8192_S8192x8192_1_0_0_1_n_n none (concatenate S8192x512 1 [⟨S8192x256, v39⟩, ⟨S8192x256, addf (Host.dotGeneral dot_S8192x768_S768x256_S8192x256_1_0_0_1_n_n none v74 a11) (broadcastInDim S8192x256 ![0, 1] bcast_S1x256_S8192x256_0_1 (broadcastInDim S1x256 ![1] bcast_S256_S1x256_1 a12))⟩] concatenates_S8192x256_S8192x256_S8192x512_d1) (transpose S512x8192 [1, 0] (concatenate S8192x512 1 [⟨S8192x256, v39⟩, ⟨S8192x256, addf (Host.dotGeneral dot_S8192x768_S768x256_S8192x256_1_0_0_1_n_n none v74 a11) (broadcastInDim S8192x256 ![0, 1] bcast_S1x256_S8192x256_0_1 (broadcastInDim S1x256 ![1] bcast_S256_S1x256_1 a12))⟩] concatenates_S8192x256_S8192x256_S8192x512_d1) transposes_S8192x512_S512x8192_1_0)))))

set_option maxRecDepth 8192 in
set_option maxHeartbeats 4000000 in
theorem readG_v87 (W : Valuation τ sig (Elt F)) :
    after opsG W (Proc.devRef .tc main_v87) = out87 (W (Proc.devRef .tc main_v39)) (W (Proc.devRef .tc main_v74)) (W (Proc.devRef .tc main_arg11)) (W (Proc.devRef .tc main_arg12)) := by
  after_results_simp <;> rfl

/-! ## The contents after each stretch, from contents `W` at the start -/

def VA (W : Valuation τ sig (Elt F)) : Valuation τ sig (Elt F) := after opsA W
def VB (W : Valuation τ sig (Elt F)) : Valuation τ sig (Elt F) := after opsB (VA W)
def VC (W : Valuation τ sig (Elt F)) : Valuation τ sig (Elt F) := after opsC (VB W)
def VD (W : Valuation τ sig (Elt F)) : Valuation τ sig (Elt F) := after opsD (VC W)
def VE (W : Valuation τ sig (Elt F)) : Valuation τ sig (Elt F) := after opsE (VD W)
def VF (W : Valuation τ sig (Elt F)) : Valuation τ sig (Elt F) := after opsF (VE W)
def VG (W : Valuation τ sig (Elt F)) : Valuation τ sig (Elt F) := after opsG (VF W)

theorem ops_after (W : Valuation τ sig (Elt F)) : after ops W = VG W := by
  rw [ops_cut]; simp only [after_app]; rfl

/-- A reference none of the first stretches writes has its initial contents after them. -/
theorem kA (W : Valuation τ sig (Elt F)) (r : Ref sig .tc) (hA : r ∉ opsA_W := by decide) : VA W (Proc.devRef .tc r) = W (Proc.devRef .tc r) := keepA W r hA
theorem kB (W : Valuation τ sig (Elt F)) (r : Ref sig .tc) (hA : r ∉ opsA_W := by decide) (hB : r ∉ opsB_W := by decide) : VB W (Proc.devRef .tc r) = W (Proc.devRef .tc r) := (keepB (VA W) r hB).trans (kA W r hA)
theorem kC (W : Valuation τ sig (Elt F)) (r : Ref sig .tc) (hA : r ∉ opsA_W := by decide) (hB : r ∉ opsB_W := by decide) (hC : r ∉ opsC_W := by decide) : VC W (Proc.devRef .tc r) = W (Proc.devRef .tc r) := (keepC (VB W) r hC).trans (kB W r hA hB)
theorem kD (W : Valuation τ sig (Elt F)) (r : Ref sig .tc) (hA : r ∉ opsA_W := by decide) (hB : r ∉ opsB_W := by decide) (hC : r ∉ opsC_W := by decide) (hD : r ∉ opsD_W := by decide) : VD W (Proc.devRef .tc r) = W (Proc.devRef .tc r) := (keepD (VC W) r hD).trans (kC W r hA hB hC)
theorem kE (W : Valuation τ sig (Elt F)) (r : Ref sig .tc) (hA : r ∉ opsA_W := by decide) (hB : r ∉ opsB_W := by decide) (hC : r ∉ opsC_W := by decide) (hD : r ∉ opsD_W := by decide) (hE : r ∉ opsE_W := by decide) : VE W (Proc.devRef .tc r) = W (Proc.devRef .tc r) := (keepE (VD W) r hE).trans (kD W r hA hB hC hD)
theorem kF (W : Valuation τ sig (Elt F)) (r : Ref sig .tc) (hA : r ∉ opsA_W := by decide) (hB : r ∉ opsB_W := by decide) (hC : r ∉ opsC_W := by decide) (hD : r ∉ opsD_W := by decide) (hE : r ∉ opsE_W := by decide) (hF : r ∉ opsF_W := by decide) : VF W (Proc.devRef .tc r) = W (Proc.devRef .tc r) := (keepF (VE W) r hF).trans (kE W r hA hB hC hD hE)
theorem kG (W : Valuation τ sig (Elt F)) (r : Ref sig .tc) (hA : r ∉ opsA_W := by decide) (hB : r ∉ opsB_W := by decide) (hC : r ∉ opsC_W := by decide) (hD : r ∉ opsD_W := by decide) (hE : r ∉ opsE_W := by decide) (hF : r ∉ opsF_W := by decide) (hG : r ∉ opsG_W := by decide) : VG W (Proc.devRef .tc r) = W (Proc.devRef .tc r) := (keepG (VF W) r hG).trans (kF W r hA hB hC hD hE hF)

/-! ## The composed functions of the arguments -/

/-- The edge weights, of the edge list. -/
abbrev n29of (e : (⟨S2x262144, .i32⟩ : BufTy).Contents (Elt F)) : (⟨S270336, .f32⟩ : BufTy).Contents (Elt F) :=
  norm29 (dinv14 (gt12 (F := F) e) (rs13 e) (c2 (F := F))) (src3 e) (dst6 e)
/-- The first aggregation layer, of the arguments. -/
abbrev agg56of (a0 : (⟨S8192x512, .f32⟩ : BufTy).Contents (Elt F)) (a7 : (⟨S512x512, .f32⟩ : BufTy).Contents (Elt F)) (e : (⟨S2x262144, .i32⟩ : BufTy).Contents (Elt F)) (a8 : (⟨S512, .f32⟩ : BufTy).Contents (Elt F)) : (⟨S8192x512, .f32⟩ : BufTy).Contents (Elt F) :=
  agg56 a0 a7 (src3 e) (dst6 e) (n29of e) a8
/-- The second branch's input, of the arguments. -/
abbrev x74of (a0 : (⟨S8192x512, .f32⟩ : BufTy).Contents (Elt F)) (a7 : (⟨S512x512, .f32⟩ : BufTy).Contents (Elt F)) (e : (⟨S2x262144, .i32⟩ : BufTy).Contents (Elt F)) (a8 : (⟨S512, .f32⟩ : BufTy).Contents (Elt F)) (a9 : (⟨S512x256, .f32⟩ : BufTy).Contents (Elt F)) (a10 : (⟨S256, .f32⟩ : BufTy).Contents (Elt F)) (a1 : (⟨S8192x512, .f32⟩ : BufTy).Contents (Elt F)) : (⟨S8192x768, .f32⟩ : BufTy).Contents (Elt F) :=
  x74 (agg56of a0 a7 e a8) a9 (src3 e) (dst6 e) (n29of e) a10 a1
/-- @main's result, of its thirteen arguments. -/
abbrev resOf (a0 : (⟨S8192x512, .f32⟩ : BufTy).Contents (Elt F)) (a1 : (⟨S8192x512, .f32⟩ : BufTy).Contents (Elt F)) (a2 : (⟨S2x262144, .i32⟩ : BufTy).Contents (Elt F)) (a3 : (⟨S512x512, .f32⟩ : BufTy).Contents (Elt F)) (a4 : (⟨S512, .f32⟩ : BufTy).Contents (Elt F)) (a5 : (⟨S1024x256, .f32⟩ : BufTy).Contents (Elt F)) (a6 : (⟨S256, .f32⟩ : BufTy).Contents (Elt F)) (a7 : (⟨S512x512, .f32⟩ : BufTy).Contents (Elt F)) (a8 : (⟨S512, .f32⟩ : BufTy).Contents (Elt F)) (a9 : (⟨S512x256, .f32⟩ : BufTy).Contents (Elt F)) (a10 : (⟨S256, .f32⟩ : BufTy).Contents (Elt F)) (a11 : (⟨S768x256, .f32⟩ : BufTy).Contents (Elt F)) (a12 : (⟨S256, .f32⟩ : BufTy).Contents (Elt F)) : (⟨S8192x8192, .f32⟩ : BufTy).Contents (Elt F) :=
  out87 (lin39 a0 a3 a4 a5 a6) (x74of a0 a7 a2 a8 a9 a10 a1) a11 a12

/-! ## The stretches composed -/

section Compose
variable (W : Valuation τ sig (Elt F))

theorem A_v3 : VA W (Proc.devRef .tc main_v3) = src3 (W (Proc.devRef .tc main_arg2)) := readA_v3 W
theorem A_v6 : VA W (Proc.devRef .tc main_v6) = dst6 (W (Proc.devRef .tc main_arg2)) := readA_v6 W
theorem A_v12 : VA W (Proc.devRef .tc main_v12) = gt12 (F := F) (W (Proc.devRef .tc main_arg2)) := readA_v12 W
theorem A_v13 : VA W (Proc.devRef .tc main_v13) = rs13 (W (Proc.devRef .tc main_arg2)) := readA_v13 W
theorem A_cst_2 : VA W (Proc.devRef .tc main_cst_2) = c2 (F := F) := readA_cst_2 W
theorem B_v14 : VB W (Proc.devRef .tc main_v14) = dinv14 (gt12 (F := F) (W (Proc.devRef .tc main_arg2))) (rs13 (W (Proc.devRef .tc main_arg2))) (c2 (F := F)) :=
  (readB_v14 (VA W)).trans (by rw [A_v12 W, A_v13 W, A_cst_2 W])
theorem B_v3 : VB W (Proc.devRef .tc main_v3) = src3 (W (Proc.devRef .tc main_arg2)) := (keepB (VA W) main_v3).trans (A_v3 W)
theorem B_v6 : VB W (Proc.devRef .tc main_v6) = dst6 (W (Proc.devRef .tc main_arg2)) := (keepB (VA W) main_v6).trans (A_v6 W)
theorem C_v29 : VC W (Proc.devRef .tc main_v29) = n29of (W (Proc.devRef .tc main_arg2)) :=
  (readC_v29 (VB W)).trans (by rw [B_v14 W, B_v3 W, B_v6 W])
theorem C_v3 : VC W (Proc.devRef .tc main_v3) = src3 (W (Proc.devRef .tc main_arg2)) := (keepC (VB W) main_v3).trans (B_v3 W)
theorem C_v6 : VC W (Proc.devRef .tc main_v6) = dst6 (W (Proc.devRef .tc main_arg2)) := (keepC (VB W) main_v6).trans (B_v6 W)
theorem D_v39 : VD W (Proc.devRef .tc main_v39) = lin39 (W (Proc.devRef .tc main_arg0)) (W (Proc.devRef .tc main_arg3)) (W (Proc.devRef .tc main_arg4)) (W (Proc.devRef .tc main_arg5)) (W (Proc.devRef .tc main_arg6)) :=
  (readD_v39 (VC W)).trans (by rw [kC W main_arg0, kC W main_arg3, kC W main_arg4, kC W main_arg5, kC W main_arg6])
theorem D_v3 : VD W (Proc.devRef .tc main_v3) = src3 (W (Proc.devRef .tc main_arg2)) := (keepD (VC W) main_v3).trans (C_v3 W)
theorem D_v6 : VD W (Proc.devRef .tc main_v6) = dst6 (W (Proc.devRef .tc main_arg2)) := (keepD (VC W) main_v6).trans (C_v6 W)
theorem D_v29 : VD W (Proc.devRef .tc main_v29) = n29of (W (Proc.devRef .tc main_arg2)) := (keepD (VC W) main_v29).trans (C_v29 W)
theorem E_v56 : VE W (Proc.devRef .tc main_v56) = agg56of (W (Proc.devRef .tc main_arg0)) (W (Proc.devRef .tc main_arg7)) (W (Proc.devRef .tc main_arg2)) (W (Proc.devRef .tc main_arg8)) :=
  (readE_v56 (VD W)).trans (by rw [kD W main_arg0, kD W main_arg7, D_v3 W, D_v6 W, D_v29 W, kD W main_arg8])
theorem E_v39 : VE W (Proc.devRef .tc main_v39) = lin39 (W (Proc.devRef .tc main_arg0)) (W (Proc.devRef .tc main_arg3)) (W (Proc.devRef .tc main_arg4)) (W (Proc.devRef .tc main_arg5)) (W (Proc.devRef .tc main_arg6)) := (keepE (VD W) main_v39).trans (D_v39 W)
theorem E_v3 : VE W (Proc.devRef .tc main_v3) = src3 (W (Proc.devRef .tc main_arg2)) := (keepE (VD W) main_v3).trans (D_v3 W)
theorem E_v6 : VE W (Proc.devRef .tc main_v6) = dst6 (W (Proc.devRef .tc main_arg2)) := (keepE (VD W) main_v6).trans (D_v6 W)
theorem E_v29 : VE W (Proc.devRef .tc main_v29) = n29of (W (Proc.devRef .tc main_arg2)) := (keepE (VD W) main_v29).trans (D_v29 W)
theorem F_v74 : VF W (Proc.devRef .tc main_v74) = x74of (W (Proc.devRef .tc main_arg0)) (W (Proc.devRef .tc main_arg7)) (W (Proc.devRef .tc main_arg2)) (W (Proc.devRef .tc main_arg8)) (W (Proc.devRef .tc main_arg9)) (W (Proc.devRef .tc main_arg10)) (W (Proc.devRef .tc main_arg1)) :=
  (readF_v74 (VE W)).trans (by rw [E_v56 W, kE W main_arg9, E_v3 W, E_v6 W, E_v29 W, kE W main_arg10, kE W main_arg1])
theorem F_v39 : VF W (Proc.devRef .tc main_v39) = lin39 (W (Proc.devRef .tc main_arg0)) (W (Proc.devRef .tc main_arg3)) (W (Proc.devRef .tc main_arg4)) (W (Proc.devRef .tc main_arg5)) (W (Proc.devRef .tc main_arg6)) := (keepF (VE W) main_v39).trans (E_v39 W)
theorem G_v87 : VG W (Proc.devRef .tc main_v87) = resOf (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  (readG_v87 (VF W)).trans (by rw [F_v39 W, F_v74 W, kF W main_arg11, kF W main_arg12])

/-- The result buffer after the whole of @main, as the composed function of the arguments' initial contents. -/
theorem read_v87 : after ops W (Proc.devRef .tc main_v87) = resOf (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [ops_after]; exact G_v87 W

end Compose

/-! ## The run -/

/-- @main's result as the composed function of the arguments' launch contents. -/
abbrev resH (m : (ℓ : Loc nD τ sig) → Buf (Elt F) ℓ) (c : Dev nD) : Buf (Elt F) ((c.tc : Thread nD τ).loc main_v87) :=
  resOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- On every device, for any float values, from any memory with zero counters: every weakly fair execution of
    @main terminates with the result at the composed function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = resH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v87).trans (read_v87 (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c))⟩)
    (run_seq scopedRefs_eq scopedSems_eq defs main (fun _ => ops) main_eq (fun _ => ops_sub) m ρ)

end Cert.ReferenceIdeal.ValueH

end
-- ==== Proof.RefFrame.lean ====
/-
  The reference program is straight-line host code. Its run, read back stretch by stretch, ends with every argument
  array as launched; the frame claim forgets the result and keeps that.
-/
import proofs.«160839_j45148696215965_1_alg».proof.Defs
import proofs.«160839_j45148696215965_1_alg».proof.Proof.Gen.ReferenceIdeal
import proofs.«160839_j45148696215965_1_alg».proof.Proof.Gen.Pre_finite_inputs
import proofs.«160839_j45148696215965_1_alg».proof.Proof.RefRunH

noncomputable section

open Idealize.ShloMosaic Idealize.ShloMosaic.TcCoe Idealize.SL.Sem

namespace Cert.Proof.RefFrame

/-- Every weakly fair execution of the reference ends, faults nowhere and leaves its thirteen arguments unchanged:
    the run's post without its first component (the result). -/
theorem frame_ri : Cert.frame_ReferenceIdeal := fun m ρ _ =>
  (θ_run Cert.ReferenceIdeal.defs _ _).mono (fun _ h c => (h c).2) (Cert.ReferenceIdeal.ValueH.run (F := Ideal) m ρ)

end Cert.Proof.RefFrame

end
-- ==== Proof.HostRead0.lean ====
/- What the buffers written by the first stretch of host operations hold afterwards, as named functions of the
   edge list (the one buffer those operations read and do not write). -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- The source indices: row 0 of the edge list followed by `0, …, 8191` (one self loop per node). -/
abbrev src3 (e : (⟨S2x262144, .i32⟩ : BufTy).Contents (Elt F)) : (⟨S270336, .i32⟩ : BufTy).Contents (Elt F) :=
  concatenate S270336 0 [⟨S262144, shapeCast S262144 (extractStridedSlice S1x262144 ![0, 0] e slices_S2x262144_S1x262144_0_0) shapeCasts_S1x262144_S262144⟩, ⟨S8192, (iotaInDim S8192 32 0)⟩] concatenates_S262144_S8192_S270336_d0

/-- The destination indices: row 1 of the edge list followed by `0, …, 8191`. -/
abbrev dst6 (e : (⟨S2x262144, .i32⟩ : BufTy).Contents (Elt F)) : (⟨S270336, .i32⟩ : BufTy).Contents (Elt F) :=
  concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0

/-- The in-degrees (self loops included): ones accumulated at the destination indices, from zero. -/
abbrev deg10 (e : (⟨S2x262144, .i32⟩ : BufTy).Contents (Elt F)) : (⟨S8192, .f32⟩ : BufTy).Contents (Elt F) :=
  Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0)) (broadcastInDim S270336 ![] bcast_S_S270336 (constant S_ .f32 0x3F800000#32))

/-- Where the degree is positive. -/
abbrev gt12 (e : (⟨S2x262144, .i32⟩ : BufTy).Contents (Elt F)) : (⟨S8192, .i1⟩ : BufTy).Contents (Elt F) :=
  cmpf .ogt ((Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0)) (broadcastInDim S270336 ![] bcast_S_S270336 (constant S_ .f32 0x3F800000#32))) : (⟨S8192, .f32⟩ : BufTy).Contents (Elt F)) (broadcastInDim S8192 ![] bcast_S_S8192 (constant S_ .f32 0x00000000#32))

/-- The inverse square roots of the degrees. -/
abbrev rs13 (e : (⟨S2x262144, .i32⟩ : BufTy).Contents (Elt F)) : (⟨S8192, .f32⟩ : BufTy).Contents (Elt F) :=
  Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, shapeCast S262144 (extractStridedSlice S1x262144 ![1, 0] e slices_S2x262144_S1x262144_1_0) shapeCasts_S1x262144_S262144⟩, ⟨S8192, (iotaInDim S8192 32 0)⟩] concatenates_S262144_S8192_S270336_d0)) (broadcastInDim S270336 ![] bcast_S_S270336 (constant S_ .f32 0x3F800000#32)))

/-- The scalar zero. -/
abbrev c2 : (⟨S_, .f32⟩ : BufTy).Contents (Elt F) :=
  constant S_ .f32 0x00000000#32

set_option maxRecDepth 8192 in
set_option maxHeartbeats 4000000 in
theorem read_v3 (W : Valuation τ sig (Elt F)) :
    StableHlo.after hostOps0 W (Proc.devRef .tc main_v3) = src3 (W (Proc.devRef .tc main_arg2)) := by
  after_results_simp <;> rfl

set_option maxRecDepth 8192 in
set_option maxHeartbeats 4000000 in
theorem read_v6 (W : Valuation τ sig (Elt F)) :
    StableHlo.after hostOps0 W (Proc.devRef .tc main_v6) = dst6 (W (Proc.devRef .tc main_arg2)) := by
  after_results_simp <;> rfl

set_option maxRecDepth 8192 in
set_option maxHeartbeats 4000000 in
theorem read_v10 (W : Valuation τ sig (Elt F)) :
    StableHlo.after hostOps0 W (Proc.devRef .tc main_v10) = deg10 (W (Proc.devRef .tc main_arg2)) := by
  after_results_simp <;> rfl

set_option maxRecDepth 8192 in
set_option maxHeartbeats 4000000 in
theorem read_v12 (W : Valuation τ sig (Elt F)) :
    StableHlo.after hostOps0 W (Proc.devRef .tc main_v12) = gt12 (W (Proc.devRef .tc main_arg2)) := by
  after_results_simp <;> rfl

set_option maxRecDepth 8192 in
set_option maxHeartbeats 4000000 in
theorem read_v13 (W : Valuation τ sig (Elt F)) :
    StableHlo.after hostOps0 W (Proc.devRef .tc main_v13) = rs13 (W (Proc.devRef .tc main_arg2)) := by
  after_results_simp <;> rfl

set_option maxRecDepth 8192 in
set_option maxHeartbeats 4000000 in
theorem read_cst_2 (W : Valuation τ sig (Elt F)) :
    StableHlo.after hostOps0 W (Proc.devRef .tc main_cst_2) = c2 (F := F) := by
  after_results_simp <;> rfl

end Cert.KernelIdeal.HostRead

end
-- ==== Proof.HostRead0_1.lean ====
/- What the result of the inlined selection holds afterwards: where the mask holds, the second operand's entry,
   elsewhere the scalar broadcast along the vector. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- The selection, by a mask, between a vector and a scalar broadcast to its length. -/
abbrev dinv14 (p12 : (⟨S8192, .i1⟩ : BufTy).Contents (Elt F)) (p13 : (⟨S8192, .f32⟩ : BufTy).Contents (Elt F)) (pc2 : (⟨S_, .f32⟩ : BufTy).Contents (Elt F)) : (⟨S8192, .f32⟩ : BufTy).Contents (Elt F) :=
  select p12 p13 (broadcastInDim S8192 ![] bcast_S_S8192 (id pc2))

theorem read_v14 (W : Valuation τ sig (Elt F)) :
    StableHlo.after hostOps0_1 W (Proc.devRef .tc main_v14)
      = dinv14 (W (Proc.devRef .tc main_v12)) (W (Proc.devRef .tc main_v13)) (W (Proc.devRef .tc main_cst_2)) := by
  after_results <;> rfl

end Cert.KernelIdeal.HostRead

end
-- ==== Proof.HostRead0_2.lean ====
/- What the buffers written by the host operations before the first kernel call hold afterwards, as named
   functions of the contents of the buffers those operations only read. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- The edge weights: the product of the entries of `d14` at the source and at the destination of each edge (a
    negative index counted from the end). -/
abbrev norm29 (d14 : (⟨S8192, .f32⟩ : BufTy).Contents (Elt F)) (s3 : (⟨S270336, .i32⟩ : BufTy).Contents (Elt F)) (d6 : (⟨S270336, .i32⟩ : BufTy).Contents (Elt F)) : (⟨S270336, .f32⟩ : BufTy).Contents (Elt F) :=
  mulf (Host.gather gather_S8192_S270336x1_S270336_n_0_n_n_0_1_1 d14 (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (Host.gather gather_S8192_S270336x1_S270336_n_0_n_n_0_1_1 d14 (broadcastInDim S270336x1 ![0] bcast_S270336_S270336x1_0 (select (cmpi .slt d6 (broadcastInDim S270336 ![] bcast_S_S270336 (constantI S_ 32 0#32))) (addi d6 (broadcastInDim S270336 ![] bcast_S_S270336 (constantI S_ 32 8192#32))) d6)))

/-- A vector of length 512 viewed as a single row. -/
abbrev row30 (b : (⟨S512, .f32⟩ : BufTy).Contents (Elt F)) : (⟨S1x512, .f32⟩ : BufTy).Contents (Elt F) :=
  shapeCast S1x512 b shapeCasts_S512_S1x512

set_option maxRecDepth 8192 in
set_option maxHeartbeats 4000000 in
theorem read_v29 (W : Valuation τ sig (Elt F)) :
    StableHlo.after hostOps0_2 W (Proc.devRef .tc main_v29)
      = norm29 (W (Proc.devRef .tc main_v14)) (W (Proc.devRef .tc main_v3)) (W (Proc.devRef .tc main_v6)) := by
  after_results_simp <;> rfl

set_option maxRecDepth 8192 in
set_option maxHeartbeats 4000000 in
theorem read_v30 (W : Valuation τ sig (Elt F)) :
    StableHlo.after hostOps0_2 W (Proc.devRef .tc main_v30) = row30 (W (Proc.devRef .tc main_arg4)) := by
  after_results_simp <;> rfl

end Cert.KernelIdeal.HostRead

end
-- ==== Proof.HostRead1.lean ====
/- What the buffers written by the host operations between the second and third kernel calls hold afterwards,
   as named functions of the contents of the buffers those operations only read. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- Two arrays of 512 columns side by side. -/
abbrev cat32 (a : (⟨S8192x512, .f32⟩ : BufTy).Contents (Elt F)) (b : (⟨S8192x512, .f32⟩ : BufTy).Contents (Elt F)) : (⟨S8192x1024, .f32⟩ : BufTy).Contents (Elt F) :=
  concatenate S8192x1024 1 [⟨S8192x512, a⟩, ⟨S8192x512, b⟩] concatenates_S8192x512_S8192x512_S8192x1024_d1

/-- A vector of length 256 viewed as a single row. -/
abbrev row33 (b : (⟨S256, .f32⟩ : BufTy).Contents (Elt F)) : (⟨S1x256, .f32⟩ : BufTy).Contents (Elt F) :=
  shapeCast S1x256 b shapeCasts_S256_S1x256

/-- The concatenation, along the columns, of the first argument with the first kernel call's result. -/
theorem read_v32 (W : Valuation τ sig (Elt F)) :
    StableHlo.after hostOps1 W (Proc.devRef .tc main_v32)
      = cat32 (W (Proc.devRef .tc main_arg0)) (W (Proc.devRef .tc main_v31)) := by
  after_results_simp <;> rfl

/-- The bias vector of length 256 viewed as a single row. -/
theorem read_v33 (W : Valuation τ sig (Elt F)) :
    StableHlo.after hostOps1 W (Proc.devRef .tc main_v33) = row33 (W (Proc.devRef .tc main_arg6)) := by
  after_results_simp <;> rfl

end Cert.KernelIdeal.HostRead

end
-- ==== Proof.HostRead2.lean ====
/- What the buffer written by the host operations before the third kernel call holds afterwards. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- A row of 512 zeros. -/
abbrev zrow35 : (⟨S1x512, .f32⟩ : BufTy).Contents (Elt F) :=
  broadcastInDim S1x512 ![] bcast_S_S1x512 (constant S_ .f32 0x00000000#32)

theorem read_v35 (W : Valuation τ sig (Elt F)) :
    StableHlo.after hostOps2 W (Proc.devRef .tc main_v35) = zrow35 (F := F) := by
  after_results_simp <;> rfl

end Cert.KernelIdeal.HostRead

end
-- ==== Proof.HostRead3.lean ====
/- What the buffers written by the host operations before the fourth kernel call hold afterwards, as named
   functions of the contents of the buffers those operations only read. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- The weighted neighbourhood sum of the rows of `h` plus a bias: row `d6 e` of the result accumulates, over the
    edges `e`, row `s3 e` of `h` (a negative index counted from the end) scaled by the edge weight `n29 e`; the bias
    `b8` is then added to every row. -/
abbrev agg52 (h : (⟨S8192x512, .f32⟩ : BufTy).Contents (Elt F)) (s3 : (⟨S270336, .i32⟩ : BufTy).Contents (Elt F)) (d6 : (⟨S270336, .i32⟩ : BufTy).Contents (Elt F))
    (n29 : (⟨S270336, .f32⟩ : BufTy).Contents (Elt F)) (b8 : (⟨S512, .f32⟩ : BufTy).Contents (Elt F)) : (⟨S8192x512, .f32⟩ : BufTy).Contents (Elt F) :=
  addf (Host.scatterAdd scatter_S8192x512_S270336x1_S270336x512_1_0_0_1 (broadcastInDim S8192x512 ![] bcast_S_S8192x512 (constant S_ .f32 0x00000000#32)) (broadcastInDim S270336x1 ![0] bcast_S270336_S270336x1_0 d6) (mulf (Host.gather gather_S8192x512_S270336x1_S270336x512_1_0_n_n_0_1_1512 h (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (broadcastInDim S270336x512 ![0, 1] bcast_S270336x1_S270336x512_0_1 (broadcastInDim S270336x1 ![0] bcast_S270336_S270336x1_0 n29)))) (broadcastInDim S8192x512 ![0, 1] bcast_S1x512_S8192x512_0_1 (broadcastInDim S1x512 ![1] bcast_S512_S1x512_1 b8))

/-- A row of 256 zeros. -/
abbrev zrow53 : (⟨S1x256, .f32⟩ : BufTy).Contents (Elt F) :=
  broadcastInDim S1x256 ![] bcast_S_S1x256 (constant S_ .f32 0x00000000#32)

set_option maxRecDepth 8192 in
set_option maxHeartbeats 4000000 in
theorem read_v52 (W : Valuation τ sig (Elt F)) :
    StableHlo.after hostOps3 W (Proc.devRef .tc main_v52)
      = agg52 (W (Proc.devRef .tc main_v36)) (W (Proc.devRef .tc main_v3)) (W (Proc.devRef .tc main_v6)) (W (Proc.devRef .tc main_v29)) (W (Proc.devRef .tc main_arg8)) := by
  after_results_simp <;> rfl

set_option maxRecDepth 8192 in
set_option maxHeartbeats 4000000 in
theorem read_v53 (W : Valuation τ sig (Elt F)) :
    StableHlo.after hostOps3 W (Proc.devRef .tc main_v53) = zrow53 (F := F) := by
  after_results_simp <;> rfl

end Cert.KernelIdeal.HostRead

end
-- ==== Proof.HostRead4.lean ====
/- What the buffers written by the host operations before the fifth kernel call hold afterwards, as named
   functions of the contents of the buffers those operations only read. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- The second argument with, to its right, the weighted neighbourhood sum of the rows of `h` plus a bias: row
    `d6 e` of the sum accumulates, over the edges `e`, row `s3 e` of `h` (a negative index counted from the end)
    scaled by the edge weight `n29 e`; the bias `b10` is then added to every row. -/
abbrev x71 (a1 : (⟨S8192x512, .f32⟩ : BufTy).Contents (Elt F)) (h : (⟨S8192x256, .f32⟩ : BufTy).Contents (Elt F)) (s3 : (⟨S270336, .i32⟩ : BufTy).Contents (Elt F)) (d6 : (⟨S270336, .i32⟩ : BufTy).Contents (Elt F))
    (n29 : (⟨S270336, .f32⟩ : BufTy).Contents (Elt F)) (b10 : (⟨S256, .f32⟩ : BufTy).Contents (Elt F)) : (⟨S8192x768, .f32⟩ : BufTy).Contents (Elt F) :=
  concatenate S8192x768 1 [⟨S8192x512, a1⟩, ⟨S8192x256, addf (Host.scatterAdd scatter_S8192x256_S270336x1_S270336x256_1_0_0_1 (broadcastInDim S8192x256 ![] bcast_S_S8192x256 (constant S_ .f32 0x00000000#32)) (broadcastInDim S270336x1 ![0] bcast_S270336_S270336x1_0 d6) (mulf (Host.gather gather_S8192x256_S270336x1_S270336x256_1_0_n_n_0_1_1256 h (broadcastInDim S270336x1 ![0] bcast_S270336_S270336x1_0 (select (cmpi .slt s3 (broadcastInDim S270336 ![] bcast_S_S270336 (constantI S_ 32 0#32))) (addi s3 (broadcastInDim S270336 ![] bcast_S_S270336 (constantI S_ 32 8192#32))) s3))) (broadcastInDim S270336x256 ![0, 1] bcast_S270336x1_S270336x256_0_1 (broadcastInDim S270336x1 ![0] bcast_S270336_S270336x1_0 n29)))) (broadcastInDim S8192x256 ![0, 1] bcast_S1x256_S8192x256_0_1 (broadcastInDim S1x256 ![1] bcast_S256_S1x256_1 b10))⟩] concatenates_S8192x512_S8192x256_S8192x768_d1

/-- A vector of length 256 viewed as a single row. -/
abbrev row72 (b : (⟨S256, .f32⟩ : BufTy).Contents (Elt F)) : (⟨S1x256, .f32⟩ : BufTy).Contents (Elt F) :=
  shapeCast S1x256 b shapeCasts_S256_S1x256

set_option maxRecDepth 8192 in
set_option maxHeartbeats 4000000 in
theorem read_v71 (W : Valuation τ sig (Elt F)) :
    StableHlo.after hostOps4 W (Proc.devRef .tc main_v71)
      = x71 (W (Proc.devRef .tc main_arg1)) (W (Proc.devRef .tc main_v54)) (W (Proc.devRef .tc main_v3)) (W (Proc.devRef .tc main_v6)) (W (Proc.devRef .tc main_v29)) (W (Proc.devRef .tc main_arg10)) := by
  after_results_simp <;> rfl

set_option maxRecDepth 8192 in
set_option maxHeartbeats 4000000 in
theorem read_v72 (W : Valuation τ sig (Elt F)) :
    StableHlo.after hostOps4 W (Proc.devRef .tc main_v72) = row72 (W (Proc.devRef .tc main_arg12)) := by
  after_results_simp <;> rfl

end Cert.KernelIdeal.HostRead

end
-- ==== Proof.HostRead5.lean ====
/- What the buffer written by the host operation before the last kernel call holds afterwards. -/
import proofs.«160839_j45148696215965_1_alg».proof.Proof.Gen.KernelIdeal.Launch
import Idealize.ShloMosaic.Lib.StableHlo.Run
import Idealize.ShloMosaic.Lib.Tactic

noncomputable section

namespace Cert.KernelIdeal.HostRead

open Cert.KernelIdeal Cert.KernelIdeal.Gen Idealize.ShloMosaic Idealize.ShloMosaic.TcCoe Idealize.ShloMosaic.StableHlo Idealize.SL.Sem

variable {F : FTy → Type} [FloatOps F]

/-- Two arrays of 256 columns side by side. -/
abbrev cat74 (a : (⟨S8192x256, .f32⟩ : BufTy).Contents (Elt F)) (b : (⟨S8192x256, .f32⟩ : BufTy).Contents (Elt F)) : (⟨S8192x512, .f32⟩ : BufTy).Contents (Elt F) :=
  concatenate S8192x512 1 [⟨S8192x256, a⟩, ⟨S8192x256, b⟩] concatenates_S8192x256_S8192x256_S8192x512_d1

/-- The concatenation, along the columns, of the two 256-wide intermediate results. -/
theorem read_v74 (W : Valuation τ sig (Elt F)) :
    StableHlo.after hostOps5 W (Proc.devRef .tc main_v74)
      = cat74 (W (Proc.devRef .tc main_v34)) (W (Proc.devRef .tc main_v73)) := by
  after_results_simp <;> rfl

end Cert.KernelIdeal.HostRead

end
-- ==== Proof.KILeaves.lean ====
/-
  Where each value a Pallas call or a stretch of host operations reads was written: an argument array holds its launch
  contents at every boundary (no host operation writes it and it is no call's result); the two index vectors, the
  per-edge normalisation and each call's result keep, up to the boundary where they are read, what the stretch or the
  call that wrote them left; and each buffer a stretch writes holds, after the stretch, the stretch's operations
  composed, applied to what the stretch found.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import proofs.«160839_j45148696215965_1_alg».proof.Proof.KIRun
import proofs.«160839_j45148696215965_1_alg».proof.Proof.HostRead0
import proofs.«160839_j45148696215965_1_alg».proof.Proof.HostRead0_1
import proofs.«160839_j45148696215965_1_alg».proof.Proof.HostRead0_2
import proofs.«160839_j45148696215965_1_alg».proof.Proof.HostRead1
import proofs.«160839_j45148696215965_1_alg».proof.Proof.HostRead2
import proofs.«160839_j45148696215965_1_alg».proof.Proof.HostRead3
import proofs.«160839_j45148696215965_1_alg».proof.Proof.HostRead4
import proofs.«160839_j45148696215965_1_alg».proof.Proof.HostRead5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.HostRead

variable (m : (ℓ : Loc nD τ sig) → Buf (Elt F) ℓ)

/-! ## The arguments, at the boundaries where they are read -/

theorem W3_arg0 (c : Dev nD) : W3 m c main_arg0 = m ((c : Thread nD τ).loc main_arg0) :=
  ((StableHlo.after_of_writes_sub hostOps0_2 _ hostOps0_2_writes (by decide : (main_arg0 : Ref sig .tc) ∉ hostOps0_2_W)).trans ((StableHlo.after_of_writes_sub hostOps0_1 _ hostOps0_1_writes (by decide : (main_arg0 : Ref sig .tc) ∉ hostOps0_1_W)).trans (StableHlo.after_of_writes_sub hostOps0 _ hostOps0_writes (by decide : (main_arg0 : Ref sig .tc) ∉ hostOps0_W))))
theorem W3_arg3 (c : Dev nD) : W3 m c main_arg3 = m ((c : Thread nD τ).loc main_arg3) :=
  ((StableHlo.after_of_writes_sub hostOps0_2 _ hostOps0_2_writes (by decide : (main_arg3 : Ref sig .tc) ∉ hostOps0_2_W)).trans ((StableHlo.after_of_writes_sub hostOps0_1 _ hostOps0_1_writes (by decide : (main_arg3 : Ref sig .tc) ∉ hostOps0_1_W)).trans (StableHlo.after_of_writes_sub hostOps0 _ hostOps0_writes (by decide : (main_arg3 : Ref sig .tc) ∉ hostOps0_W))))
theorem W2_arg4 (c : Dev nD) : W2 m c main_arg4 = m ((c : Thread nD τ).loc main_arg4) :=
  ((StableHlo.after_of_writes_sub hostOps0_1 _ hostOps0_1_writes (by decide : (main_arg4 : Ref sig .tc) ∉ hostOps0_1_W)).trans (StableHlo.after_of_writes_sub hostOps0 _ hostOps0_writes (by decide : (main_arg4 : Ref sig .tc) ∉ hostOps0_W)))
theorem W4_arg0 (c : Dev nD) : W4 m c main_arg0 = m ((c : Thread nD τ).loc main_arg0) :=
  ((W4_of_ne m c main_arg0 (by decide)).trans ((StableHlo.after_of_writes_sub hostOps0_2 _ hostOps0_2_writes (by decide : (main_arg0 : Ref sig .tc) ∉ hostOps0_2_W)).trans ((StableHlo.after_of_writes_sub hostOps0_1 _ hostOps0_1_writes (by decide : (main_arg0 : Ref sig .tc) ∉ hostOps0_1_W)).trans (StableHlo.after_of_writes_sub hostOps0 _ hostOps0_writes (by decide : (main_arg0 : Ref sig .tc) ∉ hostOps0_W)))))
theorem W4_arg6 (c : Dev nD) : W4 m c main_arg6 = m ((c : Thread nD τ).loc main_arg6) :=
  ((W4_of_ne m c main_arg6 (by decide)).trans ((StableHlo.after_of_writes_sub hostOps0_2 _ hostOps0_2_writes (by decide : (main_arg6 : Ref sig .tc) ∉ hostOps0_2_W)).trans ((StableHlo.after_of_writes_sub hostOps0_1 _ hostOps0_1_writes (by decide : (main_arg6 : Ref sig .tc) ∉ hostOps0_1_W)).trans (StableHlo.after_of_writes_sub hostOps0 _ hostOps0_writes (by decide : (main_arg6 : Ref sig .tc) ∉ hostOps0_W)))))
theorem W5_arg5 (c : Dev nD) : W5 m c main_arg5 = m ((c : Thread nD τ).loc main_arg5) :=
  ((StableHlo.after_of_writes_sub hostOps1 _ hostOps1_writes (by decide : (main_arg5 : Ref sig .tc) ∉ hostOps1_W)).trans ((W4_of_ne m c main_arg5 (by decide)).trans ((StableHlo.after_of_writes_sub hostOps0_2 _ hostOps0_2_writes (by decide : (main_arg5 : Ref sig .tc) ∉ hostOps0_2_W)).trans ((StableHlo.after_of_writes_sub hostOps0_1 _ hostOps0_1_writes (by decide : (main_arg5 : Ref sig .tc) ∉ hostOps0_1_W)).trans (StableHlo.after_of_writes_sub hostOps0 _ hostOps0_writes (by decide : (main_arg5 : Ref sig .tc) ∉ hostOps0_W))))))
theorem W7_arg0 (c : Dev nD) : W7 m c main_arg0 = m ((c : Thread nD τ).loc main_arg0) :=
  ((StableHlo.after_of_writes_sub hostOps2 _ hostOps2_writes (by decide : (main_arg0 : Ref sig .tc) ∉ hostOps2_W)).trans ((W6_of_ne m c main_arg0 (by decide)).trans ((StableHlo.after_of_writes_sub hostOps1 _ hostOps1_writes (by decide : (main_arg0 : Ref sig .tc) ∉ hostOps1_W)).trans ((W4_of_ne m c main_arg0 (by decide)).trans ((StableHlo.after_of_writes_sub hostOps0_2 _ hostOps0_2_writes (by decide : (main_arg0 : Ref sig .tc) ∉ hostOps0_2_W)).trans ((StableHlo.after_of_writes_sub hostOps0_1 _ hostOps0_1_writes (by decide : (main_arg0 : Ref sig .tc) ∉ hostOps0_1_W)).trans (StableHlo.after_of_writes_sub hostOps0 _ hostOps0_writes (by decide : (main_arg0 : Ref sig .tc) ∉ hostOps0_W))))))))
theorem W7_arg7 (c : Dev nD) : W7 m c main_arg7 = m ((c : Thread nD τ).loc main_arg7) :=
  ((StableHlo.after_of_writes_sub hostOps2 _ hostOps2_writes (by decide : (main_arg7 : Ref sig .tc) ∉ hostOps2_W)).trans ((W6_of_ne m c main_arg7 (by decide)).trans ((StableHlo.after_of_writes_sub hostOps1 _ hostOps1_writes (by decide : (main_arg7 : Ref sig .tc) ∉ hostOps1_W)).trans ((W4_of_ne m c main_arg7 (by decide)).trans ((StableHlo.after_of_writes_sub hostOps0_2 _ hostOps0_2_writes (by decide : (main_arg7 : Ref sig .tc) ∉ hostOps0_2_W)).trans ((StableHlo.after_of_writes_sub hostOps0_1 _ hostOps0_1_writes (by decide : (main_arg7 : Ref sig .tc) ∉ hostOps0_1_W)).trans (StableHlo.after_of_writes_sub hostOps0 _ hostOps0_writes (by decide : (main_arg7 : Ref sig .tc) ∉ hostOps0_W))))))))
theorem W8_arg8 (c : Dev nD) : W8 m c main_arg8 = m ((c : Thread nD τ).loc main_arg8) :=
  ((W8_of_ne m c main_arg8 (by decide)).trans ((StableHlo.after_of_writes_sub hostOps2 _ hostOps2_writes (by decide : (main_arg8 : Ref sig .tc) ∉ hostOps2_W)).trans ((W6_of_ne m c main_arg8 (by decide)).trans ((StableHlo.after_of_writes_sub hostOps1 _ hostOps1_writes (by decide : (main_arg8 : Ref sig .tc) ∉ hostOps1_W)).trans ((W4_of_ne m c main_arg8 (by decide)).trans ((StableHlo.after_of_writes_sub hostOps0_2 _ hostOps0_2_writes (by decide : (main_arg8 : Ref sig .tc) ∉ hostOps0_2_W)).trans ((StableHlo.after_of_writes_sub hostOps0_1 _ hostOps0_1_writes (by decide : (main_arg8 : Ref sig .tc) ∉ hostOps0_1_W)).trans (StableHlo.after_of_writes_sub hostOps0 _ hostOps0_writes (by decide : (main_arg8 : Ref sig .tc) ∉ hostOps0_W)))))))))
theorem W9_arg9 (c : Dev nD) : W9 m c main_arg9 = m ((c : Thread nD τ).loc main_arg9) :=
  ((StableHlo.after_of_writes_sub hostOps3 _ hostOps3_writes (by decide : (main_arg9 : Ref sig .tc) ∉ hostOps3_W)).trans ((W8_of_ne m c main_arg9 (by decide)).trans ((StableHlo.after_of_writes_sub hostOps2 _ hostOps2_writes (by decide : (main_arg9 : Ref sig .tc) ∉ hostOps2_W)).trans ((W6_of_ne m c main_arg9 (by decide)).trans ((StableHlo.after_of_writes_sub hostOps1 _ hostOps1_writes (by decide : (main_arg9 : Ref sig .tc) ∉ hostOps1_W)).trans ((W4_of_ne m c main_arg9 (by decide)).trans ((StableHlo.after_of_writes_sub hostOps0_2 _ hostOps0_2_writes (by decide : (main_arg9 : Ref sig .tc) ∉ hostOps0_2_W)).trans ((StableHlo.after_of_writes_sub hostOps0_1 _ hostOps0_1_writes (by decide : (main_arg9 : Ref sig .tc) ∉ hostOps0_1_W)).trans (StableHlo.after_of_writes_sub hostOps0 _ hostOps0_writes (by decide : (main_arg9 : Ref sig .tc) ∉ hostOps0_W))))))))))
theorem W10_arg1 (c : Dev nD) : W10 m c main_arg1 = m ((c : Thread nD τ).loc main_arg1) :=
  ((W10_of_ne m c main_arg1 (by decide)).trans ((StableHlo.after_of_writes_sub hostOps3 _ hostOps3_writes (by decide : (main_arg1 : Ref sig .tc) ∉ hostOps3_W)).trans ((W8_of_ne m c main_arg1 (by decide)).trans ((StableHlo.after_of_writes_sub hostOps2 _ hostOps2_writes (by decide : (main_arg1 : Ref sig .tc) ∉ hostOps2_W)).trans ((W6_of_ne m c main_arg1 (by decide)).trans ((StableHlo.after_of_writes_sub hostOps1 _ hostOps1_writes (by decide : (main_arg1 : Ref sig .tc) ∉ hostOps1_W)).trans ((W4_of_ne m c main_arg1 (by decide)).trans ((StableHlo.after_of_writes_sub hostOps0_2 _ hostOps0_2_writes (by decide : (main_arg1 : Ref sig .tc) ∉ hostOps0_2_W)).trans ((StableHlo.after_of_writes_sub hostOps0_1 _ hostOps0_1_writes (by decide : (main_arg1 : Ref sig .tc) ∉ hostOps0_1_W)).trans (StableHlo.after_of_writes_sub hostOps0 _ hostOps0_writes (by decide : (main_arg1 : Ref sig .tc) ∉ hostOps0_W)))))))))))
theorem W10_arg10 (c : Dev nD) : W10 m c main_arg10 = m ((c : Thread nD τ).loc main_arg10) :=
  ((W10_of_ne m c main_arg10 (by decide)).trans ((StableHlo.after_of_writes_sub hostOps3 _ hostOps3_writes (by decide : (main_arg10 : Ref sig .tc) ∉ hostOps3_W)).trans ((W8_of_ne m c main_arg10 (by decide)).trans ((StableHlo.after_of_writes_sub hostOps2 _ hostOps2_writes (by decide : (main_arg10 : Ref sig .tc) ∉ hostOps2_W)).trans ((W6_of_ne m c main_arg10 (by decide)).trans ((StableHlo.after_of_writes_sub hostOps1 _ hostOps1_writes (by decide : (main_arg10 : Ref sig .tc) ∉ hostOps1_W)).trans ((W4_of_ne m c main_arg10 (by decide)).trans ((StableHlo.after_of_writes_sub hostOps0_2 _ hostOps0_2_writes (by decide : (main_arg10 : Ref sig .tc) ∉ hostOps0_2_W)).trans ((StableHlo.after_of_writes_sub hostOps0_1 _ hostOps0_1_writes (by decide : (main_arg10 : Ref sig .tc) ∉ hostOps0_1_W)).trans (StableHlo.after_of_writes_sub hostOps0 _ hostOps0_writes (by decide : (main_arg10 : Ref sig .tc) ∉ hostOps0_W)))))))))))
theorem W10_arg12 (c : Dev nD) : W10 m c main_arg12 = m ((c : Thread nD τ).loc main_arg12) :=
  ((W10_of_ne m c main_arg12 (by decide)).trans ((StableHlo.after_of_writes_sub hostOps3 _ hostOps3_writes (by decide : (main_arg12 : Ref sig .tc) ∉ hostOps3_W)).trans ((W8_of_ne m c main_arg12 (by decide)).trans ((StableHlo.after_of_writes_sub hostOps2 _ hostOps2_writes (by decide : (main_arg12 : Ref sig .tc) ∉ hostOps2_W)).trans ((W6_of_ne m c main_arg12 (by decide)).trans ((StableHlo.after_of_writes_sub hostOps1 _ hostOps1_writes (by decide : (main_arg12 : Ref sig .tc) ∉ hostOps1_W)).trans ((W4_of_ne m c main_arg12 (by decide)).trans ((StableHlo.after_of_writes_sub hostOps0_2 _ hostOps0_2_writes (by decide : (main_arg12 : Ref sig .tc) ∉ hostOps0_2_W)).trans ((StableHlo.after_of_writes_sub hostOps0_1 _ hostOps0_1_writes (by decide : (main_arg12 : Ref sig .tc) ∉ hostOps0_1_W)).trans (StableHlo.after_of_writes_sub hostOps0 _ hostOps0_writes (by decide : (main_arg12 : Ref sig .tc) ∉ hostOps0_W)))))))))))
theorem W11_arg11 (c : Dev nD) : W11 m c main_arg11 = m ((c : Thread nD τ).loc main_arg11) :=
  ((StableHlo.after_of_writes_sub hostOps4 _ hostOps4_writes (by decide : (main_arg11 : Ref sig .tc) ∉ hostOps4_W)).trans ((W10_of_ne m c main_arg11 (by decide)).trans ((StableHlo.after_of_writes_sub hostOps3 _ hostOps3_writes (by decide : (main_arg11 : Ref sig .tc) ∉ hostOps3_W)).trans ((W8_of_ne m c main_arg11 (by decide)).trans ((StableHlo.after_of_writes_sub hostOps2 _ hostOps2_writes (by decide : (main_arg11 : Ref sig .tc) ∉ hostOps2_W)).trans ((W6_of_ne m c main_arg11 (by decide)).trans ((StableHlo.after_of_writes_sub hostOps1 _ hostOps1_writes (by decide : (main_arg11 : Ref sig .tc) ∉ hostOps1_W)).trans ((W4_of_ne m c main_arg11 (by decide)).trans ((StableHlo.after_of_writes_sub hostOps0_2 _ hostOps0_2_writes (by decide : (main_arg11 : Ref sig .tc) ∉ hostOps0_2_W)).trans ((StableHlo.after_of_writes_sub hostOps0_1 _ hostOps0_1_writes (by decide : (main_arg11 : Ref sig .tc) ∉ hostOps0_1_W)).trans (StableHlo.after_of_writes_sub hostOps0 _ hostOps0_writes (by decide : (main_arg11 : Ref sig .tc) ∉ hostOps0_W))))))))))))

/-! ## The index vectors, the inverse square-root degrees and the normalisation -/

theorem W1_v3 (c : Dev nD) : W1 m c main_v3 = src3 (m ((c : Thread nD τ).loc main_arg2)) := read_v3 (W0 m c)
theorem W1_v6 (c : Dev nD) : W1 m c main_v6 = dst6 (m ((c : Thread nD τ).loc main_arg2)) := read_v6 (W0 m c)
theorem W1_v12 (c : Dev nD) : W1 m c main_v12 = gt12 (m ((c : Thread nD τ).loc main_arg2)) := read_v12 (W0 m c)
theorem W1_v13 (c : Dev nD) : W1 m c main_v13 = rs13 (m ((c : Thread nD τ).loc main_arg2)) := read_v13 (W0 m c)
theorem W1_cst_2 (c : Dev nD) : W1 m c main_cst_2 = c2 (F := F) := read_cst_2 (W0 m c)
theorem W2_main_v3 (c : Dev nD) : W2 m c main_v3 = W1 m c main_v3 :=
  (StableHlo.after_of_writes_sub hostOps0_1 _ hostOps0_1_writes (by decide : (main_v3 : Ref sig .tc) ∉ hostOps0_1_W))
theorem W2_main_v6 (c : Dev nD) : W2 m c main_v6 = W1 m c main_v6 :=
  (StableHlo.after_of_writes_sub hostOps0_1 _ hostOps0_1_writes (by decide : (main_v6 : Ref sig .tc) ∉ hostOps0_1_W))
theorem W2_v14 (c : Dev nD) : W2 m c main_v14 = dinv14 (W1 m c main_v12) (W1 m c main_v13) (W1 m c main_cst_2) := read_v14 (W1 m c)
theorem W3_v29 (c : Dev nD) : W3 m c main_v29 = norm29 (W2 m c main_v14) (W2 m c main_v3) (W2 m c main_v6) := read_v29 (W2 m c)
theorem W3_v30 (c : Dev nD) : W3 m c main_v30 = row30 (W2 m c main_arg4) := read_v30 (W2 m c)
theorem W8_main_v3 (c : Dev nD) : W8 m c main_v3 = W1 m c main_v3 :=
  ((W8_of_ne m c main_v3 (by decide)).trans ((StableHlo.after_of_writes_sub hostOps2 _ hostOps2_writes (by decide : (main_v3 : Ref sig .tc) ∉ hostOps2_W)).trans ((W6_of_ne m c main_v3 (by decide)).trans ((StableHlo.after_of_writes_sub hostOps1 _ hostOps1_writes (by decide : (main_v3 : Ref sig .tc) ∉ hostOps1_W)).trans ((W4_of_ne m c main_v3 (by decide)).trans ((StableHlo.after_of_writes_sub hostOps0_2 _ hostOps0_2_writes (by decide : (main_v3 : Ref sig .tc) ∉ hostOps0_2_W)).trans (StableHlo.after_of_writes_sub hostOps0_1 _ hostOps0_1_writes (by decide : (main_v3 : Ref sig .tc) ∉ hostOps0_1_W))))))))
theorem W8_main_v6 (c : Dev nD) : W8 m c main_v6 = W1 m c main_v6 :=
  ((W8_of_ne m c main_v6 (by decide)).trans ((StableHlo.after_of_writes_sub hostOps2 _ hostOps2_writes (by decide : (main_v6 : Ref sig .tc) ∉ hostOps2_W)).trans ((W6_of_ne m c main_v6 (by decide)).trans ((StableHlo.after_of_writes_sub hostOps1 _ hostOps1_writes (by decide : (main_v6 : Ref sig .tc) ∉ hostOps1_W)).trans ((W4_of_ne m c main_v6 (by decide)).trans ((StableHlo.after_of_writes_sub hostOps0_2 _ hostOps0_2_writes (by decide : (main_v6 : Ref sig .tc) ∉ hostOps0_2_W)).trans (StableHlo.after_of_writes_sub hostOps0_1 _ hostOps0_1_writes (by decide : (main_v6 : Ref sig .tc) ∉ hostOps0_1_W))))))))
theorem W8_main_v29 (c : Dev nD) : W8 m c main_v29 = W3 m c main_v29 :=
  ((W8_of_ne m c main_v29 (by decide)).trans ((StableHlo.after_of_writes_sub hostOps2 _ hostOps2_writes (by decide : (main_v29 : Ref sig .tc) ∉ hostOps2_W)).trans ((W6_of_ne m c main_v29 (by decide)).trans ((StableHlo.after_of_writes_sub hostOps1 _ hostOps1_writes (by decide : (main_v29 : Ref sig .tc) ∉ hostOps1_W)).trans (W4_of_ne m c main_v29 (by decide))))))
theorem W10_main_v3 (c : Dev nD) : W10 m c main_v3 = W1 m c main_v3 :=
  ((W10_of_ne m c main_v3 (by decide)).trans ((StableHlo.after_of_writes_sub hostOps3 _ hostOps3_writes (by decide : (main_v3 : Ref sig .tc) ∉ hostOps3_W)).trans ((W8_of_ne m c main_v3 (by decide)).trans ((StableHlo.after_of_writes_sub hostOps2 _ hostOps2_writes (by decide : (main_v3 : Ref sig .tc) ∉ hostOps2_W)).trans ((W6_of_ne m c main_v3 (by decide)).trans ((StableHlo.after_of_writes_sub hostOps1 _ hostOps1_writes (by decide : (main_v3 : Ref sig .tc) ∉ hostOps1_W)).trans ((W4_of_ne m c main_v3 (by decide)).trans ((StableHlo.after_of_writes_sub hostOps0_2 _ hostOps0_2_writes (by decide : (main_v3 : Ref sig .tc) ∉ hostOps0_2_W)).trans (StableHlo.after_of_writes_sub hostOps0_1 _ hostOps0_1_writes (by decide : (main_v3 : Ref sig .tc) ∉ hostOps0_1_W))))))))))
theorem W10_main_v6 (c : Dev nD) : W10 m c main_v6 = W1 m c main_v6 :=
  ((W10_of_ne m c main_v6 (by decide)).trans ((StableHlo.after_of_writes_sub hostOps3 _ hostOps3_writes (by decide : (main_v6 : Ref sig .tc) ∉ hostOps3_W)).trans ((W8_of_ne m c main_v6 (by decide)).trans ((StableHlo.after_of_writes_sub hostOps2 _ hostOps2_writes (by decide : (main_v6 : Ref sig .tc) ∉ hostOps2_W)).trans ((W6_of_ne m c main_v6 (by decide)).trans ((StableHlo.after_of_writes_sub hostOps1 _ hostOps1_writes (by decide : (main_v6 : Ref sig .tc) ∉ hostOps1_W)).trans ((W4_of_ne m c main_v6 (by decide)).trans ((StableHlo.after_of_writes_sub hostOps0_2 _ hostOps0_2_writes (by decide : (main_v6 : Ref sig .tc) ∉ hostOps0_2_W)).trans (StableHlo.after_of_writes_sub hostOps0_1 _ hostOps0_1_writes (by decide : (main_v6 : Ref sig .tc) ∉ hostOps0_1_W))))))))))
theorem W10_main_v29 (c : Dev nD) : W10 m c main_v29 = W3 m c main_v29 :=
  ((W10_of_ne m c main_v29 (by decide)).trans ((StableHlo.after_of_writes_sub hostOps3 _ hostOps3_writes (by decide : (main_v29 : Ref sig .tc) ∉ hostOps3_W)).trans ((W8_of_ne m c main_v29 (by decide)).trans ((StableHlo.after_of_writes_sub hostOps2 _ hostOps2_writes (by decide : (main_v29 : Ref sig .tc) ∉ hostOps2_W)).trans ((W6_of_ne m c main_v29 (by decide)).trans ((StableHlo.after_of_writes_sub hostOps1 _ hostOps1_writes (by decide : (main_v29 : Ref sig .tc) ∉ hostOps1_W)).trans (W4_of_ne m c main_v29 (by decide))))))))

/-! ## What the later stretches write -/

theorem W5_v32 (c : Dev nD) : W5 m c main_v32 = cat32 (W4 m c main_arg0) (W4 m c main_v31) := read_v32 (W4 m c)
theorem W5_v33 (c : Dev nD) : W5 m c main_v33 = row33 (W4 m c main_arg6) := read_v33 (W4 m c)
theorem W7_v35 (c : Dev nD) : W7 m c main_v35 = zrow35 (F := F) := read_v35 (W6 m c)
theorem W9_v52 (c : Dev nD) : W9 m c main_v52 = agg52 (W8 m c main_v36) (W8 m c main_v3) (W8 m c main_v6) (W8 m c main_v29) (W8 m c main_arg8) := read_v52 (W8 m c)
theorem W9_v53 (c : Dev nD) : W9 m c main_v53 = zrow53 (F := F) := read_v53 (W8 m c)
theorem W11_v71 (c : Dev nD) : W11 m c main_v71 = x71 (W10 m c main_arg1) (W10 m c main_v54) (W10 m c main_v3) (W10 m c main_v6) (W10 m c main_v29) (W10 m c main_arg10) := read_v71 (W10 m c)
theorem W11_v72 (c : Dev nD) : W11 m c main_v72 = row72 (W10 m c main_arg12) := read_v72 (W10 m c)
theorem W13_v74 (c : Dev nD) : W13 m c main_v74 = cat74 (W12 m c main_v34) (W12 m c main_v73) := read_v74 (W12 m c)
theorem W12_main_v34 (c : Dev nD) : W12 m c main_v34 = W6 m c main_v34 :=
  ((W12_of_ne m c main_v34 (by decide)).trans ((StableHlo.after_of_writes_sub hostOps4 _ hostOps4_writes (by decide : (main_v34 : Ref sig .tc) ∉ hostOps4_W)).trans ((W10_of_ne m c main_v34 (by decide)).trans ((StableHlo.after_of_writes_sub hostOps3 _ hostOps3_writes (by decide : (main_v34 : Ref sig .tc) ∉ hostOps3_W)).trans ((W8_of_ne m c main_v34 (by decide)).trans (StableHlo.after_of_writes_sub hostOps2 _ hostOps2_writes (by decide : (main_v34 : Ref sig .tc) ∉ hostOps2_W)))))))

end Cert.KernelIdeal.Fr

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibRowRowProduct.lean ====
/-
  A matrix product that contracts the SECOND axis of both operands, read at coordinates.

  For `lhs` of extents [A, K] and `rhs` of extents [B, K], the product that pairs row `a` of the first with row `b` of
  the second — `lhs · rhsᵀ` — reads at `(a, b)`, over the extended reals, the sum over `k` of `lhs (a, k) · rhs (b, k)`:
  stated for the accumulating product into a zero accumulator and for the host's product. The dimension record's two
  non-contracted coordinates are taken as hypotheses; at a literal record they hold by computation.
-/
import Idealize.ShloMosaic.PureOps.Ideal.Laws
import Idealize.ShloMosaic.Lib.ValueIdx
import Idealize.ShloMosaic.Lib.Pipeline.Value

noncomputable section

namespace Cert.LibRowRowProduct

open Idealize.ShloMosaic Idealize.ShloMosaic.ValueIdx

section Dot
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Dot

end Cert.LibRowRowProduct

end
-- ==== Proof.PayloadsAt.lean ====
/-
  The six kernel payloads read at an index, over the extended reals.

  Each dense payload is the accumulating product of the loaded block with the weight into a zero accumulator, plus the
  one-row bias stretched over the rows (the first one followed by a maximum with zero); the last payload is the
  logistic function of the product of two row blocks contracted along their second axis. Over the extended reals a
  change of format is the identity and a cast of a shape to itself changes nothing, so each reads at `(p, q)` as the
  textbook formula.
-/
import proofs.«160839_j45148696215965_1_alg».proof.Proof.Gen.KernelIdeal.Skeleton
import proofs.«160839_j45148696215965_1_alg».proof.Proof.LibColumnBlocks
import proofs.«160839_j45148696215965_1_alg».proof.Proof.LibRowRowProduct
import Idealize.ShloMosaic.PureOps.Ideal.Laws
import Idealize.ShloMosaic.Lib.ValueIdx
import Idealize.ShloMosaic.Lib.ValueLayout
import Idealize.ShloMosaic.Lib.Pipeline.Value

noncomputable section

namespace Cert.DenseValue

open Idealize.ShloMosaic Idealize.ShloMosaic.ValueIdx Cert.KernelIdeal Cert.KernelIdeal.Gen

/-! ## The five dense payloads

Over the extended reals a change of format is the identity, the product into a zero accumulator is the plain sum of
products, and the one-row bias stretched over the rows reads its entry in the column. -/

/-- The first dense payload: `max (x · w + b) 0` at `(p, q)`. -/
theorem k0_pay1_at (x : Vec Ideal S1024x512 .f32) (w : Vec Ideal S512x512 .f32) (b : Vec Ideal S1x512 .f32)
    (p : Fin 1024) (q : Fin 512) :
    k0_pay1 (F := Ideal) x w b (ix2 p q)
      = max ((∑ k : Fin 512, x (ix2 p k) * w (ix2 k q)) + b (ix2 (0 : Fin 1) q)) 0 := by
  unfold k0_pay1
  rw [maximumf_apply, addf_apply, broadcast_apply, shapeCast_self, shapeCast_self, broadcastTo_1b_ab_apply]
  refine congrArg₂ max (congrArg (· + b (ix2 (0 : Fin 1) q)) ?_) Ideal.ofBits_zero_f32
  exact LibColumnBlocks.matmul_zero_apply dot_S1024x512_S512x512_S1024x512_1_0_0_1_n_n rfl rfl rfl rfl
    (fun _ _ => rfl) (fun _ _ => rfl) x w p q none

/-- The second dense payload: `x · w + b` at `(p, q)`. -/
theorem k1_pay1_at (x : Vec Ideal S1024x1024 .f32) (w : Vec Ideal S1024x256 .f32) (b : Vec Ideal S1x256 .f32)
    (p : Fin 1024) (q : Fin 256) :
    k1_pay1 (F := Ideal) x w b (ix2 p q)
      = (∑ k : Fin 1024, x (ix2 p k) * w (ix2 k q)) + b (ix2 (0 : Fin 1) q) := by
  unfold k1_pay1
  rw [addf_apply, shapeCast_self, shapeCast_self, shapeCast_self, broadcastTo_1b_ab_apply]
  refine congrArg (· + b (ix2 (0 : Fin 1) q)) ?_
  exact LibColumnBlocks.matmul_zero_apply dot_S1024x1024_S1024x256_S1024x256_1_0_0_1_n_n rfl rfl rfl rfl
    (fun _ _ => rfl) (fun _ _ => rfl) x w p q none

/-- The third dense payload: `x · w + b` at `(p, q)`. -/
theorem k2_pay1_at (x : Vec Ideal S1024x512 .f32) (w : Vec Ideal S512x512 .f32) (b : Vec Ideal S1x512 .f32)
    (p : Fin 1024) (q : Fin 512) :
    k2_pay1 (F := Ideal) x w b (ix2 p q)
      = (∑ k : Fin 512, x (ix2 p k) * w (ix2 k q)) + b (ix2 (0 : Fin 1) q) := by
  unfold k2_pay1
  rw [addf_apply, shapeCast_self, shapeCast_self, broadcastTo_1b_ab_apply]
  refine congrArg (· + b (ix2 (0 : Fin 1) q)) ?_
  exact LibColumnBlocks.matmul_zero_apply dot_S1024x512_S512x512_S1024x512_1_0_0_1_n_n rfl rfl rfl rfl
    (fun _ _ => rfl) (fun _ _ => rfl) x w p q none

/-- The fourth dense payload: `x · w + b` at `(p, q)`. -/
theorem k3_pay1_at (x : Vec Ideal S1024x512 .f32) (w : Vec Ideal S512x256 .f32) (b : Vec Ideal S1x256 .f32)
    (p : Fin 1024) (q : Fin 256) :
    k3_pay1 (F := Ideal) x w b (ix2 p q)
      = (∑ k : Fin 512, x (ix2 p k) * w (ix2 k q)) + b (ix2 (0 : Fin 1) q) := by
  unfold k3_pay1
  rw [addf_apply, shapeCast_self, shapeCast_self, shapeCast_self, broadcastTo_1b_ab_apply]
  refine congrArg (· + b (ix2 (0 : Fin 1) q)) ?_
  exact LibColumnBlocks.matmul_zero_apply dot_S1024x512_S512x256_S1024x256_1_0_0_1_n_n rfl rfl rfl rfl
    (fun _ _ => rfl) (fun _ _ => rfl) x w p q none

/-- The fifth dense payload: `x · w + b` at `(p, q)`. -/
theorem k4_pay1_at (x : Vec Ideal S1024x768 .f32) (w : Vec Ideal S768x256 .f32) (b : Vec Ideal S1x256 .f32)
    (p : Fin 1024) (q : Fin 256) :
    k4_pay1 (F := Ideal) x w b (ix2 p q)
      = (∑ k : Fin 768, x (ix2 p k) * w (ix2 k q)) + b (ix2 (0 : Fin 1) q) := by
  unfold k4_pay1
  rw [addf_apply, shapeCast_self, shapeCast_self, shapeCast_self, broadcastTo_1b_ab_apply]
  refine congrArg (· + b (ix2 (0 : Fin 1) q)) ?_
  exact LibColumnBlocks.matmul_zero_apply dot_S1024x768_S768x256_S1024x256_1_0_0_1_n_n rfl rfl rfl rfl
    (fun _ _ => rfl) (fun _ _ => rfl) x w p q none

/-! ## The inner-product payload -/

/-- The last payload: the logistic function of the product of row `p` of `x` with row `q` of `y`. -/
theorem k5_pay1_at (x y : Vec Ideal S1024x512 .f32) (p q : Fin 1024) :
    k5_pay1 (F := Ideal) x y (ix2 p q) = Ideal.logistic (∑ k : Fin 512, x (ix2 p k) * y (ix2 q k)) := by
  unfold k5_pay1
  rw [shapeCast_self, shapeCast_self]
  refine congrArg Ideal.logistic ?_
  exact LibRowRowProduct.matmul_zero_apply dot_S1024x512_S1024x512_S1024x1024_1_1_0_0_n_n rfl rfl rfl rfl
    (fun _ _ => rfl) (fun _ _ => rfl) x y p q none

end Cert.DenseValue

end
-- ==== Proof.KIFinal0.lean ====
import proofs.«160839_j45148696215965_1_alg».proof.Proof.KIReg0
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 0 as one function of its operand arrays

The call's result array, after every grid point has written its block back, is `max (a · w + b) 0` of the three operand
arrays as the call finds them: point `t` computes rows `1024 t` to `1024 t + 1023`, and the eight points cover the rows. -/

/-- The whole-buffer accesses start at the origin. -/
theorem zero_offsets0 : (![0, 0] : Fin 2 → Nat) = fun _ => 0 := funext fun a => by fin_cases a <;> rfl

/-- The block index maps over the grid: the row operand and the result move with the point, the weight and the bias
    stay at their one block. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the result array ends holding: at `(r, q)`, row `r` of `a` against column `q` of `w`, plus the bias at `q`,
    or zero if that is negative. -/
def denseRelu0 (a : FVec Ideal S8192x512 .f32) (w : FVec Ideal S512x512 .f32) (b : FVec Ideal S1x512 .f32) :
    FVec Ideal S8192x512 .f32 :=
  fun idx => max ((∑ k : Fin 512, a (ix2 (idx 0) k) * w (ix2 k (idx 1))) + b (ix2 (0 : Fin 1) (idx 1))) 0

/-- The body's value at `(p, q)` of a block whose row `p` is row `r` of `a`. -/
theorem point0 (a : FVec Ideal S8192x512 .f32) (w : FVec Ideal S512x512 .f32) (b : FVec Ideal S1x512 .f32)
    (x0 : Vec Ideal S1024x512 .f32) (x1 : Vec Ideal S512x512 .f32) (x2 : Vec Ideal S1x512 .f32)
    (p : Fin 1024) (q : Fin 512) (r : Fin 8192)
    (h0 : ∀ k : Fin 512, x0 (ix2 p k) = a (ix2 r k)) (h1 : x1 = w) (h2 : x2 = b) :
    k0_pay1 (F := Ideal) x0 x1 x2 (ix2 p q) = denseRelu0 a w b (ix2 r q) := by
  subst h1 h2
  rw [Cert.DenseValue.k0_pay1_at]
  show _ = max ((∑ k : Fin 512, a (ix2 r k) * x1 (ix2 k q)) + x2 (ix2 (0 : Fin 1) q)) 0
  simp only [h0]

/-- What point `t` writes back is block `t` of that function of the operand arrays. -/
theorem flushed0_eq (c : Dev nD) (t : Fin cfg0.N) :
    (dat0 V c).flushed 3 t = ((cfg0.win 3).blk t).view.read (Elt Ideal)
      (denseRelu0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets0]
  simp only [View.ld_unit_zero (S := S1024x512) zero_offsets0, View.ld_unit_zero (S := S512x512) zero_offsets0, View.ld_unit_zero (S := S1x512) zero_offsets0]
  obtain ⟨e00, e01, e10, e11, e20, e21, e30, e31⟩ := index_facts0 t
  have hN : t.val < 8 := by have h := t.isLt; have e : cfg0.N = 8 := N_0; omega
  funext y
  have hy0 : (y 0).val < 1024 := (y 0).isLt
  have hy1 : (y 1).val < 512 := (y 1).isLt
  have hx : (win0 3).xinj (grid0.coords t) y = ix2 (⟨(y 0).val, hy0⟩ : Fin 1024) (⟨(y 1).val, hy1⟩ : Fin 512) := by
    funext a
    match a with
    | ⟨0, _⟩ => rfl
    | ⟨1, _⟩ => rfl
  have he : ((cfg0.win 3).blk t).view.emb y
      = ix2 (⟨t.val * 1024 + (y 0).val, by omega⟩ : Fin 8192) (⟨(y 1).val, hy1⟩ : Fin 512) := by
    funext a; apply Fin.ext
    match a with
    | ⟨0, _⟩ => show win0_3.index t (0 : Fin 2) * 1024 + 1 * (y 0).val = t.val * 1024 + (y 0).val; omega
    | ⟨1, _⟩ => show win0_3.index t (1 : Fin 2) * 512 + 1 * (y 1).val = (y 1).val; omega
  show k0_pay1 (iblk0 V c 0 t) (iblk0 V c 1 t) (iblk0 V c 2 t) ((win0 3).xinj (grid0.coords t) y)
    = denseRelu0 (V c (Pipeline.arrRef spec0 0)) (V c (Pipeline.arrRef spec0 1)) (V c (Pipeline.arrRef spec0 2))
        (((cfg0.win 3).blk t).view.emb y)
  refine (congrArg (k0_pay1 (iblk0 V c 0 t) (iblk0 V c 1 t) (iblk0 V c 2 t)) hx).trans ?_
  refine Eq.trans ?_ (congrArg (denseRelu0 (V c (Pipeline.arrRef spec0 0)) (V c (Pipeline.arrRef spec0 1)) (V c (Pipeline.arrRef spec0 2))) he).symm
  refine point0 _ _ _ _ _ _ _ _ _ ?_ ?_ ?_
  · intro k
    show V c (Pipeline.arrRef spec0 0) (((cfg0.win 0).blk t).view.emb (ix2 (⟨(y 0).val, hy0⟩ : Fin 1024) k)) = _
    refine congrArg (V c (Pipeline.arrRef spec0 0)) ?_
    funext a; apply Fin.ext
    match a with
    | ⟨0, _⟩ => show win0_0.index t (0 : Fin 2) * 1024 + 1 * (y 0).val = t.val * 1024 + (y 0).val; omega
    | ⟨1, _⟩ => show win0_0.index t (1 : Fin 2) * 512 + 1 * k.val = k.val; omega
  · funext j
    show V c (Pipeline.arrRef spec0 1) (((cfg0.win 1).blk t).view.emb j) = V c (Pipeline.arrRef spec0 1) j
    refine congrArg (V c (Pipeline.arrRef spec0 1)) ?_
    funext a; apply Fin.ext
    match a with
    | ⟨0, _⟩ => show win0_1.index t (0 : Fin 2) * 512 + 1 * (j 0).val = (j 0).val; omega
    | ⟨1, _⟩ => show win0_1.index t (1 : Fin 2) * 512 + 1 * (j 1).val = (j 1).val; omega
  · funext j
    show V c (Pipeline.arrRef spec0 2) (((cfg0.win 2).blk t).view.emb j) = V c (Pipeline.arrRef spec0 2) j
    refine congrArg (V c (Pipeline.arrRef spec0 2)) ?_
    funext a; apply Fin.ext
    match a with
    | ⟨0, _⟩ => show win0_2.index t (0 : Fin 2) * 1 + 1 * (j 0).val = (j 0).val; omega
    | ⟨1, _⟩ => show win0_2.index t (1 : Fin 2) * 512 + 1 * (j 1).val = (j 1).val; omega

/-- An index of the result array is in point `t`'s block iff each coordinate is in the block's range on its axis. -/
theorem mem_blk0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v31).slice (win0_3.rect t)).set ↔ _
  rw [View.set_slice_whole, Rect.mem_set_unit]
  exact Iff.rfl

/-- Every row lies in the block of the point `row / 1024`. -/
theorem cover0 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  obtain ⟨e00, e01, e10, e11, e20, e21, e30, e31⟩ := index_facts0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the call: `max (a · w + b) 0` of the operand arrays, index by index. -/
theorem final0 (c : Dev nD) :
    (dat0 V c).arrAt 3 cfg0.N
      = denseRelu0 (V c (Pipeline.arrRef spec0 0)) (V c (Pipeline.arrRef spec0 1)) (V c (Pipeline.arrRef spec0 2)) :=
  (dat0 V c).arrAt_eq_of_cover 3 _ (fun t _ => flushed0_eq V c t) cover0

/-- That function at `(r, q)`. -/
theorem denseRelu0_at (a : FVec Ideal S8192x512 .f32) (w : FVec Ideal S512x512 .f32) (b : FVec Ideal S1x512 .f32)
    (r : Fin 8192) (q : Fin 512) :
    denseRelu0 a w b (ix2 r q) = max ((∑ k : Fin 512, a (ix2 r k) * w (ix2 k q)) + b (ix2 (0 : Fin 1) q)) 0 := rfl

end Cert.KernelIdeal.Fr

end
-- ==== Proof.KIFinal1.lean ====
import proofs.«160839_j45148696215965_1_alg».proof.Proof.KIReg1
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 1 as one function of its operand arrays

The call's result array, after every grid point has written its block back, is `a · w + b` of the three operand
arrays as the call finds them: point `t` computes rows `1024 t` to `1024 t + 1023`, and the eight points cover the rows. -/

/-- The whole-buffer accesses start at the origin. -/
theorem zero_offsets1 : (![0, 0] : Fin 2 → Nat) = fun _ => 0 := funext fun a => by fin_cases a <;> rfl

/-- The block index maps over the grid: the row operand and the result move with the point, the weight and the bias
    stay at their one block. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the result array ends holding: at `(r, q)`, row `r` of `a` against column `q` of `w`, plus the bias at `q`. -/
def dense1 (a : FVec Ideal S8192x1024 .f32) (w : FVec Ideal S1024x256 .f32) (b : FVec Ideal S1x256 .f32) :
    FVec Ideal S8192x256 .f32 :=
  fun idx => (∑ k : Fin 1024, a (ix2 (idx 0) k) * w (ix2 k (idx 1))) + b (ix2 (0 : Fin 1) (idx 1))

/-- The body's value at `(p, q)` of a block whose row `p` is row `r` of `a`. -/
theorem point1 (a : FVec Ideal S8192x1024 .f32) (w : FVec Ideal S1024x256 .f32) (b : FVec Ideal S1x256 .f32)
    (x0 : Vec Ideal S1024x1024 .f32) (x1 : Vec Ideal S1024x256 .f32) (x2 : Vec Ideal S1x256 .f32)
    (p : Fin 1024) (q : Fin 256) (r : Fin 8192)
    (h0 : ∀ k : Fin 1024, x0 (ix2 p k) = a (ix2 r k)) (h1 : x1 = w) (h2 : x2 = b) :
    k1_pay1 (F := Ideal) x0 x1 x2 (ix2 p q) = dense1 a w b (ix2 r q) := by
  subst h1 h2
  rw [Cert.DenseValue.k1_pay1_at]
  show _ = (∑ k : Fin 1024, a (ix2 r k) * x1 (ix2 k q)) + x2 (ix2 (0 : Fin 1) q)
  simp only [h0]

/-- What point `t` writes back is block `t` of that function of the operand arrays. -/
theorem flushed1_eq (c : Dev nD) (t : Fin cfg1.N) :
    (dat1 V c).flushed 3 t = ((cfg1.win 3).blk t).view.read (Elt Ideal)
      (dense1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets1]
  simp only [View.ld_unit_zero (S := S1024x1024) zero_offsets1, View.ld_unit_zero (S := S1024x256) zero_offsets1, View.ld_unit_zero (S := S1x256) zero_offsets1]
  obtain ⟨e00, e01, e10, e11, e20, e21, e30, e31⟩ := index_facts1 t
  have hN : t.val < 8 := by have h := t.isLt; have e : cfg1.N = 8 := N_1; omega
  funext y
  have hy0 : (y 0).val < 1024 := (y 0).isLt
  have hy1 : (y 1).val < 256 := (y 1).isLt
  have hx : (win1 3).xinj (grid1.coords t) y = ix2 (⟨(y 0).val, hy0⟩ : Fin 1024) (⟨(y 1).val, hy1⟩ : Fin 256) := by
    funext a
    match a with
    | ⟨0, _⟩ => rfl
    | ⟨1, _⟩ => rfl
  have he : ((cfg1.win 3).blk t).view.emb y
      = ix2 (⟨t.val * 1024 + (y 0).val, by omega⟩ : Fin 8192) (⟨(y 1).val, hy1⟩ : Fin 256) := by
    funext a; apply Fin.ext
    match a with
    | ⟨0, _⟩ => show win1_3.index t (0 : Fin 2) * 1024 + 1 * (y 0).val = t.val * 1024 + (y 0).val; omega
    | ⟨1, _⟩ => show win1_3.index t (1 : Fin 2) * 256 + 1 * (y 1).val = (y 1).val; omega
  show k1_pay1 (iblk1 V c 0 t) (iblk1 V c 1 t) (iblk1 V c 2 t) ((win1 3).xinj (grid1.coords t) y)
    = dense1 (V c (Pipeline.arrRef spec1 0)) (V c (Pipeline.arrRef spec1 1)) (V c (Pipeline.arrRef spec1 2))
        (((cfg1.win 3).blk t).view.emb y)
  refine (congrArg (k1_pay1 (iblk1 V c 0 t) (iblk1 V c 1 t) (iblk1 V c 2 t)) hx).trans ?_
  refine Eq.trans ?_ (congrArg (dense1 (V c (Pipeline.arrRef spec1 0)) (V c (Pipeline.arrRef spec1 1)) (V c (Pipeline.arrRef spec1 2))) he).symm
  refine point1 _ _ _ _ _ _ _ _ _ ?_ ?_ ?_
  · intro k
    show V c (Pipeline.arrRef spec1 0) (((cfg1.win 0).blk t).view.emb (ix2 (⟨(y 0).val, hy0⟩ : Fin 1024) k)) = _
    refine congrArg (V c (Pipeline.arrRef spec1 0)) ?_
    funext a; apply Fin.ext
    match a with
    | ⟨0, _⟩ => show win1_0.index t (0 : Fin 2) * 1024 + 1 * (y 0).val = t.val * 1024 + (y 0).val; omega
    | ⟨1, _⟩ => show win1_0.index t (1 : Fin 2) * 1024 + 1 * k.val = k.val; omega
  · funext j
    show V c (Pipeline.arrRef spec1 1) (((cfg1.win 1).blk t).view.emb j) = V c (Pipeline.arrRef spec1 1) j
    refine congrArg (V c (Pipeline.arrRef spec1 1)) ?_
    funext a; apply Fin.ext
    match a with
    | ⟨0, _⟩ => show win1_1.index t (0 : Fin 2) * 1024 + 1 * (j 0).val = (j 0).val; omega
    | ⟨1, _⟩ => show win1_1.index t (1 : Fin 2) * 256 + 1 * (j 1).val = (j 1).val; omega
  · funext j
    show V c (Pipeline.arrRef spec1 2) (((cfg1.win 2).blk t).view.emb j) = V c (Pipeline.arrRef spec1 2) j
    refine congrArg (V c (Pipeline.arrRef spec1 2)) ?_
    funext a; apply Fin.ext
    match a with
    | ⟨0, _⟩ => show win1_2.index t (0 : Fin 2) * 1 + 1 * (j 0).val = (j 0).val; omega
    | ⟨1, _⟩ => show win1_2.index t (1 : Fin 2) * 256 + 1 * (j 1).val = (j 1).val; omega

/-- An index of the result array is in point `t`'s block iff each coordinate is in the block's range on its axis. -/
theorem mem_blk1 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v34).slice (win1_3.rect t)).set ↔ _
  rw [View.set_slice_whole, Rect.mem_set_unit]
  exact Iff.rfl

/-- Every row lies in the block of the point `row / 1024`. -/
theorem cover1 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 8 := N_1
  let t : Fin cfg1.N := ⟨(i 0).val / 1024, by rw [hN]; omega⟩
  obtain ⟨e00, e01, e10, e11, e20, e21, e30, e31⟩ := index_facts1 t
  have ht : t.val = (i 0).val / 1024 := rfl
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- The result array after the call: `a · w + b` of the operand arrays, index by index. -/
theorem final1 (c : Dev nD) :
    (dat1 V c).arrAt 3 cfg1.N
      = dense1 (V c (Pipeline.arrRef spec1 0)) (V c (Pipeline.arrRef spec1 1)) (V c (Pipeline.arrRef spec1 2)) :=
  (dat1 V c).arrAt_eq_of_cover 3 _ (fun t _ => flushed1_eq V c t) cover1

/-- That function at `(r, q)`. -/
theorem dense1_at (a : FVec Ideal S8192x1024 .f32) (w : FVec Ideal S1024x256 .f32) (b : FVec Ideal S1x256 .f32)
    (r : Fin 8192) (q : Fin 256) :
    dense1 a w b (ix2 r q) = (∑ k : Fin 1024, a (ix2 r k) * w (ix2 k q)) + b (ix2 (0 : Fin 1) q) := rfl

end Cert.KernelIdeal.Fr

end
-- ==== Proof.KIFinal2.lean ====
import proofs.«160839_j45148696215965_1_alg».proof.Proof.KIReg2
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 2 as one function of its operand arrays

The call's result array, after every grid point has written its block back, is `a · w + b` of the three operand
arrays as the call finds them: point `t` computes rows `1024 t` to `1024 t + 1023`, and the eight points cover the rows. -/

/-- The whole-buffer accesses start at the origin. -/
theorem zero_offsets2 : (![0, 0] : Fin 2 → Nat) = fun _ => 0 := funext fun a => by fin_cases a <;> rfl

/-- The block index maps over the grid: the row operand and the result move with the point, the weight and the bias
    stay at their one block. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding: at `(r, q)`, row `r` of `a` against column `q` of `w`, plus the bias at `q`. -/
def dense2 (a : FVec Ideal S8192x512 .f32) (w : FVec Ideal S512x512 .f32) (b : FVec Ideal S1x512 .f32) :
    FVec Ideal S8192x512 .f32 :=
  fun idx => (∑ k : Fin 512, a (ix2 (idx 0) k) * w (ix2 k (idx 1))) + b (ix2 (0 : Fin 1) (idx 1))

/-- The body's value at `(p, q)` of a block whose row `p` is row `r` of `a`. -/
theorem point2 (a : FVec Ideal S8192x512 .f32) (w : FVec Ideal S512x512 .f32) (b : FVec Ideal S1x512 .f32)
    (x0 : Vec Ideal S1024x512 .f32) (x1 : Vec Ideal S512x512 .f32) (x2 : Vec Ideal S1x512 .f32)
    (p : Fin 1024) (q : Fin 512) (r : Fin 8192)
    (h0 : ∀ k : Fin 512, x0 (ix2 p k) = a (ix2 r k)) (h1 : x1 = w) (h2 : x2 = b) :
    k2_pay1 (F := Ideal) x0 x1 x2 (ix2 p q) = dense2 a w b (ix2 r q) := by
  subst h1 h2
  rw [Cert.DenseValue.k2_pay1_at]
  show _ = (∑ k : Fin 512, a (ix2 r k) * x1 (ix2 k q)) + x2 (ix2 (0 : Fin 1) q)
  simp only [h0]

/-- What point `t` writes back is block `t` of that function of the operand arrays. -/
theorem flushed2_eq (c : Dev nD) (t : Fin cfg2.N) :
    (dat2 V c).flushed 3 t = ((cfg2.win 3).blk t).view.read (Elt Ideal)
      (dense2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets2]
  simp only [View.ld_unit_zero (S := S1024x512) zero_offsets2, View.ld_unit_zero (S := S512x512) zero_offsets2, View.ld_unit_zero (S := S1x512) zero_offsets2]
  obtain ⟨e00, e01, e10, e11, e20, e21, e30, e31⟩ := index_facts2 t
  have hN : t.val < 8 := by have h := t.isLt; have e : cfg2.N = 8 := N_2; omega
  funext y
  have hy0 : (y 0).val < 1024 := (y 0).isLt
  have hy1 : (y 1).val < 512 := (y 1).isLt
  have hx : (win2 3).xinj (grid2.coords t) y = ix2 (⟨(y 0).val, hy0⟩ : Fin 1024) (⟨(y 1).val, hy1⟩ : Fin 512) := by
    funext a
    match a with
    | ⟨0, _⟩ => rfl
    | ⟨1, _⟩ => rfl
  have he : ((cfg2.win 3).blk t).view.emb y
      = ix2 (⟨t.val * 1024 + (y 0).val, by omega⟩ : Fin 8192) (⟨(y 1).val, hy1⟩ : Fin 512) := by
    funext a; apply Fin.ext
    match a with
    | ⟨0, _⟩ => show win2_3.index t (0 : Fin 2) * 1024 + 1 * (y 0).val = t.val * 1024 + (y 0).val; omega
    | ⟨1, _⟩ => show win2_3.index t (1 : Fin 2) * 512 + 1 * (y 1).val = (y 1).val; omega
  show k2_pay1 (iblk2 V c 0 t) (iblk2 V c 1 t) (iblk2 V c 2 t) ((win2 3).xinj (grid2.coords t) y)
    = dense2 (V c (Pipeline.arrRef spec2 0)) (V c (Pipeline.arrRef spec2 1)) (V c (Pipeline.arrRef spec2 2))
        (((cfg2.win 3).blk t).view.emb y)
  refine (congrArg (k2_pay1 (iblk2 V c 0 t) (iblk2 V c 1 t) (iblk2 V c 2 t)) hx).trans ?_
  refine Eq.trans ?_ (congrArg (dense2 (V c (Pipeline.arrRef spec2 0)) (V c (Pipeline.arrRef spec2 1)) (V c (Pipeline.arrRef spec2 2))) he).symm
  refine point2 _ _ _ _ _ _ _ _ _ ?_ ?_ ?_
  · intro k
    show V c (Pipeline.arrRef spec2 0) (((cfg2.win 0).blk t).view.emb (ix2 (⟨(y 0).val, hy0⟩ : Fin 1024) k)) = _
    refine congrArg (V c (Pipeline.arrRef spec2 0)) ?_
    funext a; apply Fin.ext
    match a with
    | ⟨0, _⟩ => show win2_0.index t (0 : Fin 2) * 1024 + 1 * (y 0).val = t.val * 1024 + (y 0).val; omega
    | ⟨1, _⟩ => show win2_0.index t (1 : Fin 2) * 512 + 1 * k.val = k.val; omega
  · funext j
    show V c (Pipeline.arrRef spec2 1) (((cfg2.win 1).blk t).view.emb j) = V c (Pipeline.arrRef spec2 1) j
    refine congrArg (V c (Pipeline.arrRef spec2 1)) ?_
    funext a; apply Fin.ext
    match a with
    | ⟨0, _⟩ => show win2_1.index t (0 : Fin 2) * 512 + 1 * (j 0).val = (j 0).val; omega
    | ⟨1, _⟩ => show win2_1.index t (1 : Fin 2) * 512 + 1 * (j 1).val = (j 1).val; omega
  · funext j
    show V c (Pipeline.arrRef spec2 2) (((cfg2.win 2).blk t).view.emb j) = V c (Pipeline.arrRef spec2 2) j
    refine congrArg (V c (Pipeline.arrRef spec2 2)) ?_
    funext a; apply Fin.ext
    match a with
    | ⟨0, _⟩ => show win2_2.index t (0 : Fin 2) * 1 + 1 * (j 0).val = (j 0).val; omega
    | ⟨1, _⟩ => show win2_2.index t (1 : Fin 2) * 512 + 1 * (j 1).val = (j 1).val; omega

/-- An index of the result array is in point `t`'s block iff each coordinate is in the block's range on its axis. -/
theorem mem_blk2 (t : Fin cfg2.N) (i : S8192x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v36).slice (win2_3.rect t)).set ↔ _
  rw [View.set_slice_whole, Rect.mem_set_unit]
  exact Iff.rfl

/-- Every row lies in the block of the point `row / 1024`. -/
theorem cover2 (i : S8192x512.Idx) : ∃ t : Fin cfg2.N, (cfg2.win 3).flush t = true ∧ i ∈ ((cfg2.win 3).blk t).view.set := by
  have hi0 : (i 0).val < 8192 := (i 0).isLt
  have hi1 : (i 1).val < 512 := (i 1).isLt
  have hN : cfg2.N = 8 := N_2
  let t : Fin cfg2.N := ⟨(i 0).val / 1024, by rw [hN]; omega⟩
  obtain ⟨e00, e01, e10, e11, e20, e21, e30, e31⟩ := index_facts2 t
  have ht : t.val = (i 0).val / 1024 := rfl
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The result array after the call: `a · w + b` of the operand arrays, index by index. -/
theorem final2 (c : Dev nD) :
    (dat2 V c).arrAt 3 cfg2.N
      = dense2 (V c (Pipeline.arrRef spec2 0)) (V c (Pipeline.arrRef spec2 1)) (V c (Pipeline.arrRef spec2 2)) :=
  (dat2 V c).arrAt_eq_of_cover 3 _ (fun t _ => flushed2_eq V c t) cover2

/-- That function at `(r, q)`. -/
theorem dense2_at (a : FVec Ideal S8192x512 .f32) (w : FVec Ideal S512x512 .f32) (b : FVec Ideal S1x512 .f32)
    (r : Fin 8192) (q : Fin 512) :
    dense2 a w b (ix2 r q) = (∑ k : Fin 512, a (ix2 r k) * w (ix2 k q)) + b (ix2 (0 : Fin 1) q) := rfl

end Cert.KernelIdeal.Fr

end
-- ==== Proof.KIFinal3.lean ====
import proofs.«160839_j45148696215965_1_alg».proof.Proof.KIReg3
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 3 as one function of its operand arrays

The call's result array, after every grid point has written its block back, is `a · w + b` of the three operand
arrays as the call finds them: point `t` computes rows `1024 t` to `1024 t + 1023`, and the eight points cover the rows. -/

/-- The whole-buffer accesses start at the origin. -/
theorem zero_offsets3 : (![0, 0] : Fin 2 → Nat) = fun _ => 0 := funext fun a => by fin_cases a <;> rfl

/-- The block index maps over the grid: the row operand and the result move with the point, the weight and the bias
    stay at their one block. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the result array ends holding: at `(r, q)`, row `r` of `a` against column `q` of `w`, plus the bias at `q`. -/
def dense3 (a : FVec Ideal S8192x512 .f32) (w : FVec Ideal S512x256 .f32) (b : FVec Ideal S1x256 .f32) :
    FVec Ideal S8192x256 .f32 :=
  fun idx => (∑ k : Fin 512, a (ix2 (idx 0) k) * w (ix2 k (idx 1))) + b (ix2 (0 : Fin 1) (idx 1))

/-- The body's value at `(p, q)` of a block whose row `p` is row `r` of `a`. -/
theorem point3 (a : FVec Ideal S8192x512 .f32) (w : FVec Ideal S512x256 .f32) (b : FVec Ideal S1x256 .f32)
    (x0 : Vec Ideal S1024x512 .f32) (x1 : Vec Ideal S512x256 .f32) (x2 : Vec Ideal S1x256 .f32)
    (p : Fin 1024) (q : Fin 256) (r : Fin 8192)
    (h0 : ∀ k : Fin 512, x0 (ix2 p k) = a (ix2 r k)) (h1 : x1 = w) (h2 : x2 = b) :
    k3_pay1 (F := Ideal) x0 x1 x2 (ix2 p q) = dense3 a w b (ix2 r q) := by
  subst h1 h2
  rw [Cert.DenseValue.k3_pay1_at]
  show _ = (∑ k : Fin 512, a (ix2 r k) * x1 (ix2 k q)) + x2 (ix2 (0 : Fin 1) q)
  simp only [h0]

set_option maxHeartbeats 4000000 in
/-- What point `t` writes back is block `t` of that function of the operand arrays. -/
theorem flushed3_eq (c : Dev nD) (t : Fin cfg3.N) :
    (dat3 V c).flushed 3 t = ((cfg3.win 3).blk t).view.read (Elt Ideal)
      (dense3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets3]
  simp only [View.ld_unit_zero (S := S1024x512) zero_offsets3, View.ld_unit_zero (S := S512x256) zero_offsets3, View.ld_unit_zero (S := S1x256) zero_offsets3]
  obtain ⟨e00, e01, e10, e11, e20, e21, e30, e31⟩ := index_facts3 t
  have hN : t.val < 8 := by have h := t.isLt; have e : cfg3.N = 8 := N_3; omega
  funext y
  have hy0 : (y 0).val < 1024 := (y 0).isLt
  have hy1 : (y 1).val < 256 := (y 1).isLt
  have hx : (win3 3).xinj (grid3.coords t) y = ix2 (⟨(y 0).val, hy0⟩ : Fin 1024) (⟨(y 1).val, hy1⟩ : Fin 256) := by
    funext a
    match a with
    | ⟨0, _⟩ => rfl
    | ⟨1, _⟩ => rfl
  have he : ((cfg3.win 3).blk t).view.emb y
      = ix2 (⟨t.val * 1024 + (y 0).val, by omega⟩ : Fin 8192) (⟨(y 1).val, hy1⟩ : Fin 256) := by
    funext a; apply Fin.ext
    match a with
    | ⟨0, _⟩ => show win3_3.index t (0 : Fin 2) * 1024 + 1 * (y 0).val = t.val * 1024 + (y 0).val; omega
    | ⟨1, _⟩ => show win3_3.index t (1 : Fin 2) * 256 + 1 * (y 1).val = (y 1).val; omega
  show k3_pay1 (iblk3 V c 0 t) (iblk3 V c 1 t) (iblk3 V c 2 t) ((win3 3).xinj (grid3.coords t) y)
    = dense3 (V c (Pipeline.arrRef spec3 0)) (V c (Pipeline.arrRef spec3 1)) (V c (Pipeline.arrRef spec3 2))
        (((cfg3.win 3).blk t).view.emb y)
  refine (congrArg (k3_pay1 (iblk3 V c 0 t) (iblk3 V c 1 t) (iblk3 V c 2 t)) hx).trans ?_
  refine Eq.trans ?_ (congrArg (dense3 (V c (Pipeline.arrRef spec3 0)) (V c (Pipeline.arrRef spec3 1)) (V c (Pipeline.arrRef spec3 2))) he).symm
  refine point3 _ _ _ _ _ _ _ _ _ ?_ ?_ ?_
  · intro k
    show V c (Pipeline.arrRef spec3 0) (((cfg3.win 0).blk t).view.emb (ix2 (⟨(y 0).val, hy0⟩ : Fin 1024) k)) = _
    refine congrArg (V c (Pipeline.arrRef spec3 0)) ?_
    funext a; apply Fin.ext
    match a with
    | ⟨0, _⟩ => show win3_0.index t (0 : Fin 2) * 1024 + 1 * (y 0).val = t.val * 1024 + (y 0).val; omega
    | ⟨1, _⟩ => show win3_0.index t (1 : Fin 2) * 512 + 1 * k.val = k.val; omega
  · funext j
    show V c (Pipeline.arrRef spec3 1) (((cfg3.win 1).blk t).view.emb j) = V c (Pipeline.arrRef spec3 1) j
    refine congrArg (V c (Pipeline.arrRef spec3 1)) ?_
    funext a; apply Fin.ext
    match a with
    | ⟨0, _⟩ => show win3_1.index t (0 : Fin 2) * 512 + 1 * (j 0).val = (j 0).val; omega
    | ⟨1, _⟩ => show win3_1.index t (1 : Fin 2) * 256 + 1 * (j 1).val = (j 1).val; omega
  · funext j
    show V c (Pipeline.arrRef spec3 2) (((cfg3.win 2).blk t).view.emb j) = V c (Pipeline.arrRef spec3 2) j
    refine congrArg (V c (Pipeline.arrRef spec3 2)) ?_
    funext a; apply Fin.ext
    match a with
    | ⟨0, _⟩ => show win3_2.index t (0 : Fin 2) * 1 + 1 * (j 0).val = (j 0).val; omega
    | ⟨1, _⟩ => show win3_2.index t (1 : Fin 2) * 256 + 1 * (j 1).val = (j 1).val; omega

/-- An index of the result array is in point `t`'s block iff each coordinate is in the block's range on its axis. -/
theorem mem_blk3 (t : Fin cfg3.N) (i : S8192x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v54).slice (win3_3.rect t)).set ↔ _
  rw [View.set_slice_whole, Rect.mem_set_unit]
  exact Iff.rfl

/-- Every row lies in the block of the point `row / 1024`. -/
theorem cover3 (i : S8192x256.Idx) : ∃ t : Fin cfg3.N, (cfg3.win 3).flush t = true ∧ i ∈ ((cfg3.win 3).blk t).view.set := by
  have hi0 : (i 0).val < 8192 := (i 0).isLt
  have hi1 : (i 1).val < 256 := (i 1).isLt
  have hN : cfg3.N = 8 := N_3
  let t : Fin cfg3.N := ⟨(i 0).val / 1024, by rw [hN]; omega⟩
  obtain ⟨e00, e01, e10, e11, e20, e21, e30, e31⟩ := index_facts3 t
  have ht : t.val = (i 0).val / 1024 := rfl
  refine ⟨t, flush3_3 t, ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 256 ≤ (i 1).val ∧ (i 1).val < win3_3.index t (1 : Fin 2) * 256 + 256; omega

/-- The result array after the call: `a · w + b` of the operand arrays, index by index. -/
theorem final3 (c : Dev nD) :
    (dat3 V c).arrAt 3 cfg3.N
      = dense3 (V c (Pipeline.arrRef spec3 0)) (V c (Pipeline.arrRef spec3 1)) (V c (Pipeline.arrRef spec3 2)) :=
  (dat3 V c).arrAt_eq_of_cover 3 _ (fun t _ => flushed3_eq V c t) cover3

/-- That function at `(r, q)`. -/
theorem dense3_at (a : FVec Ideal S8192x512 .f32) (w : FVec Ideal S512x256 .f32) (b : FVec Ideal S1x256 .f32)
    (r : Fin 8192) (q : Fin 256) :
    dense3 a w b (ix2 r q) = (∑ k : Fin 512, a (ix2 r k) * w (ix2 k q)) + b (ix2 (0 : Fin 1) q) := rfl

end Cert.KernelIdeal.Fr

end
-- ==== Proof.KIFinal4.lean ====
import proofs.«160839_j45148696215965_1_alg».proof.Proof.KIReg4
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 4 as one function of its operand arrays

The call's result array, after every grid point has written its block back, is `a · w + b` of the three operand
arrays as the call finds them: point `t` computes rows `1024 t` to `1024 t + 1023`, and the eight points cover the rows. -/

/-- The whole-buffer accesses start at the origin. -/
theorem zero_offsets4 : (![0, 0] : Fin 2 → Nat) = fun _ => 0 := funext fun a => by fin_cases a <;> rfl

/-- The block index maps over the grid: the row operand and the result move with the point, the weight and the bias
    stay at their one block. -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What the result array ends holding: at `(r, q)`, row `r` of `a` against column `q` of `w`, plus the bias at `q`. -/
def dense4 (a : FVec Ideal S8192x768 .f32) (w : FVec Ideal S768x256 .f32) (b : FVec Ideal S1x256 .f32) :
    FVec Ideal S8192x256 .f32 :=
  fun idx => (∑ k : Fin 768, a (ix2 (idx 0) k) * w (ix2 k (idx 1))) + b (ix2 (0 : Fin 1) (idx 1))

/-- The body's value at `(p, q)` of a block whose row `p` is row `r` of `a`. -/
theorem point4 (a : FVec Ideal S8192x768 .f32) (w : FVec Ideal S768x256 .f32) (b : FVec Ideal S1x256 .f32)
    (x0 : Vec Ideal S1024x768 .f32) (x1 : Vec Ideal S768x256 .f32) (x2 : Vec Ideal S1x256 .f32)
    (p : Fin 1024) (q : Fin 256) (r : Fin 8192)
    (h0 : ∀ k : Fin 768, x0 (ix2 p k) = a (ix2 r k)) (h1 : x1 = w) (h2 : x2 = b) :
    k4_pay1 (F := Ideal) x0 x1 x2 (ix2 p q) = dense4 a w b (ix2 r q) := by
  subst h1 h2
  rw [Cert.DenseValue.k4_pay1_at]
  show _ = (∑ k : Fin 768, a (ix2 r k) * x1 (ix2 k q)) + x2 (ix2 (0 : Fin 1) q)
  simp only [h0]

set_option maxHeartbeats 4000000 in
/-- What point `t` writes back is block `t` of that function of the operand arrays. -/
theorem flushed4_eq (c : Dev nD) (t : Fin cfg4.N) :
    (dat4 V c).flushed 3 t = ((cfg4.win 3).blk t).view.read (Elt Ideal)
      (dense4 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_offsets4]
  simp only [View.ld_unit_zero (S := S1024x768) zero_offsets4, View.ld_unit_zero (S := S768x256) zero_offsets4, View.ld_unit_zero (S := S1x256) zero_offsets4]
  obtain ⟨e00, e01, e10, e11, e20, e21, e30, e31⟩ := index_facts4 t
  have hN : t.val < 8 := by have h := t.isLt; have e : cfg4.N = 8 := N_4; omega
  funext y
  have hy0 : (y 0).val < 1024 := (y 0).isLt
  have hy1 : (y 1).val < 256 := (y 1).isLt
  have hx : (win4 3).xinj (grid4.coords t) y = ix2 (⟨(y 0).val, hy0⟩ : Fin 1024) (⟨(y 1).val, hy1⟩ : Fin 256) := by
    funext a
    match a with
    | ⟨0, _⟩ => rfl
    | ⟨1, _⟩ => rfl
  have he : ((cfg4.win 3).blk t).view.emb y
      = ix2 (⟨t.val * 1024 + (y 0).val, by omega⟩ : Fin 8192) (⟨(y 1).val, hy1⟩ : Fin 256) := by
    funext a; apply Fin.ext
    match a with
    | ⟨0, _⟩ => show win4_3.index t (0 : Fin 2) * 1024 + 1 * (y 0).val = t.val * 1024 + (y 0).val; omega
    | ⟨1, _⟩ => show win4_3.index t (1 : Fin 2) * 256 + 1 * (y 1).val = (y 1).val; omega
  show k4_pay1 (iblk4 V c 0 t) (iblk4 V c 1 t) (iblk4 V c 2 t) ((win4 3).xinj (grid4.coords t) y)
    = dense4 (V c (Pipeline.arrRef spec4 0)) (V c (Pipeline.arrRef spec4 1)) (V c (Pipeline.arrRef spec4 2))
        (((cfg4.win 3).blk t).view.emb y)
  refine (congrArg (k4_pay1 (iblk4 V c 0 t) (iblk4 V c 1 t) (iblk4 V c 2 t)) hx).trans ?_
  refine Eq.trans ?_ (congrArg (dense4 (V c (Pipeline.arrRef spec4 0)) (V c (Pipeline.arrRef spec4 1)) (V c (Pipeline.arrRef spec4 2))) he).symm
  refine point4 _ _ _ _ _ _ _ _ _ ?_ ?_ ?_
  · intro k
    show V c (Pipeline.arrRef spec4 0) (((cfg4.win 0).blk t).view.emb (ix2 (⟨(y 0).val, hy0⟩ : Fin 1024) k)) = _
    refine congrArg (V c (Pipeline.arrRef spec4 0)) ?_
    funext a; apply Fin.ext
    match a with
    | ⟨0, _⟩ => show win4_0.index t (0 : Fin 2) * 1024 + 1 * (y 0).val = t.val * 1024 + (y 0).val; omega
    | ⟨1, _⟩ => show win4_0.index t (1 : Fin 2) * 768 + 1 * k.val = k.val; omega
  · funext j
    show V c (Pipeline.arrRef spec4 1) (((cfg4.win 1).blk t).view.emb j) = V c (Pipeline.arrRef spec4 1) j
    refine congrArg (V c (Pipeline.arrRef spec4 1)) ?_
    funext a; apply Fin.ext
    match a with
    | ⟨0, _⟩ => show win4_1.index t (0 : Fin 2) * 768 + 1 * (j 0).val = (j 0).val; omega
    | ⟨1, _⟩ => show win4_1.index t (1 : Fin 2) * 256 + 1 * (j 1).val = (j 1).val; omega
  · funext j
    show V c (Pipeline.arrRef spec4 2) (((cfg4.win 2).blk t).view.emb j) = V c (Pipeline.arrRef spec4 2) j
    refine congrArg (V c (Pipeline.arrRef spec4 2)) ?_
    funext a; apply Fin.ext
    match a with
    | ⟨0, _⟩ => show win4_2.index t (0 : Fin 2) * 1 + 1 * (j 0).val = (j 0).val; omega
    | ⟨1, _⟩ => show win4_2.index t (1 : Fin 2) * 256 + 1 * (j 1).val = (j 1).val; omega

/-- An index of the result array is in point `t`'s block iff each coordinate is in the block's range on its axis. -/
theorem mem_blk4 (t : Fin cfg4.N) (i : S8192x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v73).slice (win4_3.rect t)).set ↔ _
  rw [View.set_slice_whole, Rect.mem_set_unit]
  exact Iff.rfl

/-- Every row lies in the block of the point `row / 1024`. -/
theorem cover4 (i : S8192x256.Idx) : ∃ t : Fin cfg4.N, (cfg4.win 3).flush t = true ∧ i ∈ ((cfg4.win 3).blk t).view.set := by
  have hi0 : (i 0).val < 8192 := (i 0).isLt
  have hi1 : (i 1).val < 256 := (i 1).isLt
  have hN : cfg4.N = 8 := N_4
  let t : Fin cfg4.N := ⟨(i 0).val / 1024, by rw [hN]; omega⟩
  obtain ⟨e00, e01, e10, e11, e20, e21, e30, e31⟩ := index_facts4 t
  have ht : t.val = (i 0).val / 1024 := rfl
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 256 ≤ (i 1).val ∧ (i 1).val < win4_3.index t (1 : Fin 2) * 256 + 256; omega

/-- The result array after the call: `a · w + b` of the operand arrays, index by index. -/
theorem final4 (c : Dev nD) :
    (dat4 V c).arrAt 3 cfg4.N
      = dense4 (V c (Pipeline.arrRef spec4 0)) (V c (Pipeline.arrRef spec4 1)) (V c (Pipeline.arrRef spec4 2)) :=
  (dat4 V c).arrAt_eq_of_cover 3 _ (fun t _ => flushed4_eq V c t) cover4

/-- That function at `(r, q)`. -/
theorem dense4_at (a : FVec Ideal S8192x768 .f32) (w : FVec Ideal S768x256 .f32) (b : FVec Ideal S1x256 .f32)
    (r : Fin 8192) (q : Fin 256) :
    dense4 a w b (ix2 r q) = (∑ k : Fin 768, a (ix2 r k) * w (ix2 k q)) + b (ix2 (0 : Fin 1) q) := rfl

end Cert.KernelIdeal.Fr

end
-- ==== Proof.KIFinal5.lean ====
import proofs.«160839_j45148696215965_1_alg».proof.Proof.KIReg5
import proofs.«160839_j45148696215965_1_alg».proof.Proof.PayloadsAt
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Pallas call 5 as one function of its operand array

Both input windows read one array `z`; the grid has 8 × 8 points, point `t` at coordinates `(t / 8, t % 8)`. The result
array, after every point has written its block back, is at `(r, s)` the logistic function of row `r` of `z` against row
`s` of `z`: point `t` computes the rows of block `t / 8` against the rows of block `t % 8`, and the 64 points cover the
array. -/

/-- The whole-buffer accesses start at the origin. -/
theorem zero_offsets5 : (![0, 0] : Fin 2 → Nat) = fun _ => 0 := funext fun a => by fin_cases a <;> rfl

/-- The block index maps over the grid: the first window's row block is the point's first coordinate, the second
    window's row block its second, and the result's block is the pair. -/
theorem index_facts5 : ∀ t : Fin cfg5.N,
    win5_0.index t (0 : Fin 2) = t.val / 8 ∧ win5_0.index t (1 : Fin 2) = 0
    ∧ win5_1.index t (0 : Fin 2) = t.val % 8 ∧ win5_1.index t (1 : Fin 2) = 0
    ∧ win5_2.index t (0 : Fin 2) = t.val / 8 ∧ win5_2.index t (1 : Fin 2) = t.val % 8 :=
  (by decide +kernel : ∀ t : Fin grid5.N, _)

/-- What the result array ends holding: at `(r, s)`, the logistic function of row `r` of `z` against row `s` of `z`. -/
def gramLogistic5 (z : FVec Ideal S8192x512 .f32) : FVec Ideal S8192x8192 .f32 :=
  fun idx => Ideal.logistic (∑ k : Fin 512, z (ix2 (idx 0) k) * z (ix2 (idx 1) k))

/-- The body's value at `(p, q)` of two blocks whose rows `p` and `q` are rows `r` and `s` of `z`. -/
theorem point5 (z : FVec Ideal S8192x512 .f32) (x0 x1 : Vec Ideal S1024x512 .f32) (p q : Fin 1024) (r s : Fin 8192)
    (h0 : ∀ k : Fin 512, x0 (ix2 p k) = z (ix2 r k)) (h1 : ∀ k : Fin 512, x1 (ix2 q k) = z (ix2 s k)) :
    k5_pay1 (F := Ideal) x0 x1 (ix2 p q) = gramLogistic5 z (ix2 r s) := by
  rw [Cert.DenseValue.k5_pay1_at]
  show _ = Ideal.logistic (∑ k : Fin 512, z (ix2 r k) * z (ix2 s k))
  simp only [h0, h1]

/-- What point `t` writes back is block `t` of that function of the operand array. -/
theorem flushed5_eq (c : Dev nD) (t : Fin cfg5.N) :
    (dat5 V c).flushed 2 t = ((cfg5.win 2).blk t).view.read (Elt Ideal) (gramLogistic5 (V c (Pipeline.arrRef spec5 0))) := by
  show (cfg5.win 2).cut (grid5.coords t) ((dat5 V c).after 2 t) = _
  rw [after5_2]
  unfold out5_2
  rw [View.canon_unit_zero zero_offsets5]
  simp only [View.ld_unit_zero (S := S1024x512) zero_offsets5]
  obtain ⟨e00, e01, e10, e11, e20, e21⟩ := index_facts5 t
  have hN : t.val < 64 := by have h := t.isLt; have e : cfg5.N = 64 := N_5; omega
  funext y
  have hy0 : (y 0).val < 1024 := (y 0).isLt
  have hy1 : (y 1).val < 1024 := (y 1).isLt
  have hx : (win5 2).xinj (grid5.coords t) y = ix2 (⟨(y 0).val, hy0⟩ : Fin 1024) (⟨(y 1).val, hy1⟩ : Fin 1024) := by
    funext a
    match a with
    | ⟨0, _⟩ => rfl
    | ⟨1, _⟩ => rfl
  have he : ((cfg5.win 2).blk t).view.emb y
      = ix2 (⟨t.val / 8 * 1024 + (y 0).val, by omega⟩ : Fin 8192) (⟨t.val % 8 * 1024 + (y 1).val, by omega⟩ : Fin 8192) := by
    funext a; apply Fin.ext
    match a with
    | ⟨0, _⟩ => show win5_2.index t (0 : Fin 2) * 1024 + 1 * (y 0).val = t.val / 8 * 1024 + (y 0).val; omega
    | ⟨1, _⟩ => show win5_2.index t (1 : Fin 2) * 1024 + 1 * (y 1).val = t.val % 8 * 1024 + (y 1).val; omega
  show k5_pay1 (iblk5 V c 0 t) (iblk5 V c 1 t) ((win5 2).xinj (grid5.coords t) y)
    = gramLogistic5 (V c (Pipeline.arrRef spec5 0)) (((cfg5.win 2).blk t).view.emb y)
  refine (congrArg (k5_pay1 (iblk5 V c 0 t) (iblk5 V c 1 t)) hx).trans ?_
  refine Eq.trans ?_ (congrArg (gramLogistic5 (V c (Pipeline.arrRef spec5 0))) he).symm
  refine point5 _ _ _ _ _ _ _ ?_ ?_
  · intro k
    show V c (Pipeline.arrRef spec5 0) (((cfg5.win 0).blk t).view.emb (ix2 (⟨(y 0).val, hy0⟩ : Fin 1024) k)) = _
    refine congrArg (V c (Pipeline.arrRef spec5 0)) ?_
    funext a; apply Fin.ext
    match a with
    | ⟨0, _⟩ => show win5_0.index t (0 : Fin 2) * 1024 + 1 * (y 0).val = t.val / 8 * 1024 + (y 0).val; omega
    | ⟨1, _⟩ => show win5_0.index t (1 : Fin 2) * 512 + 1 * k.val = k.val; omega
  · intro k
    show V c (Pipeline.arrRef spec5 0) (((cfg5.win 1).blk t).view.emb (ix2 (⟨(y 1).val, hy1⟩ : Fin 1024) k)) = _
    refine congrArg (V c (Pipeline.arrRef spec5 0)) ?_
    funext a; apply Fin.ext
    match a with
    | ⟨0, _⟩ => show win5_1.index t (0 : Fin 2) * 1024 + 1 * (y 1).val = t.val % 8 * 1024 + (y 1).val; omega
    | ⟨1, _⟩ => show win5_1.index t (1 : Fin 2) * 512 + 1 * k.val = k.val; omega

/-- An index of the result array is in point `t`'s block iff each coordinate is in the block's range on its axis. -/
theorem mem_blk5 (t : Fin cfg5.N) (i : S8192x8192.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v75).slice (win5_2.rect t)).set ↔ _
  rw [View.set_slice_whole, Rect.mem_set_unit]
  exact Iff.rfl

/-- Every index lies in the block of the point `(row / 1024, column / 1024)`. -/
theorem cover5 (i : S8192x8192.Idx) : ∃ t : Fin cfg5.N, (cfg5.win 2).flush t = true ∧ i ∈ ((cfg5.win 2).blk t).view.set := by
  have hi0 : (i 0).val < 8192 := (i 0).isLt
  have hi1 : (i 1).val < 8192 := (i 1).isLt
  have hN : cfg5.N = 64 := N_5
  let t : Fin cfg5.N := ⟨(i 0).val / 1024 * 8 + (i 1).val / 1024, by rw [hN]; omega⟩
  obtain ⟨e00, e01, e10, e11, e20, e21⟩ := index_facts5 t
  have ht : t.val = (i 0).val / 1024 * 8 + (i 1).val / 1024 := rfl
  refine ⟨t, flush5_2 t, ?_⟩
  rw [mem_blk5]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 1024 ≤ (i 1).val ∧ (i 1).val < win5_2.index t (1 : Fin 2) * 1024 + 1024; omega

/-- The result array after the call: the logistic function of row against row of the operand array, index by index. -/
theorem final5 (c : Dev nD) :
    (dat5 V c).arrAt 2 cfg5.N = gramLogistic5 (V c (Pipeline.arrRef spec5 0)) :=
  (dat5 V c).arrAt_eq_of_cover 2 _ (fun t _ => flushed5_eq V c t) cover5

/-- That function at `(r, s)`. -/
theorem gramLogistic5_at (z : FVec Ideal S8192x512 .f32) (r s : Fin 8192) :
    gramLogistic5 z (ix2 r s) = Ideal.logistic (∑ k : Fin 512, z (ix2 r k) * z (ix2 s k)) := rfl

end Cert.KernelIdeal.Fr

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.HostDenseAt.lean ====
/-
  The reference's dense stages read at an index, over the extended reals.

  A dense stage is the host's product of an [A,K] array with a [K,N] weight plus a bias vector [N] placed as a row and
  stretched over the rows; at `(i, j)` it is the sum over `k` of `a (i, k) · w (k, j)`, plus `bias j`. The maximum with
  a broadcast zero is the maximum with `0`. The closing stage — the product of an array with its own transpose, negated,
  exponentiated, one added, and one divided by the result — is the logistic function of the product of two rows. Last,
  three forms the host code around the kernels uses: a vector recast as a one-row matrix, a zero scalar broadcast to
  any shape, and two matrices joined along the column axis.
-/
import proofs.«160839_j45148696215965_1_alg».proof.ReferenceIdeal
import proofs.«160839_j45148696215965_1_alg».proof.Proof.LibColumnBlocks
import proofs.«160839_j45148696215965_1_alg».proof.Proof.LibCastForms
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.HostDense

open Idealize.ShloMosaic Idealize.ShloMosaic.ValueIdx

/-! ## General forms -/

section General
variable {A K N : ℕ}

/-- A dense stage at `(i, j)`: the row of `a` against the column of `w`, plus the bias at `j`. -/
theorem dense_at (d : DotDims ⟨2, ![A, K]⟩ ⟨2, ![K, N]⟩ ⟨2, ![A, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (h1 : (⟨1, ![N]⟩ : Shape).BroadcastsInDim ⟨2, ![1, N]⟩ (![1] : Fin 1 → Fin 2))
    (h2 : (⟨2, ![1, N]⟩ : Shape).BroadcastsInDim ⟨2, ![A, N]⟩ (![0, 1] : Fin 2 → Fin 2))
    (a : FVec Ideal ⟨2, ![A, K]⟩ .f32) (w : FVec Ideal ⟨2, ![K, N]⟩ .f32) (bias : FVec Ideal ⟨1, ![N]⟩ .f32)
    (i : Fin A) (j : Fin N) :
    addf (Host.dotGeneral d none a w)
        (broadcastInDim ⟨2, ![A, N]⟩ (![0, 1] : Fin 2 → Fin 2) h2 (broadcastInDim ⟨2, ![1, N]⟩ (![1] : Fin 1 → Fin 2) h1 bias)) (ix2 i j)
      = (∑ k : Fin K, a (ix2 i k) * w (ix2 k j)) + bias (ix1 j) := by
  rw [addf_apply, LibCastForms.bcast_1b_ab_apply, LibCastForms.bcast_row]
  exact congrArg (· + bias (ix1 j)) (LibColumnBlocks.hostDot_apply d hr hs hlc hrc hl0 hr1 a w i j none)

/-- A bias vector placed as a row and stretched over the rows, added to an array: at `(i, j)` the array's entry plus
    the bias at `j`. -/
theorem bias_add_at (h1 : (⟨1, ![N]⟩ : Shape).BroadcastsInDim ⟨2, ![1, N]⟩ (![1] : Fin 1 → Fin 2))
    (h2 : (⟨2, ![1, N]⟩ : Shape).BroadcastsInDim ⟨2, ![A, N]⟩ (![0, 1] : Fin 2 → Fin 2))
    (s : FVec Ideal ⟨2, ![A, N]⟩ .f32) (bias : FVec Ideal ⟨1, ![N]⟩ .f32) (i : Fin A) (j : Fin N) :
    addf s (broadcastInDim ⟨2, ![A, N]⟩ (![0, 1] : Fin 2 → Fin 2) h2 (broadcastInDim ⟨2, ![1, N]⟩ (![1] : Fin 1 → Fin 2) h1 bias)) (ix2 i j)
      = s (ix2 i j) + bias (ix1 j) := by
  rw [addf_apply, LibCastForms.bcast_1b_ab_apply, LibCastForms.bcast_row]

/-- The maximum with a broadcast zero scalar is the maximum with `0`. -/
theorem relu_at {T : Shape} (h : (⟨0, ![]⟩ : Shape).BroadcastsInDim T ![]) (v : FVec Ideal T .f32) (j : T.Idx) :
    maximumf v (broadcastInDim T ![] h (constant (F := Ideal) ⟨0, ![]⟩ .f32 0x00000000#32)) j = max (v j) 0 := by
  rw [maximumf_apply, broadcastInDim_scalar_apply, constant_apply, Ideal.ofBits_zero_f32]

/-- A zero scalar broadcast to any shape reads `0`. -/
theorem zero_bcast_at {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- A vector recast as a one-row matrix reads, at `(0, j)`, the vector at `j`. -/
theorem row_cast_at {α : Type} (x : (⟨1, ![N]⟩ : Shape).Idx → α) (h : (⟨1, ![N]⟩ : Shape).ShapeCasts ⟨2, ![1, N]⟩)
    (u : Fin 1) (j : Fin N) : shapeCast ⟨2, ![1, N]⟩ x h (ix2 u j) = x (ix1 j) :=
  shapeCast_a_1a_apply x h u j

/-- Two matrices joined along the column axis, at `(a, b)`: the first at `(a, b)` when `b` is inside it, else the
    second at `(a, b - B1)`. -/
theorem cat2_at {α : Type} {B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (hB : B = B1 + B2) (a : Fin A) (b : Fin B) :
    concatenate ⟨2, ![A, B]⟩ 1 [⟨⟨2, ![A, B1]⟩, x₁⟩, ⟨⟨2, ![A, B2]⟩, x₂⟩] h (ix2 a b)
      = if hb : b.val < B1 then x₁ (ix2 a ⟨b.val, hb⟩)
        else x₂ (ix2 a ⟨b.val - B1, by have := b.isLt; omega⟩) := by
  split
  · next hb => exact LibColumnBlocks.cat2_left x₁ x₂ h a b hb
  · next hb => exact LibColumnBlocks.cat2_right x₁ x₂ h a b (by omega) (by have := b.isLt; omega)

end General

/-! ## The product with the own transpose, and the closing logistic stage -/

section Tail
variable {A K : ℕ}

/-- The product of `z` with its transpose at `(i, j)`: row `i` against row `j`. -/
theorem gram_at (d : DotDims ⟨2, ![A, K]⟩ ⟨2, ![K, A]⟩ ⟨2, ![A, A]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (ht : (⟨2, ![A, K]⟩ : Shape).Transposes [1, 0] ⟨2, ![K, A]⟩)
    (z : FVec Ideal ⟨2, ![A, K]⟩ .f32) (i j : Fin A) :
    Host.dotGeneral d none z (transpose ⟨2, ![K, A]⟩ [1, 0] z ht) (ix2 i j) = ∑ k : Fin K, z (ix2 i k) * z (ix2 j k) := by
  refine (LibColumnBlocks.hostDot_apply d hr hs hlc hrc hl0 hr1 z (transpose ⟨2, ![K, A]⟩ [1, 0] z ht) i j none).trans ?_
  refine Finset.sum_congr rfl fun k _ => congrArg (z (ix2 i k) * ·) ?_
  exact transpose_apply [1, 0] z ht (ix2 k j) (ix2 j k) fun b => by
    match b with
    | ⟨0, _⟩ => rfl
    | ⟨1, _⟩ => rfl

/-- One over one plus the exponential of the negation, all on the host, is the logistic function. -/
theorem logistic_tail_at {T : Shape} (h : (⟨0, ![]⟩ : Shape).BroadcastsInDim T ![]) (v : FVec Ideal T .f32) (j : T.Idx) :
    Host.divf (broadcastInDim T ![] h (constant (F := Ideal) ⟨0, ![]⟩ .f32 0x3F800000#32))
        (addf (broadcastInDim T ![] h (constant (F := Ideal) ⟨0, ![]⟩ .f32 0x3F800000#32)) (Host.exp (Host.negf v))) j
      = Ideal.logistic (v j) := by
  rw [hostDivf_apply, addf_apply, broadcastInDim_scalar_apply, constant_apply, Ideal.ofBits_one_f32]
  rfl

end Tail

/-! ## The reference's stages, as its program spells them -/

section Reference
open Cert.ReferenceIdeal Cert.ReferenceIdeal.Facts₀
variable [Cert.ReferenceIdeal.Facts₀]

/-- The first dense stage before its maximum (the program's %30 to %33): [8192,512] by [512,512], bias [512]. -/
theorem ref_dense1_at (a : FVec Ideal S8192x512 .f32) (w : FVec Ideal S512x512 .f32) (bias : FVec Ideal S512 .f32)
    (i : Fin 8192) (j : Fin 512) :
    addf (F := Ideal) (Host.dotGeneral dot_S8192x512_S512x512_S8192x512_1_0_0_1_n_n none a w)
        (broadcastInDim S8192x512 ![0, 1] bcast_S1x512_S8192x512_0_1 (broadcastInDim S1x512 ![1] bcast_S512_S1x512_1 bias)) (ix2 i j)
      = (∑ k : Fin 512, a (ix2 i k) * w (ix2 k j)) + bias (ix1 j) :=
  dense_at dot_S8192x512_S512x512_S8192x512_1_0_0_1_n_n rfl rfl rfl rfl (fun _ _ => rfl) (fun _ _ => rfl)
    bcast_S512_S1x512_1 bcast_S1x512_S8192x512_0_1 a w bias i j

/-- The second dense stage (the program's %36 to %39): [8192,1024] by [1024,256], bias [256]. -/
theorem ref_dense2_at (a : FVec Ideal S8192x1024 .f32) (w : FVec Ideal S1024x256 .f32) (bias : FVec Ideal S256 .f32)
    (i : Fin 8192) (j : Fin 256) :
    addf (F := Ideal) (Host.dotGeneral dot_S8192x1024_S1024x256_S8192x256_1_0_0_1_n_n none a w)
        (broadcastInDim S8192x256 ![0, 1] bcast_S1x256_S8192x256_0_1 (broadcastInDim S1x256 ![1] bcast_S256_S1x256_1 bias)) (ix2 i j)
      = (∑ k : Fin 1024, a (ix2 i k) * w (ix2 k j)) + bias (ix1 j) :=
  dense_at dot_S8192x1024_S1024x256_S8192x256_1_0_0_1_n_n rfl rfl rfl rfl (fun _ _ => rfl) (fun _ _ => rfl)
    bcast_S256_S1x256_1 bcast_S1x256_S8192x256_0_1 a w bias i j

/-- The last dense stage (the program's %75 to %78): [8192,768] by [768,256], bias [256]. -/
theorem ref_dense5_at (a : FVec Ideal S8192x768 .f32) (w : FVec Ideal S768x256 .f32) (bias : FVec Ideal S256 .f32)
    (i : Fin 8192) (j : Fin 256) :
    addf (F := Ideal) (Host.dotGeneral dot_S8192x768_S768x256_S8192x256_1_0_0_1_n_n none a w)
        (broadcastInDim S8192x256 ![0, 1] bcast_S1x256_S8192x256_0_1 (broadcastInDim S1x256 ![1] bcast_S256_S1x256_1 bias)) (ix2 i j)
      = (∑ k : Fin 768, a (ix2 i k) * w (ix2 k j)) + bias (ix1 j) :=
  dense_at dot_S8192x768_S768x256_S8192x256_1_0_0_1_n_n rfl rfl rfl rfl (fun _ _ => rfl) (fun _ _ => rfl)
    bcast_S256_S1x256_1 bcast_S1x256_S8192x256_0_1 a w bias i j

/-- The plain product [8192,512] by [512,512] (the program's %40). -/
theorem ref_dot3_at (a : FVec Ideal S8192x512 .f32) (w : FVec Ideal S512x512 .f32) (i : Fin 8192) (j : Fin 512) :
    Host.dotGeneral dot_S8192x512_S512x512_S8192x512_1_0_0_1_n_n none a w (ix2 i j) = ∑ k : Fin 512, a (ix2 i k) * w (ix2 k j) :=
  LibColumnBlocks.hostDot_apply dot_S8192x512_S512x512_S8192x512_1_0_0_1_n_n rfl rfl rfl rfl (fun _ _ => rfl) (fun _ _ => rfl)
    a w i j none

/-- The plain product [8192,512] by [512,256] (the program's %57). -/
theorem ref_dot4_at (a : FVec Ideal S8192x512 .f32) (w : FVec Ideal S512x256 .f32) (i : Fin 8192) (j : Fin 256) :
    Host.dotGeneral dot_S8192x512_S512x256_S8192x256_1_0_0_1_n_n none a w (ix2 i j) = ∑ k : Fin 512, a (ix2 i k) * w (ix2 k j) :=
  LibColumnBlocks.hostDot_apply dot_S8192x512_S512x256_S8192x256_1_0_0_1_n_n rfl rfl rfl rfl (fun _ _ => rfl) (fun _ _ => rfl)
    a w i j none

/-- A bias [512] added to every row of an [8192,512] array (the program's %54 to %56). -/
theorem ref_bias512_at (s : FVec Ideal S8192x512 .f32) (bias : FVec Ideal S512 .f32) (i : Fin 8192) (j : Fin 512) :
    addf (F := Ideal) s (broadcastInDim S8192x512 ![0, 1] bcast_S1x512_S8192x512_0_1 (broadcastInDim S1x512 ![1] bcast_S512_S1x512_1 bias)) (ix2 i j)
      = s (ix2 i j) + bias (ix1 j) :=
  bias_add_at bcast_S512_S1x512_1 bcast_S1x512_S8192x512_0_1 s bias i j

/-- A bias [256] added to every row of an [8192,256] array (the program's %71 to %73). -/
theorem ref_bias256_at (s : FVec Ideal S8192x256 .f32) (bias : FVec Ideal S256 .f32) (i : Fin 8192) (j : Fin 256) :
    addf (F := Ideal) s (broadcastInDim S8192x256 ![0, 1] bcast_S1x256_S8192x256_0_1 (broadcastInDim S1x256 ![1] bcast_S256_S1x256_1 bias)) (ix2 i j)
      = s (ix2 i j) + bias (ix1 j) :=
  bias_add_at bcast_S256_S1x256_1 bcast_S1x256_S8192x256_0_1 s bias i j

/-- The maximum with zero (the program's %34, through its function for it). -/
theorem ref_relu_at (v : FVec Ideal S8192x512 .f32) (j : S8192x512.Idx) :
    maximumf v (broadcastInDim S8192x512 ![] bcast_S_S8192x512 (constant (F := Ideal) S_ .f32 0x00000000#32)) j = max (v j) 0 :=
  relu_at bcast_S_S8192x512 v j

/-- The closing stage (the program's %80 to %87) of an [8192,512] array `z`, at `(i, j)`: the logistic function of row
    `i` of `z` against row `j` of `z`. -/
theorem ref_tail_at (z : FVec Ideal S8192x512 .f32) (i j : Fin 8192) :
    Host.divf (broadcastInDim S8192x8192 ![] bcast_S_S8192x8192 (constant (F := Ideal) S_ .f32 0x3F800000#32))
        (addf (broadcastInDim S8192x8192 ![] bcast_S_S8192x8192 (constant (F := Ideal) S_ .f32 0x3F800000#32))
          (Host.exp (Host.negf (Host.dotGeneral dot_S8192x512_S512x8192_S8192x8192_1_0_0_1_n_n none z
            (transpose S512x8192 [1, 0] z transposes_S8192x512_S512x8192_1_0))))) (ix2 i j)
      = Ideal.logistic (∑ k : Fin 512, z (ix2 i k) * z (ix2 j k)) :=
  (logistic_tail_at bcast_S_S8192x8192 _ (ix2 i j)).trans (congrArg Ideal.logistic
    (gram_at dot_S8192x512_S512x8192_S8192x8192_1_0_0_1_n_n rfl rfl rfl rfl (fun _ _ => rfl) (fun _ _ => rfl)
      transposes_S8192x512_S512x8192_1_0 z i j))

/-- The three joins along the column axis the program makes (its %35, %74, %79), at `(i, j)`. -/
theorem ref_cat_512_512_at (a b : FVec Ideal S8192x512 .f32) (i : Fin 8192) (j : Fin 1024) :
    concatenate S8192x1024 1 [⟨S8192x512, a⟩, ⟨S8192x512, b⟩] concatenates_S8192x512_S8192x512_S8192x1024_d1 (ix2 i j)
      = if hb : j.val < 512 then a (ix2 i ⟨j.val, hb⟩) else b (ix2 i ⟨j.val - 512, by have := j.isLt; omega⟩) :=
  cat2_at a b concatenates_S8192x512_S8192x512_S8192x1024_d1 rfl i j

theorem ref_cat_512_256_at (a : FVec Ideal S8192x512 .f32) (b : FVec Ideal S8192x256 .f32) (i : Fin 8192) (j : Fin 768) :
    concatenate S8192x768 1 [⟨S8192x512, a⟩, ⟨S8192x256, b⟩] concatenates_S8192x512_S8192x256_S8192x768_d1 (ix2 i j)
      = if hb : j.val < 512 then a (ix2 i ⟨j.val, hb⟩) else b (ix2 i ⟨j.val - 512, by have := j.isLt; omega⟩) :=
  cat2_at a b concatenates_S8192x512_S8192x256_S8192x768_d1 rfl i j

theorem ref_cat_256_256_at (a b : FVec Ideal S8192x256 .f32) (i : Fin 8192) (j : Fin 512) :
    concatenate S8192x512 1 [⟨S8192x256, a⟩, ⟨S8192x256, b⟩] concatenates_S8192x256_S8192x256_S8192x512_d1 (ix2 i j)
      = if hb : j.val < 256 then a (ix2 i ⟨j.val, hb⟩) else b (ix2 i ⟨j.val - 256, by have := j.isLt; omega⟩) :=
  cat2_at a b concatenates_S8192x256_S8192x256_S8192x512_d1 rfl i j

end Reference

end Cert.HostDense

end
-- ==== Proof.RefStages.lean ====
/-
  The dense stages of the reference program as whole-array functions, written exactly as the reference's own operations
  spell them, and what each holds at an index (i, j): a matrix product is the sum over the contracted coordinate, a bias
  vector stretched over the rows adds its j-th entry, a maximum with the zero array is the maximum with 0, and
  1 / (1 + exp (−x)) is the logistic function of x.
-/
import proofs.«160839_j45148696215965_1_alg».proof.ReferenceIdeal
import proofs.«160839_j45148696215965_1_alg».proof.Proof.HostDenseAt

noncomputable section

namespace Cert.RefStages

open Cert.ReferenceIdeal Cert.ReferenceIdeal.Facts₀ Cert.HostDense Idealize.ShloMosaic Idealize.ShloMosaic.ValueIdx

variable [Cert.ReferenceIdeal.Facts₀]

/-- relu (a · w + b): the first linear layer. -/
abbrev lin1 (a : FVec Ideal S8192x512 .f32) (w : FVec Ideal S512x512 .f32) (b : FVec Ideal S512 .f32) : FVec Ideal S8192x512 .f32 :=
  maximumf (addf (F := Ideal) (Host.dotGeneral dot_S8192x512_S512x512_S8192x512_1_0_0_1_n_n none a w) (broadcastInDim S8192x512 ![0, 1] bcast_S1x512_S8192x512_0_1 (broadcastInDim S1x512 ![1] bcast_S512_S1x512_1 b))) (broadcastInDim S8192x512 ![] bcast_S_S8192x512 (constant (F := Ideal) S_ .f32 0x00000000#32))

/-- a · w + b on [8192, 1024] × [1024, 256]: the second linear layer. -/
abbrev lin2 (a : FVec Ideal S8192x1024 .f32) (w : FVec Ideal S1024x256 .f32) (b : FVec Ideal S256 .f32) : FVec Ideal S8192x256 .f32 :=
  addf (F := Ideal) (Host.dotGeneral dot_S8192x1024_S1024x256_S8192x256_1_0_0_1_n_n none a w) (broadcastInDim S8192x256 ![0, 1] bcast_S1x256_S8192x256_0_1 (broadcastInDim S1x256 ![1] bcast_S256_S1x256_1 b))

/-- a · w on [8192, 512] × [512, 512]: the first graph layer's product. -/
abbrev dot3 (a : FVec Ideal S8192x512 .f32) (w : FVec Ideal S512x512 .f32) : FVec Ideal S8192x512 .f32 :=
  Host.dotGeneral dot_S8192x512_S512x512_S8192x512_1_0_0_1_n_n none a w

/-- a · w on [8192, 512] × [512, 256]: the second graph layer's product. -/
abbrev dot4 (a : FVec Ideal S8192x512 .f32) (w : FVec Ideal S512x256 .f32) : FVec Ideal S8192x256 .f32 :=
  Host.dotGeneral dot_S8192x512_S512x256_S8192x256_1_0_0_1_n_n none a w

/-- a · w + b on [8192, 768] × [768, 256]: the output layer. -/
abbrev lin5 (a : FVec Ideal S8192x768 .f32) (w : FVec Ideal S768x256 .f32) (b : FVec Ideal S256 .f32) : FVec Ideal S8192x256 .f32 :=
  addf (F := Ideal) (Host.dotGeneral dot_S8192x768_S768x256_S8192x256_1_0_0_1_n_n none a w) (broadcastInDim S8192x256 ![0, 1] bcast_S1x256_S8192x256_0_1 (broadcastInDim S1x256 ![1] bcast_S256_S1x256_1 b))

/-- 1 / (1 + exp (−(z · zᵀ))): the decoder. -/
abbrev decode (z : FVec Ideal S8192x512 .f32) : FVec Ideal S8192x8192 .f32 :=
  Host.divf (broadcastInDim S8192x8192 ![] bcast_S_S8192x8192 (constant (F := Ideal) S_ .f32 0x3F800000#32)) (addf (broadcastInDim S8192x8192 ![] bcast_S_S8192x8192 (constant (F := Ideal) S_ .f32 0x3F800000#32)) (Host.exp (Host.negf (Host.dotGeneral dot_S8192x512_S512x8192_S8192x8192_1_0_0_1_n_n none z (transpose S512x8192 [1, 0] z transposes_S8192x512_S512x8192_1_0)))))

theorem lin1_at (a : FVec Ideal S8192x512 .f32) (w : FVec Ideal S512x512 .f32) (b : FVec Ideal S512 .f32) (i : Fin 8192) (j : Fin 512) :
    lin1 a w b (ix2 i j) = max ((∑ k : Fin 512, a (ix2 i k) * w (ix2 k j)) + b (ix1 j)) 0 :=
  (ref_relu_at _ _).trans (congrArg (fun x => max x 0) (ref_dense1_at a w b i j))

theorem lin2_at (a : FVec Ideal S8192x1024 .f32) (w : FVec Ideal S1024x256 .f32) (b : FVec Ideal S256 .f32) (i : Fin 8192) (j : Fin 256) :
    lin2 a w b (ix2 i j) = (∑ k : Fin 1024, a (ix2 i k) * w (ix2 k j)) + b (ix1 j) := ref_dense2_at a w b i j

theorem dot3_at (a : FVec Ideal S8192x512 .f32) (w : FVec Ideal S512x512 .f32) (i : Fin 8192) (j : Fin 512) :
    dot3 a w (ix2 i j) = ∑ k : Fin 512, a (ix2 i k) * w (ix2 k j) := ref_dot3_at a w i j

theorem dot4_at (a : FVec Ideal S8192x512 .f32) (w : FVec Ideal S512x256 .f32) (i : Fin 8192) (j : Fin 256) :
    dot4 a w (ix2 i j) = ∑ k : Fin 512, a (ix2 i k) * w (ix2 k j) := ref_dot4_at a w i j

theorem lin5_at (a : FVec Ideal S8192x768 .f32) (w : FVec Ideal S768x256 .f32) (b : FVec Ideal S256 .f32) (i : Fin 8192) (j : Fin 256) :
    lin5 a w b (ix2 i j) = (∑ k : Fin 768, a (ix2 i k) * w (ix2 k j)) + b (ix1 j) := ref_dense5_at a w b i j

theorem decode_at (z : FVec Ideal S8192x512 .f32) (i j : Fin 8192) :
    decode z (ix2 i j) = Ideal.logistic (∑ k : Fin 512, z (ix2 i k) * z (ix2 j k)) := ref_tail_at z i j

end Cert.RefStages

end
-- ==== Proof.KIValue.lean ====
/-
  The idealized kernel's result as ONE term of its thirteen arguments, in the reference's own operations. Call by
  call: the blocks the pipeline writes back cover the result array, and at an index (i, j) the body's value is the
  sum over k of x(i,k)·w(k,j) plus the bias row's j-th entry (the first call: the maximum of that with 0; the last:
  the logistic function of the sum over k of z(i,k)·z(j,k)). At the same index the reference's stage — a host matrix
  product, a bias vector stretched over the rows, a maximum with the zero array, 1/(1+exp(−x)) — holds the same number:
  the bias row the kernel is handed is the bias vector recast as [1, N], and where it is handed a zero row the sum
  plus 0 is the sum. The host operations between the calls are the reference's own, operation for operation, so the
  composed terms agree.
-/
import proofs.«160839_j45148696215965_1_alg».proof.Proof.Gen.KernelIdeal.Launch
import proofs.«160839_j45148696215965_1_alg».proof.Proof.Gen.KernelIdeal.Skeleton
import proofs.«160839_j45148696215965_1_alg».proof.Proof.Gen.KernelIdeal.Points
import proofs.«160839_j45148696215965_1_alg».proof.Proof.KILeaves
import proofs.«160839_j45148696215965_1_alg».proof.Proof.KIFinal0
import proofs.«160839_j45148696215965_1_alg».proof.Proof.KIFinal1
import proofs.«160839_j45148696215965_1_alg».proof.Proof.KIFinal2
import proofs.«160839_j45148696215965_1_alg».proof.Proof.KIFinal3
import proofs.«160839_j45148696215965_1_alg».proof.Proof.KIFinal4
import proofs.«160839_j45148696215965_1_alg».proof.Proof.KIFinal5
import proofs.«160839_j45148696215965_1_alg».proof.Proof.RefStages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.HostRead Cert.RefStages Cert.HostDense Idealize.ShloMosaic.ValueIdx

variable [Cert.ReferenceIdeal.Facts₀]

/-! ## Each call's whole-array function is the reference's stage -/

/-- The first call: its bias row is the bias vector recast as [1, 512]. -/
theorem stage0 (a : FVec Ideal S8192x512 .f32) (w : FVec Ideal S512x512 .f32) (b : FVec Ideal S512 .f32) :
    denseRelu0 a w (row30 (F := Ideal) b) = lin1 a w b := by
  funext idx
  obtain ⟨i, j, rfl⟩ : ∃ (i : Fin 8192) (j : Fin 512), idx = ix2 i j := ⟨idx 0, idx 1, eq_ix2 idx⟩
  rw [denseRelu0_at, lin1_at]
  exact congrArg (fun x => max ((∑ k : Fin 512, a (ix2 i k) * w (ix2 k j)) + x) 0) (row_cast_at b _ 0 j)

theorem stage1 (a : FVec Ideal S8192x1024 .f32) (w : FVec Ideal S1024x256 .f32) (b : FVec Ideal S256 .f32) :
    dense1 a w (row33 (F := Ideal) b) = lin2 a w b := by
  funext idx
  obtain ⟨i, j, rfl⟩ : ∃ (i : Fin 8192) (j : Fin 256), idx = ix2 i j := ⟨idx 0, idx 1, eq_ix2 idx⟩
  rw [dense1_at, lin2_at]
  exact congrArg (fun x => (∑ k : Fin 1024, a (ix2 i k) * w (ix2 k j)) + x) (row_cast_at b _ 0 j)

/-- The third call is handed a zero bias row: the sum plus 0 is the sum. -/
theorem stage2 (a : FVec Ideal S8192x512 .f32) (w : FVec Ideal S512x512 .f32) :
    dense2 a w (zrow35 (F := Ideal)) = dot3 a w := by
  funext idx
  obtain ⟨i, j, rfl⟩ : ∃ (i : Fin 8192) (j : Fin 512), idx = ix2 i j := ⟨idx 0, idx 1, eq_ix2 idx⟩
  rw [dense2_at, dot3_at, show zrow35 (F := Ideal) (ix2 (0 : Fin 1) j) = 0 from zero_bcast_at _ _, add_zero]

theorem stage3 (a : FVec Ideal S8192x512 .f32) (w : FVec Ideal S512x256 .f32) :
    dense3 a w (zrow53 (F := Ideal)) = dot4 a w := by
  funext idx
  obtain ⟨i, j, rfl⟩ : ∃ (i : Fin 8192) (j : Fin 256), idx = ix2 i j := ⟨idx 0, idx 1, eq_ix2 idx⟩
  rw [dense3_at, dot4_at, show zrow53 (F := Ideal) (ix2 (0 : Fin 1) j) = 0 from zero_bcast_at _ _, add_zero]

theorem stage4 (a : FVec Ideal S8192x768 .f32) (w : FVec Ideal S768x256 .f32) (b : FVec Ideal S256 .f32) :
    dense4 a w (row72 (F := Ideal) b) = lin5 a w b := by
  funext idx
  obtain ⟨i, j, rfl⟩ : ∃ (i : Fin 8192) (j : Fin 256), idx = ix2 i j := ⟨idx 0, idx 1, eq_ix2 idx⟩
  rw [dense4_at, lin5_at]
  exact congrArg (fun x => (∑ k : Fin 768, a (ix2 i k) * w (ix2 k j)) + x) (row_cast_at b _ 0 j)

theorem stage5 (z : FVec Ideal S8192x512 .f32) : gramLogistic5 z = decode z := by
  funext idx
  obtain ⟨i, j, rfl⟩ : ∃ (i j : Fin 8192), idx = ix2 i j := ⟨idx 0, idx 1, eq_ix2 idx⟩
  rw [gramLogistic5_at, decode_at]

/-! ## The chain of results, each over the arguments -/

variable (m : (ℓ : Loc nD τ sig) → Buf (Elt Ideal) ℓ) (c : Dev nD)

/-- The first call's result: relu (x · w₁ + b₁). -/
theorem out0 : W4 m c main_v31 = (lin1 (m ((c : Thread nD τ).loc main_arg0)) (m ((c : Thread nD τ).loc main_arg3)) (m ((c : Thread nD τ).loc main_arg4))) := by
  have h0 : U3 m c (Pipeline.arrRef spec0 0) = (m ((c : Thread nD τ).loc main_arg0)) := W3_arg0 m c
  have h1 : U3 m c (Pipeline.arrRef spec0 1) = (m ((c : Thread nD τ).loc main_arg3)) := W3_arg3 m c
  have h2 : U3 m c (Pipeline.arrRef spec0 2) = row30 (F := Ideal) (m ((c : Thread nD τ).loc main_arg4)) := (W3_v30 m c).trans (congrArg (row30 (F := Ideal)) (W2_arg4 m c))
  exact (W4_out m c).trans ((final0 (U3 m) c).trans (by rw [h0, h1, h2]; exact stage0 _ _ _))

/-- The second call's result: [x | first result] · w₂ + b₂. -/
theorem out1 : W6 m c main_v34 = (lin2 (cat32 (F := Ideal) (m ((c : Thread nD τ).loc main_arg0)) (lin1 (m ((c : Thread nD τ).loc main_arg0)) (m ((c : Thread nD τ).loc main_arg3)) (m ((c : Thread nD τ).loc main_arg4)))) (m ((c : Thread nD τ).loc main_arg5)) (m ((c : Thread nD τ).loc main_arg6))) := by
  have h0 : U5 m c (Pipeline.arrRef spec1 0) = cat32 (F := Ideal) (m ((c : Thread nD τ).loc main_arg0)) (lin1 (m ((c : Thread nD τ).loc main_arg0)) (m ((c : Thread nD τ).loc main_arg3)) (m ((c : Thread nD τ).loc main_arg4))) :=
    (W5_v32 m c).trans (by rw [W4_arg0 m c, out0 m c])
  have h1 : U5 m c (Pipeline.arrRef spec1 1) = (m ((c : Thread nD τ).loc main_arg5)) := W5_arg5 m c
  have h2 : U5 m c (Pipeline.arrRef spec1 2) = row33 (F := Ideal) (m ((c : Thread nD τ).loc main_arg6)) := (W5_v33 m c).trans (congrArg (row33 (F := Ideal)) (W4_arg6 m c))
  exact (W6_out m c).trans ((final1 (U5 m) c).trans (by rw [h0, h1, h2]; exact stage1 _ _ _))

/-- The third call's result: x · g₁. -/
theorem out2 : W8 m c main_v36 = (dot3 (m ((c : Thread nD τ).loc main_arg0)) (m ((c : Thread nD τ).loc main_arg7))) := by
  have h0 : U7 m c (Pipeline.arrRef spec2 0) = (m ((c : Thread nD τ).loc main_arg0)) := W7_arg0 m c
  have h1 : U7 m c (Pipeline.arrRef spec2 1) = (m ((c : Thread nD τ).loc main_arg7)) := W7_arg7 m c
  have h2 : U7 m c (Pipeline.arrRef spec2 2) = zrow35 (F := Ideal) := W7_v35 m c
  exact (W8_out m c).trans ((final2 (U7 m) c).trans (by rw [h0, h1, h2]; exact stage2 _ _))

theorem src_at8 : W8 m c main_v3 = (src3 (F := Ideal) (m ((c : Thread nD τ).loc main_arg2))) := (W8_main_v3 m c).trans (W1_v3 m c)
theorem dst_at8 : W8 m c main_v6 = (dst6 (F := Ideal) (m ((c : Thread nD τ).loc main_arg2))) := (W8_main_v6 m c).trans (W1_v6 m c)
theorem norm_at3 : W3 m c main_v29 = (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) :=
  (W3_v29 m c).trans (by rw [W2_v14 m c, W1_v12 m c, W1_v13 m c, W1_cst_2 m c, W2_main_v3 m c, W1_v3 m c, W2_main_v6 m c, W1_v6 m c])
theorem norm_at8 : W8 m c main_v29 = (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) := (W8_main_v29 m c).trans (norm_at3 m c)
theorem src_at10 : W10 m c main_v3 = (src3 (F := Ideal) (m ((c : Thread nD τ).loc main_arg2))) := (W10_main_v3 m c).trans (W1_v3 m c)
theorem dst_at10 : W10 m c main_v6 = (dst6 (F := Ideal) (m ((c : Thread nD τ).loc main_arg2))) := (W10_main_v6 m c).trans (W1_v6 m c)
theorem norm_at10 : W10 m c main_v29 = (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) := (W10_main_v29 m c).trans (norm_at3 m c)

/-- The first graph layer, aggregated over the edges and biased. -/
theorem agg1 : W9 m c main_v52 = (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) :=
  (W9_v52 m c).trans (by rw [out2 m c, src_at8 m c, dst_at8 m c, norm_at8 m c, W8_arg8 m c])

/-- The fourth call's result: (aggregated first layer) · g₂. -/
theorem out3 : W10 m c main_v54 = (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) := by
  have h0 : U9 m c (Pipeline.arrRef spec3 0) = (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) := agg1 m c
  have h1 : U9 m c (Pipeline.arrRef spec3 1) = (m ((c : Thread nD τ).loc main_arg9)) := W9_arg9 m c
  have h2 : U9 m c (Pipeline.arrRef spec3 2) = zrow53 (F := Ideal) := W9_v53 m c
  exact (W10_out m c).trans ((final3 (U9 m) c).trans (by rw [h0, h1, h2]; exact stage3 _ _))

/-- The second argument joined with the aggregated, biased second graph layer. -/
theorem x2in : W11 m c main_v71 = (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) :=
  (W11_v71 m c).trans (by rw [W10_arg1 m c, out3 m c, src_at10 m c, dst_at10 m c, norm_at10 m c, W10_arg10 m c])

/-- The fifth call's result: [y | graph branch] · w₃ + b₃. -/
theorem out4 : W12 m c main_v73 = (lin5 (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) (m ((c : Thread nD τ).loc main_arg11)) (m ((c : Thread nD τ).loc main_arg12))) := by
  have h0 : U11 m c (Pipeline.arrRef spec4 0) = (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) := x2in m c
  have h1 : U11 m c (Pipeline.arrRef spec4 1) = (m ((c : Thread nD τ).loc main_arg11)) := W11_arg11 m c
  have h2 : U11 m c (Pipeline.arrRef spec4 2) = row72 (F := Ideal) (m ((c : Thread nD τ).loc main_arg12)) := (W11_v72 m c).trans (congrArg (row72 (F := Ideal)) (W10_arg12 m c))
  exact (W12_out m c).trans ((final4 (U11 m) c).trans (by rw [h0, h1, h2]; exact stage4 _ _ _))

/-- The latent array: the two branches side by side. -/
theorem latent : W13 m c main_v74 = (cat74 (F := Ideal) (lin2 (cat32 (F := Ideal) (m ((c : Thread nD τ).loc main_arg0)) (lin1 (m ((c : Thread nD τ).loc main_arg0)) (m ((c : Thread nD τ).loc main_arg3)) (m ((c : Thread nD τ).loc main_arg4)))) (m ((c : Thread nD τ).loc main_arg5)) (m ((c : Thread nD τ).loc main_arg6))) (lin5 (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) (m ((c : Thread nD τ).loc main_arg11)) (m ((c : Thread nD τ).loc main_arg12)))) :=
  (W13_v74 m c).trans (by rw [W12_main_v34 m c, out1 m c, out4 m c])

/-- THE RESULT: what the last call's pipeline leaves is the decoder of the latent array. -/
theorem result_term : (dat5 (U13 m) c).arrAt 2 cfg5.N = decode (cat74 (F := Ideal) (lin2 (cat32 (F := Ideal) (m ((c : Thread nD τ).loc main_arg0)) (lin1 (m ((c : Thread nD τ).loc main_arg0)) (m ((c : Thread nD τ).loc main_arg3)) (m ((c : Thread nD τ).loc main_arg4)))) (m ((c : Thread nD τ).loc main_arg5)) (m ((c : Thread nD τ).loc main_arg6))) (lin5 (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) (m ((c : Thread nD τ).loc main_arg11)) (m ((c : Thread nD τ).loc main_arg12)))) := by
  have h0 : U13 m c (Pipeline.arrRef spec5 0) = (cat74 (F := Ideal) (lin2 (cat32 (F := Ideal) (m ((c : Thread nD τ).loc main_arg0)) (lin1 (m ((c : Thread nD τ).loc main_arg0)) (m ((c : Thread nD τ).loc main_arg3)) (m ((c : Thread nD τ).loc main_arg4)))) (m ((c : Thread nD τ).loc main_arg5)) (m ((c : Thread nD τ).loc main_arg6))) (lin5 (x71 (F := Ideal) (m ((c : Thread nD τ).loc main_arg1)) (dot4 (agg52 (F := Ideal) (dot3 (m ((c : Thread nD τ).loc main_arg0)) (m ((c : Thread nD τ).loc main_arg7))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg8))) (m ((c : Thread nD τ).loc main_arg9))) (src3 (F := Ideal) (m ((c : Thread nD τ).loc main_arg2))) (dst6 (F := Ideal) (m ((c : Thread nD τ).loc main_arg2))) (norm29 (F := Ideal) (dinv14 (F := Ideal) (gt12 (F := Ideal) (m ((c : Thread nD τ).loc main_arg2))) (rs13 (F := Ideal) (m ((c : Thread nD τ).loc main_arg2))) (c2 (F := Ideal))) (src3 (F := Ideal) (m ((c : Thread nD τ).loc main_arg2))) (dst6 (F := Ideal) (m ((c : Thread nD τ).loc main_arg2)))) (m ((c : Thread nD τ).loc main_arg10))) (m ((c : Thread nD τ).loc main_arg11)) (m ((c : Thread nD τ).loc main_arg12)))) := latent m c
  exact (final5 (U13 m) c).trans (by rw [h0]; exact stage5 _)

end Cert.KernelIdeal.Fr

end
-- ==== Proof.KIAlg.lean ====
/-
  The algebraic claim. The idealized kernel's run ends with its result array at the decoder of the latent array, a term
  of the thirteen arguments in the reference's own operations; the reference's run ends with its result at its composed
  term of its arguments. From memories that agree on the arguments the two terms are one: after the arguments are
  rewritten, they are the same operations applied to the same arrays.
-/
import proofs.«160839_j45148696215965_1_alg».proof.Defs
import proofs.«160839_j45148696215965_1_alg».proof.Proof.Gen.ReferenceIdeal
import proofs.«160839_j45148696215965_1_alg».proof.Proof.Gen.Pre_finite_inputs
import proofs.«160839_j45148696215965_1_alg».proof.Proof.KIFrame
import proofs.«160839_j45148696215965_1_alg».proof.Proof.KIValue
import proofs.«160839_j45148696215965_1_alg».proof.Proof.RefRunH

set_option maxRecDepth 16384

noncomputable section

namespace Cert.Proof.Alg

open Idealize.ShloMosaic Idealize.ShloMosaic.TcCoe Idealize.SL.Sem
open Cert.KernelIdeal Cert.KernelIdeal.Gen Cert.KernelIdeal.Fr

set_option maxHeartbeats 4000000 in
/-- From memories agreeing on the arguments, the reference's composed term is what the kernel's last call leaves. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12)) :
    Cert.ReferenceIdeal.ValueH.resH (F := Ideal) m' c = (dat5 (U13 m) c).arrAt 2 cfg5.N := by
  rw [result_term m c]
  unfold Cert.ReferenceIdeal.ValueH.resH
  rw [h0, h1, h2, h3, h4, h5, h6, h7, h8, h9, h10, h11, h12]
  rfl

/-- At the ideal instance the two programs, run from memories agreeing on the arguments, both end, with equal
    results and unchanged arguments. -/
theorem algebraic : Cert.algebraic_KernelIdeal_ReferenceIdeal := by
  intro m ρ m' ρ' _ hagree
  refine ⟨fun c => (dat5 (U13 m) c).arrAt 2 cfg5.N, run_value m ρ, ?_⟩
  exact (θ_run Cert.ReferenceIdeal.defs _ _).mono
    (fun _ h c => ⟨(h c).1.trans (value_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2), (h c).2⟩)
    (Cert.ReferenceIdeal.ValueH.run (F := Ideal) m' ρ')

end Cert.Proof.Alg

end
-- ==== Proof.lean ====
/-
  The certificate's claim, assembled. The program is six Pallas calls — five dense layers act(x·w + b) over blocks of
  1024 rows and a decoder logistic(z·zᵀ) over 1024 × 1024 blocks — among stretches of host operations (the graph
  normalisation, the gathers and scatter-sums of the two graph layers, concatenations); the reference computes the
  same with host matrix products.
  * The two kernel programs' frames: the program is a chain of fourteen segments, each Pallas call a segment whose
    arrays are taken out of the core's unscoped buffers at entry and put back at exit; the run ends with every
    argument array as launched (Proof/KRun.lean, Proof/KFrame.lean at the word-level instance; Proof/KIRun.lean,
    Proof/KIFrame.lean at the ideal one; the last call, which hands one array to two windows, deals that array's
    buffer to them at the two halves of the full share: Proof/KSplit5.lean, Proof/KISplit5.lean).
  * The reference's frame: its run read back operation by operation (Proof/RefFrame.lean).
  * The idealization rewrote no operation: nothing to preserve.
  * The algebraic claim: call by call the blocks written back cover the result, which at every index is the
    reference's stage at that index; the host operations between the calls are the reference's own
    (Proof/KIValue.lean, Proof/KIAlg.lean).
-/
import proofs.«160839_j45148696215965_1_alg».proof.Defs
import proofs.«160839_j45148696215965_1_alg».proof.Proof.Gen.Kernel
import proofs.«160839_j45148696215965_1_alg».proof.Proof.Gen.KernelIdeal
import proofs.«160839_j45148696215965_1_alg».proof.Proof.Gen.ReferenceIdeal
import proofs.«160839_j45148696215965_1_alg».proof.Proof.Gen.Pre_finite_inputs
import proofs.«160839_j45148696215965_1_alg».proof.Proof.KFrame
import proofs.«160839_j45148696215965_1_alg».proof.Proof.KIFrame
import proofs.«160839_j45148696215965_1_alg».proof.Proof.RefFrame
import proofs.«160839_j45148696215965_1_alg».proof.Proof.KIAlg

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.Proof.RefFrame.frame_ri,
  trivial,
  Cert.Proof.Alg.algebraic⟩

end Cert.Proof

end
